-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x2048x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 2, 4], ![false, false, false]⟩

def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_1_0_0_n_n_wf : DotDims.WF S512x1024 S1024x1024 S512x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x2048, .f32⟩
  | .hbm, ⟨44, _⟩ => ⟨S4x2048x2048, .f32⟩
  | .hbm, ⟨45, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.FrameR0K.lean ====
/-
  The frame of the projection region of the kernel program as printed, read at any float instance.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The projection region (q, k, v = x · Wᵀ for the three weight matrices), at the contents `V` its arrays hold when the
  region is entered: each window's block at a grid point, what the body leaves in each output window's buffer as a
  function of the input blocks, the body's triple, and the proof data of the pipeline with its body obligation.
-/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or the block index
    did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1x512x1024 := Rect.unit (s := S1x512x1024) ![0, 0, 0] S1x512x1024.size inb_S1x512x1024_S1x512x1024_0_0_0
abbrev rW : Rect S1024x1024 := Rect.unit (s := S1024x1024) ![0, 0] S1024x1024.size inb_S1024x1024_S1024x1024_0_0

/-- What the body leaves in the q, k and v windows' buffers: one whole-block store each, of the block of x against a
    weight matrix. -/
def out0_4 (x0 : Vec F S1x512x1024 .f32) (x1 : Vec F S1024x1024 .bf16) : Vec F S1x512x1024 .bf16 :=
  View.canon [⟨rX, k0_pay2 (View.ld x0 rX) (View.ld x1 rW)⟩]
def out0_5 (x0 : Vec F S1x512x1024 .f32) (x2 : Vec F S1024x1024 .bf16) : Vec F S1x512x1024 .bf16 :=
  View.canon [⟨rX, k0_pay3 (View.ld x0 rX) (View.ld x2 rW)⟩]
def out0_6 (x0 : Vec F S1x512x1024 .f32) (x3 : Vec F S1024x1024 .bf16) : Vec F S1x512x1024 .bf16 :=
  View.canon [⟨rX, k0_pay4 (View.ld x0 rX) (View.ld x3 rW)⟩]

/-- One whole-block store covers the buffer. -/
theorem cover0 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

set_option maxHeartbeats 4000000 in
/-- The projection body on whole staging memrefs: the inputs keep their contents, each output ends at its function of
    the inputs. -/
theorem sound_kernel0 (c : Dev nD) (E : Set ℕ) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the projection pipeline on core `c`: the arrays as the region finds them; after the body each
    input's buffer at its block and each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.FrameR1BaseK.lean ====
/-
  The attention region of the kernel program as printed: the conditions, the memrefs and the invariant its control cases share.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The attention region: what its five control cases share. The body branches on the grid point three times — at
  the first key tile of a query tile it resets the three scratch buffers (running maximum, denominator, numerator);
  at a key tile not wholly after the query tile it folds the tile in; at the last key tile it writes the
  quotient out. The conditions are decided over the 32 grid points, and the output window is idle except at the
  last key tile.
-/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The key tile is the first of its row of tiles. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile is not wholly after the query tile. -/
abbrev cond1_1 (i : grid1.Coords) : Prop :=
  (Scalar.cmpi .ne (Scalar.extui (Scalar.cmpi .sle (BitVec.ofNat 32 (i 2).val) (Scalar.subi (Scalar.muli (Scalar.addi (BitVec.ofNat 32 (i 1).val) 1#32) 2#32) 1#32))) 0#32) = 1#1
theorem hcond1_1 : ∀ t : Fin cfg1.N, cond1_1 (grid1.coords t) ↔ (t.val % 8 < 2 ∨ 4 ≤ t.val % 8) :=
  (by decide +kernel : ∀ t : Fin grid1.N, cond1_1 (grid1.coords t) ↔ (t.val % 8 < 2 ∨ 4 ≤ t.val % 8))

/-- The key tile is the last. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

theorem liveAt1_3 : ∀ t : Fin cfg1.N, cond1_2 (grid1.coords t) → cfg1.idle 3 (grid1.coords t) = false := by decide +kernel
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel

/-- Each window's current staging memref at point `t`, as the pipeline passes it to the body. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: the running maximum, the denominator and the numerator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

/-- The other region's staging buffers, each whole at some contents: what the attention region never touches. -/
abbrev restCC0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant as the launch hands it over, with the scratch operands singled out. -/
theorem PhiA1_split (c : Dev nD) :
    (Pipeline.ΦA spec1 c : sProp 𝕄)
      ⊢ iprop((∃ d, owns (c : Thread nD τ) scM fullShare d) ∗ (∃ d, owns (c : Thread nD τ) scL fullShare d) ∗ (∃ d, owns (c : Thread nD τ) scA fullShare d) ∗ restCC0 c ∗ (∃ r, prngReg c r)) := by
  unfold Pipeline.ΦA; rw [scopedRest1_eq]; simp only [scM, scL, scA, owns_whole]
  iintro ⟨⟨H1, H2, H3, H4, H5, H6, H7, H8, H9, H10, H11, HM, HL, HA⟩, Hg⟩
  isplitl [HM]; · iexact HM
  isplitl [HL]; · iexact HL
  isplitl [HA]; · iexact HA
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

theorem PhiA1_join (c : Dev nD) :
    iprop((∃ d, owns (c : Thread nD τ) scM fullShare d) ∗ (∃ d, owns (c : Thread nD τ) scL fullShare d) ∗ (∃ d, owns (c : Thread nD τ) scA fullShare d) ∗ restCC0 c ∗ (∃ r, prngReg c r))
      ⊢ (Pipeline.ΦA spec1 c : sProp 𝕄) := by
  unfold Pipeline.ΦA; rw [scopedRest1_eq]; simp only [scM, scL, scA, owns_whole]
  iintro ⟨HM, HL, HA, ⟨H1, H2, H3, H4, H5, H6, H7, H8, H9, H10, H11⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HM]; · iexact HM
    isplitl [HL]; · iexact HL
    iexact HA
  iexact Hg

end Cert.Kernel.Fr

end
-- ==== Proof.FrameR1RunAK.lean ====
/-
  The attention body of the kernel program as printed, one control case.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.FrameR1BaseK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The attention body in the case of the first key tile of a row of tiles (reset, then fold the tile in; no write-out): on whole staging memrefs with the inputs at their
    blocks, it runs to the continuation with the inputs as they were and each buffer it stored into at its stores
    written over what was there (the stores, last first, are the witnesses the run finds). -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    Σ' (LS7 : List (View.Piece (Elt F) S1024x1 .f32)), Σ' (LS8 : List (View.Piece (Elt F) S1024x1 .f32)), { LS9 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f6, %hf6, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    isplitl [H7]; · iexists _; iexact H7
    isplitl [H8]; · iexists _; iexact H8
    iexists _; iexact H9

end Cert.Kernel.Fr

end
-- ==== Proof.FrameR1RunBK.lean ====
/-
  The attention body of the kernel program as printed, one control case.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.FrameR1BaseK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The attention body in the case of a later key tile that is folded in, not the last: on whole staging memrefs with the inputs at their
    blocks, it runs to the continuation with the inputs as they were and each buffer it stored into at its stores
    written over what was there (the stores, last first, are the witnesses the run finds). -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    Σ' (LS7 : List (View.Piece (Elt F) S1024x1 .f32)), Σ' (LS8 : List (View.Piece (Elt F) S1024x1 .f32)), { LS9 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf6; obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    isplitl [H7]; · iexists _; iexact H7
    isplitl [H8]; · iexists _; iexact H8
    iexists _; iexact H9

end Cert.Kernel.Fr

end
-- ==== Proof.FrameR1RunCK.lean ====
/-
  The attention body of the kernel program as printed, one control case.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.FrameR1BaseK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The attention body in the case of a key tile wholly after the query tile, not the last: nothing happens: on whole staging memrefs with the inputs at their
    blocks, it runs to the continuation with the inputs as they were and each buffer it stored into at its stores
    written over what was there (the stores, last first, are the witnesses the run finds). -/
theorem kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs7 ∗ owns (c : Thread nD τ) arg8 fullShare xs8 ∗ owns (c : Thread nD τ) arg9 fullShare xs9) -∗ K ⟨⟩))
          ⊢ wp frame (wpE (defs₀ (F := F)) Variants.none c none) E (cc1__flash_kernel i arg3 harg3 arg4 harg4 arg5 harg5 arg6 harg6 arg7 harg7 arg8 harg8 arg9 harg9) K := by
  intro xi3 E K
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf6; obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.Kernel.Fr

end
-- ==== Proof.FrameR1RunDK.lean ====
/-
  The attention body of the kernel program as printed, one control case.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.FrameR1BaseK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The attention body in the case of the last key tile, wholly after the query tile: only the quotient is written out: on whole staging memrefs with the inputs at their
    blocks, it runs to the continuation with the inputs as they were and each buffer it stored into at its stores
    written over what was there (the stores, last first, are the witnesses the run finds). -/
noncomputable def kernelRun1_D (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs7 ∗ owns (c : Thread nD τ) arg8 fullShare xs8 ∗ owns (c : Thread nD τ) arg9 fullShare xs9) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d6, %f6, -, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Fr

end
-- ==== Proof.FrameR1RunEK.lean ====
/-
  The attention body of the kernel program as printed, one control case.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.FrameR1BaseK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The attention body in the case of the last key tile, folded in, then the quotient written out: on whole staging memrefs with the inputs at their
    blocks, it runs to the continuation with the inputs as they were and each buffer it stored into at its stores
    written over what was there (the stores, last first, are the witnesses the run finds). -/
noncomputable def kernelRun1_E (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    Σ' (L3 : List (View.Piece (Elt F) S1x1024x1024 .f32)), Σ' (LS7 : List (View.Piece (Elt F) S1024x1 .f32)), Σ' (LS8 : List (View.Piece (Elt F) S1024x1 .f32)), { LS9 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d6, %f6, -, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    iexists _; iexact H9

end Cert.Kernel.Fr

end
-- ==== Proof.FrameR1K.lean ====
/-
  The attention region of the kernel program as printed: the scratch carried from point to point, the proof data and the body obligation.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.FrameR1RunAK
import proofs.«173625_j60997125538304_2_alg».proof.Proof.FrameR1RunBK
import proofs.«173625_j60997125538304_2_alg».proof.Proof.FrameR1RunCK
import proofs.«173625_j60997125538304_2_alg».proof.Proof.FrameR1RunDK
import proofs.«173625_j60997125538304_2_alg».proof.Proof.FrameR1RunEK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The attention region: what the scratch buffers (running maximum, denominator, numerator) and the output window's
  buffer hold after each grid point, by recursion on the point; the region's invariant carrying the scratch from
  point to point; the proof data of the pipeline and its body obligation.
-/

section Region1
variable (V : (c : Dev nD) → (b : Ref sig .tc) → Buf (Elt F) ((c : Thread nD τ).loc b))

/-- Views through which the output window's buffer and the three scratch buffers are read. -/
abbrev VO3 : View sig .tc .vmem S1x1024x1024 .f32 := (Memref.whole cc1_stg3_0 : Memref sig .tc .vmem S1x1024x1024 .f32).view
abbrev VSM : View sig .tc .vmem S1024x1 .f32 := scM.view
abbrev VSL : View sig .tc .vmem S1024x1 .f32 := scL.view
abbrev VSA : View sig .tc .vmem S1024x1024 .f32 := scA.view

/-- The three scratch buffers' contents. -/
abbrev St (F : FTy → Type) : Type := Vec F S1024x1 .f32 × Vec F S1024x1 .f32 × Vec F S1024x1024 .f32

/-- Contents nothing reads: the output window's buffer where the body stores nothing, the scratch before the first point. -/
def outJunk : Vec F S1x1024x1024 .f32 := VO3.read (Elt F) VO3.junk
def stJunk : St F := (VSM.read (Elt F) VSM.junk, VSL.read (Elt F) VSL.junk, VSA.read (Elt F) VSA.junk)

/-- The five cases' runs at a point, the conditions decided there from the point's number. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr (by omega)) (fun h => by have := (hcond1_2 t).mp h; omega) (iblk1 V c 0 t) (iblk1 V c 1 t) (iblk1 V c 2 t)
def runB (c : Dev nD) (t : Fin cfg1.N) (h0 : ¬t.val % 4 = 0) (h1 : t.val % 8 < 2 ∨ 4 ≤ t.val % 8) (h2 : ¬t.val % 4 = 3) (xs : St F) :=
  kernelRun1_B (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2
def runD (c : Dev nD) (t : Fin cfg1.N) (h0 : ¬t.val % 4 = 0) (h1 : ¬(t.val % 8 < 2 ∨ 4 ≤ t.val % 8)) (h2 : t.val % 4 = 3) (xs : St F) :=
  kernelRun1_D (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) xs.1 xs.2.1 xs.2.2
def runE (c : Dev nD) (t : Fin cfg1.N) (h0 : ¬t.val % 4 = 0) (h1 : t.val % 8 < 2 ∨ 4 ≤ t.val % 8) (h2 : t.val % 4 = 3) (xs : St F) :=
  kernelRun1_E (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2

/-- What each case leaves: its stores read back. -/
def stA (c : Dev nD) (t : Fin cfg1.N) (h0 : t.val % 4 = 0) : St F :=
  (VSM.read (Elt F) (VSM.writes (Elt F) VSM.junk (runA V c t h0).1), VSL.read (Elt F) (VSL.writes (Elt F) VSL.junk (runA V c t h0).2.1),
   VSA.read (Elt F) (VSA.writes (Elt F) VSA.junk (runA V c t h0).2.2.1))
def stB (c : Dev nD) (t : Fin cfg1.N) (h0 : ¬t.val % 4 = 0) (h1 : t.val % 8 < 2 ∨ 4 ≤ t.val % 8) (h2 : ¬t.val % 4 = 3) (xs : St F) : St F :=
  (VSM.read (Elt F) (VSM.writes (Elt F) VSM.junk (runB V c t h0 h1 h2 xs).1), VSL.read (Elt F) (VSL.writes (Elt F) VSL.junk (runB V c t h0 h1 h2 xs).2.1),
   VSA.read (Elt F) (VSA.writes (Elt F) VSA.junk (runB V c t h0 h1 h2 xs).2.2.1))
def stE (c : Dev nD) (t : Fin cfg1.N) (h0 : ¬t.val % 4 = 0) (h1 : t.val % 8 < 2 ∨ 4 ≤ t.val % 8) (h2 : t.val % 4 = 3) (xs : St F) : St F :=
  (VSM.read (Elt F) (VSM.writes (Elt F) VSM.junk (runE V c t h0 h1 h2 xs).2.1), VSL.read (Elt F) (VSL.writes (Elt F) VSL.junk (runE V c t h0 h1 h2 xs).2.2.1),
   VSA.read (Elt F) (VSA.writes (Elt F) VSA.junk (runE V c t h0 h1 h2 xs).2.2.2.1))
def outD (c : Dev nD) (t : Fin cfg1.N) (h0 : ¬t.val % 4 = 0) (h1 : ¬(t.val % 8 < 2 ∨ 4 ≤ t.val % 8)) (h2 : t.val % 4 = 3) (xs : St F) : Vec F S1x1024x1024 .f32 :=
  VO3.read (Elt F) (VO3.writes (Elt F) VO3.junk (runD V c t h0 h1 h2 xs).1)
def outE (c : Dev nD) (t : Fin cfg1.N) (h0 : ¬t.val % 4 = 0) (h1 : t.val % 8 < 2 ∨ 4 ≤ t.val % 8) (h2 : t.val % 4 = 3) (xs : St F) : Vec F S1x1024x1024 .f32 :=
  VO3.read (Elt F) (VO3.writes (Elt F) VO3.junk (runE V c t h0 h1 h2 xs).1)

/-- Each case's stores into a buffer tile it. -/
theorem coverA_M (c : Dev nD) (t : Fin cfg1.N) (h0 : t.val % 4 = 0) (y : S1024x1.Idx) : ∃ pc ∈ (runA V c t h0).1, y ∈ pc.1.set :=
  View.cover_of_tiledL (runA V c t h0).1 S1024x1.size (by sl_kernel_rfl) y
theorem coverA_L (c : Dev nD) (t : Fin cfg1.N) (h0 : t.val % 4 = 0) (y : S1024x1.Idx) : ∃ pc ∈ (runA V c t h0).2.1, y ∈ pc.1.set :=
  View.cover_of_tiledL (runA V c t h0).2.1 S1024x1.size (by sl_kernel_rfl) y
theorem coverA_A (c : Dev nD) (t : Fin cfg1.N) (h0 : t.val % 4 = 0) (y : S1024x1024.Idx) : ∃ pc ∈ (runA V c t h0).2.2.1, y ∈ pc.1.set :=
  View.cover_of_tiledL (runA V c t h0).2.2.1 S1024x1024.size (by sl_kernel_rfl) y
theorem coverB_M (c : Dev nD) (t : Fin cfg1.N) (h0 : ¬t.val % 4 = 0) (h1 : t.val % 8 < 2 ∨ 4 ≤ t.val % 8) (h2 : ¬t.val % 4 = 3) (xs : St F) (y : S1024x1.Idx) : ∃ pc ∈ (runB V c t h0 h1 h2 xs).1, y ∈ pc.1.set :=
  View.cover_of_tiledL (runB V c t h0 h1 h2 xs).1 S1024x1.size (by sl_kernel_rfl) y
theorem coverB_L (c : Dev nD) (t : Fin cfg1.N) (h0 : ¬t.val % 4 = 0) (h1 : t.val % 8 < 2 ∨ 4 ≤ t.val % 8) (h2 : ¬t.val % 4 = 3) (xs : St F) (y : S1024x1.Idx) : ∃ pc ∈ (runB V c t h0 h1 h2 xs).2.1, y ∈ pc.1.set :=
  View.cover_of_tiledL (runB V c t h0 h1 h2 xs).2.1 S1024x1.size (by sl_kernel_rfl) y
theorem coverB_A (c : Dev nD) (t : Fin cfg1.N) (h0 : ¬t.val % 4 = 0) (h1 : t.val % 8 < 2 ∨ 4 ≤ t.val % 8) (h2 : ¬t.val % 4 = 3) (xs : St F) (y : S1024x1024.Idx) : ∃ pc ∈ (runB V c t h0 h1 h2 xs).2.2.1, y ∈ pc.1.set :=
  View.cover_of_tiledL (runB V c t h0 h1 h2 xs).2.2.1 S1024x1024.size (by sl_kernel_rfl) y
theorem coverE_O (c : Dev nD) (t : Fin cfg1.N) (h0 : ¬t.val % 4 = 0) (h1 : t.val % 8 < 2 ∨ 4 ≤ t.val % 8) (h2 : t.val % 4 = 3) (xs : St F) (y : S1x1024x1024.Idx) : ∃ pc ∈ (runE V c t h0 h1 h2 xs).1, y ∈ pc.1.set :=
  View.cover_of_tiledL (runE V c t h0 h1 h2 xs).1 S1x1024x1024.size (by sl_kernel_rfl) y
theorem coverE_M (c : Dev nD) (t : Fin cfg1.N) (h0 : ¬t.val % 4 = 0) (h1 : t.val % 8 < 2 ∨ 4 ≤ t.val % 8) (h2 : t.val % 4 = 3) (xs : St F) (y : S1024x1.Idx) : ∃ pc ∈ (runE V c t h0 h1 h2 xs).2.1, y ∈ pc.1.set :=
  View.cover_of_tiledL (runE V c t h0 h1 h2 xs).2.1 S1024x1.size (by sl_kernel_rfl) y
theorem coverE_L (c : Dev nD) (t : Fin cfg1.N) (h0 : ¬t.val % 4 = 0) (h1 : t.val % 8 < 2 ∨ 4 ≤ t.val % 8) (h2 : t.val % 4 = 3) (xs : St F) (y : S1024x1.Idx) : ∃ pc ∈ (runE V c t h0 h1 h2 xs).2.2.1, y ∈ pc.1.set :=
  View.cover_of_tiledL (runE V c t h0 h1 h2 xs).2.2.1 S1024x1.size (by sl_kernel_rfl) y
theorem coverE_A (c : Dev nD) (t : Fin cfg1.N) (h0 : ¬t.val % 4 = 0) (h1 : t.val % 8 < 2 ∨ 4 ≤ t.val % 8) (h2 : t.val % 4 = 3) (xs : St F) (y : S1024x1024.Idx) : ∃ pc ∈ (runE V c t h0 h1 h2 xs).2.2.2.1, y ∈ pc.1.set :=
  View.cover_of_tiledL (runE V c t h0 h1 h2 xs).2.2.2.1 S1024x1024.size (by sl_kernel_rfl) y
theorem coverD_O (c : Dev nD) (t : Fin cfg1.N) (h0 : ¬t.val % 4 = 0) (h1 : ¬(t.val % 8 < 2 ∨ 4 ≤ t.val % 8)) (h2 : t.val % 4 = 3) (xs : St F) (y : S1x1024x1024.Idx) : ∃ pc ∈ (runD V c t h0 h1 h2 xs).1, y ∈ pc.1.set :=
  View.cover_of_tiledL (runD V c t h0 h1 h2 xs).1 S1x1024x1024.size (by sl_kernel_rfl) y

/-- One point's effect on (the output window's buffer, the scratch), given the scratch the point before left. -/
def stepAt (c : Dev nD) (t : Fin cfg1.N) (xs : St F) : Vec F S1x1024x1024 .f32 × St F :=
  if h0 : t.val % 4 = 0 then (outJunk, stA V c t h0)
  else if h1 : (t.val % 8 < 2 ∨ 4 ≤ t.val % 8) then
    if h2 : t.val % 4 = 3 then (outE V c t h0 h1 h2 xs, stE V c t h0 h1 h2 xs) else (outJunk, stB V c t h0 h1 h2 xs)
  else if h2 : t.val % 4 = 3 then (outD V c t h0 h1 h2 xs, xs) else (outJunk, xs)

/-- After point `n`: the output window's buffer and the scratch. -/
def outsAt1 (c : Dev nD) : (n : ℕ) → n < cfg1.N → Vec F S1x1024x1024 .f32 × St F
  | 0, hn => stepAt V c ⟨0, hn⟩ stJunk
  | n + 1, hn => stepAt V c ⟨n + 1, hn⟩ (outsAt1 c n (Nat.lt_of_succ_lt hn)).2

/-- The scratch a point finds: what the point before left (nothing in particular before the first). -/
def prevSt (c : Dev nD) (t : Fin cfg1.N) : St F :=
  if h : t.val = 0 then stJunk else (outsAt1 V c (t.val - 1) (Nat.lt_of_le_of_lt (Nat.sub_le _ _) t.isLt)).2

theorem outsAt1_eq (c : Dev nD) (t : Fin cfg1.N) : outsAt1 V c t.val t.isLt = stepAt V c t (prevSt V c t) := by
  obtain ⟨n, hn⟩ := t
  cases n with
  | zero => rfl
  | succ n => rfl

/-- The region's invariant before point `n`: at the start what the launch hands over; afterwards the scratch at what the
    point before left, beside the other scoped buffers and the generator register. -/
def PhiS1 (c : Dev nD) : (n : ℕ) → n ≤ cfg1.N → sProp 𝕄
  | 0, _ => Pipeline.ΦA spec1 c
  | n + 1, hn => iprop(owns (c : Thread nD τ) scM fullShare (outsAt1 V c n hn).2.1 ∗ owns (c : Thread nD τ) scL fullShare (outsAt1 V c n hn).2.2.1
      ∗ owns (c : Thread nD τ) scA fullShare (outsAt1 V c n hn).2.2.2 ∗ restCC0 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM fullShare (outsAt1 V c n hn).2.1 ∗ owns (c : Thread nD τ) scL fullShare (outsAt1 V c n hn).2.2.1
      ∗ owns (c : Thread nD τ) scA fullShare (outsAt1 V c n hn).2.2.2 ∗ restCC0 c ∗ (∃ r, prngReg c r)) := rfl

theorem PhiS1_pos (c : Dev nD) (t : Fin cfg1.N) (hz : t.val ≠ 0) :
    PhiS1 V c t.val (Nat.le_of_lt t.isLt) = iprop(owns (c : Thread nD τ) scM fullShare (prevSt V c t).1 ∗ owns (c : Thread nD τ) scL fullShare (prevSt V c t).2.1
      ∗ owns (c : Thread nD τ) scA fullShare (prevSt V c t).2.2 ∗ restCC0 c ∗ (∃ r, prngReg c r)) := by
  obtain ⟨n, hn⟩ := t
  cases n with
  | zero => exact absurd rfl hz
  | succ n => unfold prevSt; rw [dif_neg (by simp)]; rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Before any point the invariant has the scratch at SOME contents. -/
theorem Phi_weaken (c : Dev nD) (t : Fin cfg1.N) :
    (dat1 V c).Φ t.castSucc ⊢ iprop((∃ d, owns (c : Thread nD τ) scM fullShare d) ∗ (∃ d, owns (c : Thread nD τ) scL fullShare d) ∗ (∃ d, owns (c : Thread nD τ) scA fullShare d) ∗ restCC0 c ∗ (∃ r, prngReg c r)) := by
  rw [PhiS1_castSucc]
  by_cases hz : t.val = 0
  · rw [PhiS1_zero V c _ _ hz]; exact PhiA1_split c
  · rw [PhiS1_pos V c t hz]
    iintro ⟨HM, HL, HA, HR, Hg⟩
    isplitl [HM]; · iexists _; iexact HM
    isplitl [HL]; · iexists _; iexact HL
    isplitl [HA]; · iexists _; iexact HA
    isplitl [HR]; · iexact HR
    iexact Hg

end Region1

section Region1b
variable (V : (c : Dev nD) → (b : Ref sig .tc) → Buf (Elt F) ((c : Thread nD τ).loc b))

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the inputs' memrefs hold their blocks; the point's number says which of the five cases it is
    in; the invariant hands the body the scratch at what the point before left (at anything where the case resets
    it) and takes it back at this point's contents; the output window's buffer is handed back untouched except at the
    last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_eq V c t]; unfold stepAt; rw [dif_pos h0]; unfold stA; dsimp only
    iintro ⟨HΦ, Ho, ⟨%d0, H0⟩, ⟨%d1, H1⟩, ⟨%d2, H2⟩, ⟨%d3, H3⟩⟩
    ihave HS := (Phi_weaken V c t) $$ HΦ
    icases HS with ⟨HM, HL, HA, HR, Hg⟩
    iapply ((runA V c t h0).2.2.2 _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, ⟨%e7, HM⟩, ⟨%e8, HL⟩, ⟨%e9, HA⟩⟩
    isplitl [HM HL HA HR Hg]
    · skip
      isplitl [HM]
      · unfold owns; iexists _; isplitr
        swap; · iexact HM
        ipureintro; exact View.read_writes_of_cover _ _ _ _ _ (coverA_M V c t h0)
      isplitl [HL]
      · unfold owns; iexists _; isplitr
        swap; · iexact HL
        ipureintro; exact View.read_writes_of_cover _ _ _ _ _ (coverA_L V c t h0)
      isplitl [HA]
      · unfold owns; iexists _; isplitr
        swap; · iexact HA
        ipureintro; exact View.read_writes_of_cover _ _ _ _ _ (coverA_A V c t h0)
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : (t.val % 8 < 2 ∨ 4 ≤ t.val % 8)
    · by_cases h2 : t.val % 4 = 3
      · rw [show (dat1 V c).leavesExact 3 t = owns (c : Thread nD τ) (ms1_3 t) fullShare ((dat1 V c).after 3 t) from by
      unfold Dat.leavesExact; rw [liveAt1_3 t ((hcond1_2 t).mpr h2)], after1_3]
        rw [outsAt1_eq V c t]; unfold stepAt; rw [dif_neg h0, dif_pos h1, dif_pos h2]; unfold stE outE; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply ((runE V c t h0 h1 h2 (prevSt V c t)).2.2.2.2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e6, H3⟩, ⟨%e7, HM⟩, ⟨%e8, HL⟩, ⟨%e9, HA⟩⟩
        isplitl [HM HL HA HR Hg]
        · skip
          isplitl [HM]
          · unfold owns; iexists _; isplitr
            swap; · iexact HM
            ipureintro; exact View.read_writes_of_cover _ _ _ _ _ (coverE_M V c t h0 h1 h2 _)
          isplitl [HL]
          · unfold owns; iexists _; isplitr
            swap; · iexact HL
            ipureintro; exact View.read_writes_of_cover _ _ _ _ _ (coverE_L V c t h0 h1 h2 _)
          isplitl [HA]
          · unfold owns; iexists _; isplitr
            swap; · iexact HA
            ipureintro; exact View.read_writes_of_cover _ _ _ _ _ (coverE_A V c t h0 h1 h2 _)
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_O V c t h0 h1 h2 _)
      · rw [Dat.leavesExact_idle (dat1 V c) 3 t (idleAt1_3 t (fun h => h2 ((hcond1_2 t).mp h))) (noFlush1_3 t (fun h => h2 ((hcond1_2 t).mp h)))]
        rw [outsAt1_eq V c t]; unfold stepAt; rw [dif_neg h0, dif_pos h1, dif_neg h2]; unfold stB; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply ((runB V c t h0 h1 h2 (prevSt V c t)).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%e7, HM⟩, ⟨%e8, HL⟩, ⟨%e9, HA⟩⟩
        isplitl [HM HL HA HR Hg]
        · skip
          isplitl [HM]
          · unfold owns; iexists _; isplitr
            swap; · iexact HM
            ipureintro; exact View.read_writes_of_cover _ _ _ _ _ (coverB_M V c t h0 h1 h2 _)
          isplitl [HL]
          · unfold owns; iexists _; isplitr
            swap; · iexact HL
            ipureintro; exact View.read_writes_of_cover _ _ _ _ _ (coverB_L V c t h0 h1 h2 _)
          isplitl [HA]
          · unfold owns; iexists _; isplitr
            swap; · iexact HA
            ipureintro; exact View.read_writes_of_cover _ _ _ _ _ (coverB_A V c t h0 h1 h2 _)
          isplitl [HR]; · iexact HR
          iexact Hg
        isplitl [Ho]; · iexact Ho
        isplitl [H0]; · iexact H0
        isplitl [H1]; · iexact H1
        isplitl [H2]; · iexact H2
        iexists _; iexact H3
    · by_cases h2 : t.val % 4 = 3
      · rw [show (dat1 V c).leavesExact 3 t = owns (c : Thread nD τ) (ms1_3 t) fullShare ((dat1 V c).after 3 t) from by
      unfold Dat.leavesExact; rw [liveAt1_3 t ((hcond1_2 t).mpr h2)], after1_3]
        rw [outsAt1_eq V c t]; unfold stepAt; rw [dif_neg h0, dif_neg h1, dif_pos h2]; unfold outD; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply ((runD V c t h0 h1 h2 (prevSt V c t)).2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e6, H3⟩, HM, HL, HA⟩
        isplitl [HM HL HA HR Hg]
        · isplitl [HM]; · iexact HM
          isplitl [HL]; · iexact HL
          isplitl [HA]; · iexact HA
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_O V c t h0 h1 h2 _)
      · rw [Dat.leavesExact_idle (dat1 V c) 3 t (idleAt1_3 t (fun h => h2 ((hcond1_2 t).mp h))) (noFlush1_3 t (fun h => h2 ((hcond1_2 t).mp h)))]
        rw [outsAt1_eq V c t]; unfold stepAt; rw [dif_neg h0, dif_neg h1, dif_neg h2]; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply (kernelRun1_C (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (prevSt V c t).1 (prevSt V c t).2.1 (prevSt V c t).2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HM HL HA HR Hg]
        · isplitl [HM]; · iexact HM
          isplitl [HL]; · iexact HL
          isplitl [HA]; · iexact HA
          isplitl [HR]; · iexact HR
          iexact Hg
        isplitl [Ho]; · iexact Ho
        isplitl [H0]; · iexact H0
        isplitl [H1]; · iexact H1
        isplitl [H2]; · iexact H2
        iexists _; iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem PhiS1_out (c : Dev nD) : (n : ℕ) → (h : n ≤ cfg1.N) → n ≠ 0 → (PhiS1 V c n h ⊢ Pipeline.ΦA spec1 c)
  | 0, _, hz => absurd rfl hz
  | n + 1, h, _ => by
    rw [PhiS1_succ]
    iintro ⟨HM, HL, HA, HR, Hg⟩
    iapply (PhiA1_join c)
    isplitl [HM]; · iexists _; iexact HM
    isplitl [HL]; · iexists _; iexact HL
    isplitl [HA]; · iexists _; iexact HA
    isplitl [HR]; · iexact HR
    iexact Hg

theorem hout1 (c : Dev nD) : (dat1 V c).Φ (Fin.last cfg1.N) ⊢ Pipeline.ΦA spec1 c :=
  PhiS1_out V c cfg1.N (Nat.le_refl _) (by have h : cfg1.N = 32 := N_1; omega)

end Region1b

end Cert.Kernel.Fr

end
-- ==== Proof.FrameMainK.lean ====
/-
  The run of the kernel program as printed: @main over its two regions.
-/
import proofs.«173625_j60997125538304_2_alg».proof.Proof.Gen.Kernel.Launch
import proofs.«173625_j60997125538304_2_alg».proof.Proof.Gen.Kernel.Skeleton
import proofs.«173625_j60997125538304_2_alg».proof.Proof.Gen.Kernel.Points
import proofs.«173625_j60997125538304_2_alg».proof.Proof.Gen.Kernel.Regions
import proofs.«173625_j60997125538304_2_alg».proof.Proof.FrameR0K
import proofs.«173625_j60997125538304_2_alg».proof.Proof.FrameR1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The whole run of @main: three weight casts on the host, the projection region, the attention region. The buffer
  contents at each boundary are a fold from the launch memory; each region is a segment entered from the contents
  the segment before it left; the launch theorem over the segments gives every weakly fair execution terminating with
  every unscoped buffer at the last boundary's contents — in particular the result array at what the attention
  pipeline's write-backs leave, and the four arguments as launched.
-/

variable (m : (ℓ : Loc nD τ sig) → Buf (Elt F) ℓ) (ρ : Dev nD → PrngReg)

/-- Core `c`'s buffers at launch, after the host casts, after the projection region, after the attention region. -/
abbrev WW0 : Dev nD → Valuation τ sig (Elt F) := fun c b => m (c, b)
abbrev WW1 : Dev nD → Valuation τ sig (Elt F) := fun c => StableHlo.after hostOps0 (WW0 m c)
abbrev VV1 : (c : Dev nD) → (b : Ref sig .tc) → Buf (Elt F) ((c : Thread nD τ).loc b) := fun c b => WW1 m c b
def WW2 (c : Dev nD) : Valuation τ sig (Elt F) :=
  Pipeline.withArrays spec0 c (WW1 m c) fun w => (dat0 (VV1 m) c).arrAt w cfg0.N
theorem WW2_arr (c : Dev nD) (w : Fin cfg0.W) :
    WW2 m c (Proc.devRef .tc (Pipeline.arrRef spec0 w)) = (dat0 (VV1 m) c).arrAt w cfg0.N := by
  unfold WW2; exact Pipeline.withArrays_arr spec0 launch0.win.arr_inj c _ _ w
theorem WW2_of_ne (c : Dev nD) (b : Ref sig .tc) (hb : ∀ w, Pipeline.arrRef spec0 w ≠ b) :
    WW2 m c (Proc.devRef .tc b) = WW1 m c (Proc.devRef .tc b) := by
  unfold WW2; exact Pipeline.withArrays_of_ne spec0 c _ _ b hb
abbrev VV2 : (c : Dev nD) → (b : Ref sig .tc) → Buf (Elt F) ((c : Thread nD τ).loc b) := fun c b => WW2 m c b
theorem hF0 (c : Dev nD) (w : Fin cfg0.W) : (dat0 (VV1 m) c).arrAt w cfg0.N = VV2 m c (Pipeline.arrRef spec0 w) :=
  (WW2_arr m c w).symm
theorem hrest0 (c : Dev nD) : ∀ b, b ∉ Finset.univ.image (Pipeline.arrRef spec0) → VV2 m c b = VV1 m c b :=
  fun b hb => WW2_of_ne m c b fun w e => hb (Finset.mem_image.mpr ⟨w, Finset.mem_univ _, e⟩)

def WW3 (c : Dev nD) : Valuation τ sig (Elt F) :=
  Pipeline.withArrays spec1 c (WW2 m c) fun w => (dat1 (VV2 m) c).arrAt w cfg1.N
theorem WW3_arr (c : Dev nD) (w : Fin cfg1.W) :
    WW3 m c (Proc.devRef .tc (Pipeline.arrRef spec1 w)) = (dat1 (VV2 m) c).arrAt w cfg1.N := by
  unfold WW3; exact Pipeline.withArrays_arr spec1 launch1.win.arr_inj c _ _ w
theorem WW3_of_ne (c : Dev nD) (b : Ref sig .tc) (hb : ∀ w, Pipeline.arrRef spec1 w ≠ b) :
    WW3 m c (Proc.devRef .tc b) = WW2 m c (Proc.devRef .tc b) := by
  unfold WW3; exact Pipeline.withArrays_of_ne spec1 c _ _ b hb
abbrev VV3 : (c : Dev nD) → (b : Ref sig .tc) → Buf (Elt F) ((c : Thread nD τ).loc b) := fun c b => WW3 m c b
theorem hF1 (c : Dev nD) (w : Fin cfg1.W) : (dat1 (VV2 m) c).arrAt w cfg1.N = VV3 m c (Pipeline.arrRef spec1 w) :=
  (WW3_arr m c w).symm
theorem hrest1 (c : Dev nD) : ∀ b, b ∉ Finset.univ.image (Pipeline.arrRef spec1) → VV3 m c b = VV2 m c b :=
  fun b hb => WW3_of_ne m c b fun w e => hb (Finset.mem_image.mpr ⟨w, Finset.mem_univ _, e⟩)

/-- No host cast writes an argument, and no region's output window is one: each argument ends as launched. -/
theorem WW1_of (c : Dev nD) (r : Ref sig .tc) (h : r ∉ hostOps0_W) : WW1 m c r = WW0 m c r :=
  StableHlo.after_of_writes_sub hostOps0 _ hostOps0_writes h
theorem WW3_main_arg0 (c : Dev nD) : WW3 m c (Proc.devRef .tc main_arg0) = m ((c : Thread nD τ).loc main_arg0) :=
  calc WW3 m c (Proc.devRef .tc main_arg0)
    _ = WW2 m c (Proc.devRef .tc main_arg0) := WW3_of_ne m c main_arg0 (by decide)
    _ = WW1 m c (Proc.devRef .tc main_arg0) := (WW2_arr m c 0).trans (((dat0 (VV1 m) c).arrAt_in 0 rfl _).trans (A_eq0 (VV1 m) c 0))
    _ = WW0 m c (Proc.devRef .tc main_arg0) := WW1_of m c main_arg0 (by decide)
    _ = m ((c : Thread nD τ).loc main_arg0) := rfl
theorem WW3_main_arg1 (c : Dev nD) : WW3 m c (Proc.devRef .tc main_arg1) = m ((c : Thread nD τ).loc main_arg1) :=
  calc WW3 m c (Proc.devRef .tc main_arg1)
    _ = WW2 m c (Proc.devRef .tc main_arg1) := WW3_of_ne m c main_arg1 (by decide)
    _ = WW1 m c (Proc.devRef .tc main_arg1) := WW2_of_ne m c main_arg1 (by decide)
    _ = WW0 m c (Proc.devRef .tc main_arg1) := WW1_of m c main_arg1 (by decide)
    _ = m ((c : Thread nD τ).loc main_arg1) := rfl
theorem WW3_main_arg2 (c : Dev nD) : WW3 m c (Proc.devRef .tc main_arg2) = m ((c : Thread nD τ).loc main_arg2) :=
  calc WW3 m c (Proc.devRef .tc main_arg2)
    _ = WW2 m c (Proc.devRef .tc main_arg2) := WW3_of_ne m c main_arg2 (by decide)
    _ = WW1 m c (Proc.devRef .tc main_arg2) := WW2_of_ne m c main_arg2 (by decide)
    _ = WW0 m c (Proc.devRef .tc main_arg2) := WW1_of m c main_arg2 (by decide)
    _ = m ((c : Thread nD τ).loc main_arg2) := rfl
theorem WW3_main_arg3 (c : Dev nD) : WW3 m c (Proc.devRef .tc main_arg3) = m ((c : Thread nD τ).loc main_arg3) :=
  calc WW3 m c (Proc.devRef .tc main_arg3)
    _ = WW2 m c (Proc.devRef .tc main_arg3) := WW3_of_ne m c main_arg3 (by decide)
    _ = WW1 m c (Proc.devRef .tc main_arg3) := WW2_of_ne m c main_arg3 (by decide)
    _ = WW0 m c (Proc.devRef .tc main_arg3) := WW1_of m c main_arg3 (by decide)
    _ = m ((c : Thread nD τ).loc main_arg3) := rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev LL : GSem nD τ sig → Finset Unit := fun _ => ∅
abbrev lvv : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TTₙ (c : Dev nD) : sProp 𝕄 := iprop(StableHlo.held (c : Thread nD τ) (Pipeline.ucRefs τ sig) (WW3 m c) ∗ ∃ r, prngReg c r)

set_option backward.isDefEq.respectTransparency.types false in
/-- The projection region as a segment: entered from every unscoped buffer at the contents after the host casts, left
    with its arrays at what its write-backs leave. -/
def reg0 : Pipeline.RegionSeg (pcfgs (F := F)) adm (pdats m) () defs₀ 𝒱₀ LL lvv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LL lvv 0 fun _ _ => rfl
  pre c := iprop(StableHlo.held (c : Thread nD τ) (Pipeline.ucRefs τ sig) (WW1 m c) ∗ RR c)
  post c := iprop(StableHlo.held (c : Thread nD τ) (Pipeline.ucRefs τ sig) (WW2 m c) ∗ RR c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch's invariant gives back at a region's exit: the generator register and the scoped buffers. -/
theorem PhiA_out1 (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The attention region as a segment: entered from the contents the projection region left, left with the result
    array at what its write-backs leave; the scratch buffers go into the region's invariant with the other scoped
    buffers and come back out of it. -/
def reg1 : Pipeline.RegionSeg (pcfgs (F := F)) adm (pdats m) () defs₀ 𝒱₀ LL lvv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ LL lvv 1 fun _ _ => rfl
  pre c := iprop(StableHlo.held (c : Thread nD τ) (Pipeline.ucRefs τ sig) (WW2 m c) ∗ RR c)
  post c := iprop(TTₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (VV2 m) c).Φ (Fin.last cfg1.N) from rfl]
    exact (hout1 (VV2 m) c).trans (PhiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev mainSegs : List (Pipeline.Seg (pcfgs (F := F)) adm (pdats m) () defs₀ 𝒱₀ LL lvv) :=
  [ .host (hseg hostOps0 hostOps0_sub hostOps0_fresh (WW0 m)),
    .region (reg0 m),
    .region (reg1 m) ]
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, with
    the result array at what the attention pipeline's write-backs leave and the four arguments as launched. -/
theorem run_main : θ_run defs (onTc (τ := τ) (main (F := F))) ⟨m, fun _ => 0, ρ⟩ (fun r => ∀ c : Dev nD,
      r.2.mem ((c.tc : Thread nD τ).loc main_v4) = (dat1 (VV2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ LL lvv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WW0 m c) ∗ RR c)) (Tₙ := TTₙ m)
    (hch := ⟨fun _ => .rfl, fun _ => .rfl, fun _ => .rfl, fun _ => .rfl⟩)
    (hinit := by
      refine Pipeline.initEach LL lvv fun c => ?_
      rw [show unscopedBufs c (fun b => m ((c : Thread nD τ).loc b)) = StableHlo.held (c : Thread nD τ) (Pipeline.ucRefs τ sig) (WW0 m c)
        from Pipeline.unscopedBufs_held c (WW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WW3 m c b)
    (hfin := fun c s' => by
      iintro ⟨⟨Hh, -⟩, HSI⟩
      unfold StableHlo.held
      imodintro
      iapply (pointsTo_read_all (Pipeline.ucRefs τ sig) (fun b => (((c : Thread nD τ)).1, b)) (WW3 m c) s')
      isplitl [Hh] <;> iassumption)
    (hQ := fun s h c =>
      ⟨(h c _ (mem_uc main_v4 (by decide))).trans (WW3_arr m c 3),
       (h c _ (mem_uc main_arg0 (by decide))).trans (WW3_main_arg0 m c),
       (h c _ (mem_uc main_arg1 (by decide))).trans (WW3_main_arg1 m c),
       (h c _ (mem_uc main_arg2 (by decide))).trans (WW3_main_arg2 m c),
       (h c _ (mem_uc main_arg3 (by decide))).trans (WW3_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.FrameR0I.lean ====
/-
  The frame of the projection region of the idealized kernel program, read at any float instance.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-!
  The projection region (q, k, v = x · Wᵀ for the three weight matrices), at the contents `V` its arrays hold when the
  region is entered: each window's block at a grid point, what the body leaves in each output window's buffer as a
  function of the input blocks, the body's triple, and the proof data of the pipeline with its body obligation.
-/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or the block index
    did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1x512x1024 := Rect.unit (s := S1x512x1024) ![0, 0, 0] S1x512x1024.size inb_S1x512x1024_S1x512x1024_0_0_0
abbrev rW : Rect S1024x1024 := Rect.unit (s := S1024x1024) ![0, 0] S1024x1024.size inb_S1024x1024_S1024x1024_0_0

/-- What the body leaves in the q, k and v windows' buffers: one whole-block store each, of the block of x against a
    weight matrix. -/
def out0_4 (x0 : Vec F S1x512x1024 .f32) (x1 : Vec F S1024x1024 .bf16) : Vec F S1x512x1024 .bf16 :=
  View.canon [⟨rX, k0_pay2 (View.ld x0 rX) (View.ld x1 rW)⟩]
def out0_5 (x0 : Vec F S1x512x1024 .f32) (x2 : Vec F S1024x1024 .bf16) : Vec F S1x512x1024 .bf16 :=
  View.canon [⟨rX, k0_pay3 (View.ld x0 rX) (View.ld x2 rW)⟩]
def out0_6 (x0 : Vec F S1x512x1024 .f32) (x3 : Vec F S1024x1024 .bf16) : Vec F S1x512x1024 .bf16 :=
  View.canon [⟨rX, k0_pay4 (View.ld x0 rX) (View.ld x3 rW)⟩]

/-- One whole-block store covers the buffer. -/
theorem cover0 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

set_option maxHeartbeats 4000000 in
/-- The projection body on whole staging memrefs: the inputs keep their contents, each output ends at its function of
    the inputs. -/
theorem sound_kernel0 (c : Dev nD) (E : Set ℕ) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the projection pipeline on core `c`: the arrays as the region finds them; after the body each
    input's buffer at its block and each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FrameR1BaseI.lean ====
/-
  The attention region of the idealized kernel program: the conditions, the memrefs and the invariant its control cases share.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-!
  The attention region: what its five control cases share. The body branches on the grid point three times — at
  the first key tile of a query tile it resets the three scratch buffers (running maximum, denominator, numerator);
  at a key tile not wholly after the query tile it folds the tile in; at the last key tile it writes the
  quotient out. The conditions are decided over the 32 grid points, and the output window is idle except at the
  last key tile.
-/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The key tile is the first of its row of tiles. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile is not wholly after the query tile. -/
abbrev cond1_1 (i : grid1.Coords) : Prop :=
  (Scalar.cmpi .ne (Scalar.extui (Scalar.cmpi .sle (BitVec.ofNat 32 (i 2).val) (Scalar.subi (Scalar.muli (Scalar.addi (BitVec.ofNat 32 (i 1).val) 1#32) 2#32) 1#32))) 0#32) = 1#1
theorem hcond1_1 : ∀ t : Fin cfg1.N, cond1_1 (grid1.coords t) ↔ (t.val % 8 < 2 ∨ 4 ≤ t.val % 8) :=
  (by decide +kernel : ∀ t : Fin grid1.N, cond1_1 (grid1.coords t) ↔ (t.val % 8 < 2 ∨ 4 ≤ t.val % 8))

/-- The key tile is the last. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

theorem liveAt1_3 : ∀ t : Fin cfg1.N, cond1_2 (grid1.coords t) → cfg1.idle 3 (grid1.coords t) = false := by decide +kernel
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel

/-- Each window's current staging memref at point `t`, as the pipeline passes it to the body. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: the running maximum, the denominator and the numerator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

/-- The other region's staging buffers, each whole at some contents: what the attention region never touches. -/
abbrev restCC0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant as the launch hands it over, with the scratch operands singled out. -/
theorem PhiA1_split (c : Dev nD) :
    (Pipeline.ΦA spec1 c : sProp 𝕄)
      ⊢ iprop((∃ d, owns (c : Thread nD τ) scM fullShare d) ∗ (∃ d, owns (c : Thread nD τ) scL fullShare d) ∗ (∃ d, owns (c : Thread nD τ) scA fullShare d) ∗ restCC0 c ∗ (∃ r, prngReg c r)) := by
  unfold Pipeline.ΦA; rw [scopedRest1_eq]; simp only [scM, scL, scA, owns_whole]
  iintro ⟨⟨H1, H2, H3, H4, H5, H6, H7, H8, H9, H10, H11, HM, HL, HA⟩, Hg⟩
  isplitl [HM]; · iexact HM
  isplitl [HL]; · iexact HL
  isplitl [HA]; · iexact HA
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

theorem PhiA1_join (c : Dev nD) :
    iprop((∃ d, owns (c : Thread nD τ) scM fullShare d) ∗ (∃ d, owns (c : Thread nD τ) scL fullShare d) ∗ (∃ d, owns (c : Thread nD τ) scA fullShare d) ∗ restCC0 c ∗ (∃ r, prngReg c r))
      ⊢ (Pipeline.ΦA spec1 c : sProp 𝕄) := by
  unfold Pipeline.ΦA; rw [scopedRest1_eq]; simp only [scM, scL, scA, owns_whole]
  iintro ⟨HM, HL, HA, ⟨H1, H2, H3, H4, H5, H6, H7, H8, H9, H10, H11⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HM]; · iexact HM
    isplitl [HL]; · iexact HL
    iexact HA
  iexact Hg

end Cert.KernelIdeal.Fr

end
-- ==== Proof.FrameR1RunAI.lean ====
/-
  The attention body of the idealized kernel program, one control case.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1BaseI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The attention body in the case of the first key tile of a row of tiles (reset, then fold the tile in; no write-out): on whole staging memrefs with the inputs at their
    blocks, it runs to the continuation with the inputs as they were and each buffer it stored into at its stores
    written over what was there (the stores, last first, are the witnesses the run finds). -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    Σ' (LS7 : List (View.Piece (Elt F) S1024x1 .f32)), Σ' (LS8 : List (View.Piece (Elt F) S1024x1 .f32)), { LS9 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f6, %hf6, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    isplitl [H7]; · iexists _; iexact H7
    isplitl [H8]; · iexists _; iexact H8
    iexists _; iexact H9

end Cert.KernelIdeal.Fr

end
-- ==== Proof.FrameR1RunBI.lean ====
/-
  The attention body of the idealized kernel program, one control case.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1BaseI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The attention body in the case of a later key tile that is folded in, not the last: on whole staging memrefs with the inputs at their
    blocks, it runs to the continuation with the inputs as they were and each buffer it stored into at its stores
    written over what was there (the stores, last first, are the witnesses the run finds). -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    Σ' (LS7 : List (View.Piece (Elt F) S1024x1 .f32)), Σ' (LS8 : List (View.Piece (Elt F) S1024x1 .f32)), { LS9 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf6; obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]
    · iexists _; isplitr; · ipureintro; exact harg6.read_unread _
      iexact H6
    isplitl [H7]; · iexists _; iexact H7
    isplitl [H8]; · iexists _; iexact H8
    iexists _; iexact H9

end Cert.KernelIdeal.Fr

end
-- ==== Proof.FrameR1RunCI.lean ====
/-
  The attention body of the idealized kernel program, one control case.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1BaseI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The attention body in the case of a key tile wholly after the query tile, not the last: nothing happens: on whole staging memrefs with the inputs at their
    blocks, it runs to the continuation with the inputs as they were and each buffer it stored into at its stores
    written over what was there (the stores, last first, are the witnesses the run finds). -/
theorem kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs7 ∗ owns (c : Thread nD τ) arg8 fullShare xs8 ∗ owns (c : Thread nD τ) arg9 fullShare xs9) -∗ K ⟨⟩))
          ⊢ wp frame (wpE (defs₀ (F := F)) Variants.none c none) E (cc1__flash_kernel i arg3 harg3 arg4 harg4 arg5 harg5 arg6 harg6 arg7 harg7 arg8 harg8 arg9 harg9) K := by
  intro xi3 E K
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf6; obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.KernelIdeal.Fr

end
-- ==== Proof.FrameR1RunDI.lean ====
/-
  The attention body of the idealized kernel program, one control case.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1BaseI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The attention body in the case of the last key tile, wholly after the query tile: only the quotient is written out: on whole staging memrefs with the inputs at their
    blocks, it runs to the continuation with the inputs as they were and each buffer it stored into at its stores
    written over what was there (the stores, last first, are the witnesses the run finds). -/
noncomputable def kernelRun1_D (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs7 ∗ owns (c : Thread nD τ) arg8 fullShare xs8 ∗ owns (c : Thread nD τ) arg9 fullShare xs9) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d6, %f6, -, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Fr

end
-- ==== Proof.FrameR1RunEI.lean ====
/-
  The attention body of the idealized kernel program, one control case.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1BaseI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The attention body in the case of the last key tile, folded in, then the quotient written out: on whole staging memrefs with the inputs at their
    blocks, it runs to the continuation with the inputs as they were and each buffer it stored into at its stores
    written over what was there (the stores, last first, are the witnesses the run finds). -/
noncomputable def kernelRun1_E (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    Σ' (L3 : List (View.Piece (Elt F) S1x1024x1024 .f32)), Σ' (LS7 : List (View.Piece (Elt F) S1024x1 .f32)), Σ' (LS8 : List (View.Piece (Elt F) S1024x1 .f32)), { LS9 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d6, %f6, -, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    iexists _; iexact H9

end Cert.KernelIdeal.Fr

end
-- ==== Proof.FrameR1I.lean ====
/-
  The attention region of the idealized kernel program: the scratch carried from point to point, the proof data and the body obligation.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1RunAI
import proofs.«173625_j60997125538304_2_alg».proof.Proof.FrameR1RunBI
import proofs.«173625_j60997125538304_2_alg».proof.Proof.FrameR1RunCI
import proofs.«173625_j60997125538304_2_alg».proof.Proof.FrameR1RunDI
import proofs.«173625_j60997125538304_2_alg».proof.Proof.FrameR1RunEI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-!
  The attention region: what the scratch buffers (running maximum, denominator, numerator) and the output window's
  buffer hold after each grid point, by recursion on the point; the region's invariant carrying the scratch from
  point to point; the proof data of the pipeline and its body obligation.
-/

section Region1
variable (V : (c : Dev nD) → (b : Ref sig .tc) → Buf (Elt F) ((c : Thread nD τ).loc b))

/-- Views through which the output window's buffer and the three scratch buffers are read. -/
abbrev VO3 : View sig .tc .vmem S1x1024x1024 .f32 := (Memref.whole cc1_stg3_0 : Memref sig .tc .vmem S1x1024x1024 .f32).view
abbrev VSM : View sig .tc .vmem S1024x1 .f32 := scM.view
abbrev VSL : View sig .tc .vmem S1024x1 .f32 := scL.view
abbrev VSA : View sig .tc .vmem S1024x1024 .f32 := scA.view

/-- The three scratch buffers' contents. -/
abbrev St (F : FTy → Type) : Type := Vec F S1024x1 .f32 × Vec F S1024x1 .f32 × Vec F S1024x1024 .f32

/-- Contents nothing reads: the output window's buffer where the body stores nothing, the scratch before the first point. -/
def outJunk : Vec F S1x1024x1024 .f32 := VO3.read (Elt F) VO3.junk
def stJunk : St F := (VSM.read (Elt F) VSM.junk, VSL.read (Elt F) VSL.junk, VSA.read (Elt F) VSA.junk)

/-- The five cases' runs at a point, the conditions decided there from the point's number. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr (by omega)) (fun h => by have := (hcond1_2 t).mp h; omega) (iblk1 V c 0 t) (iblk1 V c 1 t) (iblk1 V c 2 t)
def runB (c : Dev nD) (t : Fin cfg1.N) (h0 : ¬t.val % 4 = 0) (h1 : t.val % 8 < 2 ∨ 4 ≤ t.val % 8) (h2 : ¬t.val % 4 = 3) (xs : St F) :=
  kernelRun1_B (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2
def runD (c : Dev nD) (t : Fin cfg1.N) (h0 : ¬t.val % 4 = 0) (h1 : ¬(t.val % 8 < 2 ∨ 4 ≤ t.val % 8)) (h2 : t.val % 4 = 3) (xs : St F) :=
  kernelRun1_D (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) xs.1 xs.2.1 xs.2.2
def runE (c : Dev nD) (t : Fin cfg1.N) (h0 : ¬t.val % 4 = 0) (h1 : t.val % 8 < 2 ∨ 4 ≤ t.val % 8) (h2 : t.val % 4 = 3) (xs : St F) :=
  kernelRun1_E (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2

/-- What each case leaves: its stores read back. -/
def stA (c : Dev nD) (t : Fin cfg1.N) (h0 : t.val % 4 = 0) : St F :=
  (VSM.read (Elt F) (VSM.writes (Elt F) VSM.junk (runA V c t h0).1), VSL.read (Elt F) (VSL.writes (Elt F) VSL.junk (runA V c t h0).2.1),
   VSA.read (Elt F) (VSA.writes (Elt F) VSA.junk (runA V c t h0).2.2.1))
def stB (c : Dev nD) (t : Fin cfg1.N) (h0 : ¬t.val % 4 = 0) (h1 : t.val % 8 < 2 ∨ 4 ≤ t.val % 8) (h2 : ¬t.val % 4 = 3) (xs : St F) : St F :=
  (VSM.read (Elt F) (VSM.writes (Elt F) VSM.junk (runB V c t h0 h1 h2 xs).1), VSL.read (Elt F) (VSL.writes (Elt F) VSL.junk (runB V c t h0 h1 h2 xs).2.1),
   VSA.read (Elt F) (VSA.writes (Elt F) VSA.junk (runB V c t h0 h1 h2 xs).2.2.1))
def stE (c : Dev nD) (t : Fin cfg1.N) (h0 : ¬t.val % 4 = 0) (h1 : t.val % 8 < 2 ∨ 4 ≤ t.val % 8) (h2 : t.val % 4 = 3) (xs : St F) : St F :=
  (VSM.read (Elt F) (VSM.writes (Elt F) VSM.junk (runE V c t h0 h1 h2 xs).2.1), VSL.read (Elt F) (VSL.writes (Elt F) VSL.junk (runE V c t h0 h1 h2 xs).2.2.1),
   VSA.read (Elt F) (VSA.writes (Elt F) VSA.junk (runE V c t h0 h1 h2 xs).2.2.2.1))
def outD (c : Dev nD) (t : Fin cfg1.N) (h0 : ¬t.val % 4 = 0) (h1 : ¬(t.val % 8 < 2 ∨ 4 ≤ t.val % 8)) (h2 : t.val % 4 = 3) (xs : St F) : Vec F S1x1024x1024 .f32 :=
  VO3.read (Elt F) (VO3.writes (Elt F) VO3.junk (runD V c t h0 h1 h2 xs).1)
def outE (c : Dev nD) (t : Fin cfg1.N) (h0 : ¬t.val % 4 = 0) (h1 : t.val % 8 < 2 ∨ 4 ≤ t.val % 8) (h2 : t.val % 4 = 3) (xs : St F) : Vec F S1x1024x1024 .f32 :=
  VO3.read (Elt F) (VO3.writes (Elt F) VO3.junk (runE V c t h0 h1 h2 xs).1)

/-- Each case's stores into a buffer tile it. -/
theorem coverA_M (c : Dev nD) (t : Fin cfg1.N) (h0 : t.val % 4 = 0) (y : S1024x1.Idx) : ∃ pc ∈ (runA V c t h0).1, y ∈ pc.1.set :=
  View.cover_of_tiledL (runA V c t h0).1 S1024x1.size (by sl_kernel_rfl) y
theorem coverA_L (c : Dev nD) (t : Fin cfg1.N) (h0 : t.val % 4 = 0) (y : S1024x1.Idx) : ∃ pc ∈ (runA V c t h0).2.1, y ∈ pc.1.set :=
  View.cover_of_tiledL (runA V c t h0).2.1 S1024x1.size (by sl_kernel_rfl) y
theorem coverA_A (c : Dev nD) (t : Fin cfg1.N) (h0 : t.val % 4 = 0) (y : S1024x1024.Idx) : ∃ pc ∈ (runA V c t h0).2.2.1, y ∈ pc.1.set :=
  View.cover_of_tiledL (runA V c t h0).2.2.1 S1024x1024.size (by sl_kernel_rfl) y
theorem coverB_M (c : Dev nD) (t : Fin cfg1.N) (h0 : ¬t.val % 4 = 0) (h1 : t.val % 8 < 2 ∨ 4 ≤ t.val % 8) (h2 : ¬t.val % 4 = 3) (xs : St F) (y : S1024x1.Idx) : ∃ pc ∈ (runB V c t h0 h1 h2 xs).1, y ∈ pc.1.set :=
  View.cover_of_tiledL (runB V c t h0 h1 h2 xs).1 S1024x1.size (by sl_kernel_rfl) y
theorem coverB_L (c : Dev nD) (t : Fin cfg1.N) (h0 : ¬t.val % 4 = 0) (h1 : t.val % 8 < 2 ∨ 4 ≤ t.val % 8) (h2 : ¬t.val % 4 = 3) (xs : St F) (y : S1024x1.Idx) : ∃ pc ∈ (runB V c t h0 h1 h2 xs).2.1, y ∈ pc.1.set :=
  View.cover_of_tiledL (runB V c t h0 h1 h2 xs).2.1 S1024x1.size (by sl_kernel_rfl) y
theorem coverB_A (c : Dev nD) (t : Fin cfg1.N) (h0 : ¬t.val % 4 = 0) (h1 : t.val % 8 < 2 ∨ 4 ≤ t.val % 8) (h2 : ¬t.val % 4 = 3) (xs : St F) (y : S1024x1024.Idx) : ∃ pc ∈ (runB V c t h0 h1 h2 xs).2.2.1, y ∈ pc.1.set :=
  View.cover_of_tiledL (runB V c t h0 h1 h2 xs).2.2.1 S1024x1024.size (by sl_kernel_rfl) y
theorem coverE_O (c : Dev nD) (t : Fin cfg1.N) (h0 : ¬t.val % 4 = 0) (h1 : t.val % 8 < 2 ∨ 4 ≤ t.val % 8) (h2 : t.val % 4 = 3) (xs : St F) (y : S1x1024x1024.Idx) : ∃ pc ∈ (runE V c t h0 h1 h2 xs).1, y ∈ pc.1.set :=
  View.cover_of_tiledL (runE V c t h0 h1 h2 xs).1 S1x1024x1024.size (by sl_kernel_rfl) y
theorem coverE_M (c : Dev nD) (t : Fin cfg1.N) (h0 : ¬t.val % 4 = 0) (h1 : t.val % 8 < 2 ∨ 4 ≤ t.val % 8) (h2 : t.val % 4 = 3) (xs : St F) (y : S1024x1.Idx) : ∃ pc ∈ (runE V c t h0 h1 h2 xs).2.1, y ∈ pc.1.set :=
  View.cover_of_tiledL (runE V c t h0 h1 h2 xs).2.1 S1024x1.size (by sl_kernel_rfl) y
theorem coverE_L (c : Dev nD) (t : Fin cfg1.N) (h0 : ¬t.val % 4 = 0) (h1 : t.val % 8 < 2 ∨ 4 ≤ t.val % 8) (h2 : t.val % 4 = 3) (xs : St F) (y : S1024x1.Idx) : ∃ pc ∈ (runE V c t h0 h1 h2 xs).2.2.1, y ∈ pc.1.set :=
  View.cover_of_tiledL (runE V c t h0 h1 h2 xs).2.2.1 S1024x1.size (by sl_kernel_rfl) y
theorem coverE_A (c : Dev nD) (t : Fin cfg1.N) (h0 : ¬t.val % 4 = 0) (h1 : t.val % 8 < 2 ∨ 4 ≤ t.val % 8) (h2 : t.val % 4 = 3) (xs : St F) (y : S1024x1024.Idx) : ∃ pc ∈ (runE V c t h0 h1 h2 xs).2.2.2.1, y ∈ pc.1.set :=
  View.cover_of_tiledL (runE V c t h0 h1 h2 xs).2.2.2.1 S1024x1024.size (by sl_kernel_rfl) y
theorem coverD_O (c : Dev nD) (t : Fin cfg1.N) (h0 : ¬t.val % 4 = 0) (h1 : ¬(t.val % 8 < 2 ∨ 4 ≤ t.val % 8)) (h2 : t.val % 4 = 3) (xs : St F) (y : S1x1024x1024.Idx) : ∃ pc ∈ (runD V c t h0 h1 h2 xs).1, y ∈ pc.1.set :=
  View.cover_of_tiledL (runD V c t h0 h1 h2 xs).1 S1x1024x1024.size (by sl_kernel_rfl) y

/-- One point's effect on (the output window's buffer, the scratch), given the scratch the point before left. -/
def stepAt (c : Dev nD) (t : Fin cfg1.N) (xs : St F) : Vec F S1x1024x1024 .f32 × St F :=
  if h0 : t.val % 4 = 0 then (outJunk, stA V c t h0)
  else if h1 : (t.val % 8 < 2 ∨ 4 ≤ t.val % 8) then
    if h2 : t.val % 4 = 3 then (outE V c t h0 h1 h2 xs, stE V c t h0 h1 h2 xs) else (outJunk, stB V c t h0 h1 h2 xs)
  else if h2 : t.val % 4 = 3 then (outD V c t h0 h1 h2 xs, xs) else (outJunk, xs)

/-- After point `n`: the output window's buffer and the scratch. -/
def outsAt1 (c : Dev nD) : (n : ℕ) → n < cfg1.N → Vec F S1x1024x1024 .f32 × St F
  | 0, hn => stepAt V c ⟨0, hn⟩ stJunk
  | n + 1, hn => stepAt V c ⟨n + 1, hn⟩ (outsAt1 c n (Nat.lt_of_succ_lt hn)).2

/-- The scratch a point finds: what the point before left (nothing in particular before the first). -/
def prevSt (c : Dev nD) (t : Fin cfg1.N) : St F :=
  if h : t.val = 0 then stJunk else (outsAt1 V c (t.val - 1) (Nat.lt_of_le_of_lt (Nat.sub_le _ _) t.isLt)).2

theorem outsAt1_eq (c : Dev nD) (t : Fin cfg1.N) : outsAt1 V c t.val t.isLt = stepAt V c t (prevSt V c t) := by
  obtain ⟨n, hn⟩ := t
  cases n with
  | zero => rfl
  | succ n => rfl

/-- The region's invariant before point `n`: at the start what the launch hands over; afterwards the scratch at what the
    point before left, beside the other scoped buffers and the generator register. -/
def PhiS1 (c : Dev nD) : (n : ℕ) → n ≤ cfg1.N → sProp 𝕄
  | 0, _ => Pipeline.ΦA spec1 c
  | n + 1, hn => iprop(owns (c : Thread nD τ) scM fullShare (outsAt1 V c n hn).2.1 ∗ owns (c : Thread nD τ) scL fullShare (outsAt1 V c n hn).2.2.1
      ∗ owns (c : Thread nD τ) scA fullShare (outsAt1 V c n hn).2.2.2 ∗ restCC0 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM fullShare (outsAt1 V c n hn).2.1 ∗ owns (c : Thread nD τ) scL fullShare (outsAt1 V c n hn).2.2.1
      ∗ owns (c : Thread nD τ) scA fullShare (outsAt1 V c n hn).2.2.2 ∗ restCC0 c ∗ (∃ r, prngReg c r)) := rfl

theorem PhiS1_pos (c : Dev nD) (t : Fin cfg1.N) (hz : t.val ≠ 0) :
    PhiS1 V c t.val (Nat.le_of_lt t.isLt) = iprop(owns (c : Thread nD τ) scM fullShare (prevSt V c t).1 ∗ owns (c : Thread nD τ) scL fullShare (prevSt V c t).2.1
      ∗ owns (c : Thread nD τ) scA fullShare (prevSt V c t).2.2 ∗ restCC0 c ∗ (∃ r, prngReg c r)) := by
  obtain ⟨n, hn⟩ := t
  cases n with
  | zero => exact absurd rfl hz
  | succ n => unfold prevSt; rw [dif_neg (by simp)]; rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Before any point the invariant has the scratch at SOME contents. -/
theorem Phi_weaken (c : Dev nD) (t : Fin cfg1.N) :
    (dat1 V c).Φ t.castSucc ⊢ iprop((∃ d, owns (c : Thread nD τ) scM fullShare d) ∗ (∃ d, owns (c : Thread nD τ) scL fullShare d) ∗ (∃ d, owns (c : Thread nD τ) scA fullShare d) ∗ restCC0 c ∗ (∃ r, prngReg c r)) := by
  rw [PhiS1_castSucc]
  by_cases hz : t.val = 0
  · rw [PhiS1_zero V c _ _ hz]; exact PhiA1_split c
  · rw [PhiS1_pos V c t hz]
    iintro ⟨HM, HL, HA, HR, Hg⟩
    isplitl [HM]; · iexists _; iexact HM
    isplitl [HL]; · iexists _; iexact HL
    isplitl [HA]; · iexists _; iexact HA
    isplitl [HR]; · iexact HR
    iexact Hg

end Region1

section Region1b
variable (V : (c : Dev nD) → (b : Ref sig .tc) → Buf (Elt F) ((c : Thread nD τ).loc b))

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the inputs' memrefs hold their blocks; the point's number says which of the five cases it is
    in; the invariant hands the body the scratch at what the point before left (at anything where the case resets
    it) and takes it back at this point's contents; the output window's buffer is handed back untouched except at the
    last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_eq V c t]; unfold stepAt; rw [dif_pos h0]; unfold stA; dsimp only
    iintro ⟨HΦ, Ho, ⟨%d0, H0⟩, ⟨%d1, H1⟩, ⟨%d2, H2⟩, ⟨%d3, H3⟩⟩
    ihave HS := (Phi_weaken V c t) $$ HΦ
    icases HS with ⟨HM, HL, HA, HR, Hg⟩
    iapply ((runA V c t h0).2.2.2 _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, ⟨%e7, HM⟩, ⟨%e8, HL⟩, ⟨%e9, HA⟩⟩
    isplitl [HM HL HA HR Hg]
    · skip
      isplitl [HM]
      · unfold owns; iexists _; isplitr
        swap; · iexact HM
        ipureintro; exact View.read_writes_of_cover _ _ _ _ _ (coverA_M V c t h0)
      isplitl [HL]
      · unfold owns; iexists _; isplitr
        swap; · iexact HL
        ipureintro; exact View.read_writes_of_cover _ _ _ _ _ (coverA_L V c t h0)
      isplitl [HA]
      · unfold owns; iexists _; isplitr
        swap; · iexact HA
        ipureintro; exact View.read_writes_of_cover _ _ _ _ _ (coverA_A V c t h0)
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : (t.val % 8 < 2 ∨ 4 ≤ t.val % 8)
    · by_cases h2 : t.val % 4 = 3
      · rw [show (dat1 V c).leavesExact 3 t = owns (c : Thread nD τ) (ms1_3 t) fullShare ((dat1 V c).after 3 t) from by
      unfold Dat.leavesExact; rw [liveAt1_3 t ((hcond1_2 t).mpr h2)], after1_3]
        rw [outsAt1_eq V c t]; unfold stepAt; rw [dif_neg h0, dif_pos h1, dif_pos h2]; unfold stE outE; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply ((runE V c t h0 h1 h2 (prevSt V c t)).2.2.2.2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e6, H3⟩, ⟨%e7, HM⟩, ⟨%e8, HL⟩, ⟨%e9, HA⟩⟩
        isplitl [HM HL HA HR Hg]
        · skip
          isplitl [HM]
          · unfold owns; iexists _; isplitr
            swap; · iexact HM
            ipureintro; exact View.read_writes_of_cover _ _ _ _ _ (coverE_M V c t h0 h1 h2 _)
          isplitl [HL]
          · unfold owns; iexists _; isplitr
            swap; · iexact HL
            ipureintro; exact View.read_writes_of_cover _ _ _ _ _ (coverE_L V c t h0 h1 h2 _)
          isplitl [HA]
          · unfold owns; iexists _; isplitr
            swap; · iexact HA
            ipureintro; exact View.read_writes_of_cover _ _ _ _ _ (coverE_A V c t h0 h1 h2 _)
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_O V c t h0 h1 h2 _)
      · rw [Dat.leavesExact_idle (dat1 V c) 3 t (idleAt1_3 t (fun h => h2 ((hcond1_2 t).mp h))) (noFlush1_3 t (fun h => h2 ((hcond1_2 t).mp h)))]
        rw [outsAt1_eq V c t]; unfold stepAt; rw [dif_neg h0, dif_pos h1, dif_neg h2]; unfold stB; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply ((runB V c t h0 h1 h2 (prevSt V c t)).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%e7, HM⟩, ⟨%e8, HL⟩, ⟨%e9, HA⟩⟩
        isplitl [HM HL HA HR Hg]
        · skip
          isplitl [HM]
          · unfold owns; iexists _; isplitr
            swap; · iexact HM
            ipureintro; exact View.read_writes_of_cover _ _ _ _ _ (coverB_M V c t h0 h1 h2 _)
          isplitl [HL]
          · unfold owns; iexists _; isplitr
            swap; · iexact HL
            ipureintro; exact View.read_writes_of_cover _ _ _ _ _ (coverB_L V c t h0 h1 h2 _)
          isplitl [HA]
          · unfold owns; iexists _; isplitr
            swap; · iexact HA
            ipureintro; exact View.read_writes_of_cover _ _ _ _ _ (coverB_A V c t h0 h1 h2 _)
          isplitl [HR]; · iexact HR
          iexact Hg
        isplitl [Ho]; · iexact Ho
        isplitl [H0]; · iexact H0
        isplitl [H1]; · iexact H1
        isplitl [H2]; · iexact H2
        iexists _; iexact H3
    · by_cases h2 : t.val % 4 = 3
      · rw [show (dat1 V c).leavesExact 3 t = owns (c : Thread nD τ) (ms1_3 t) fullShare ((dat1 V c).after 3 t) from by
      unfold Dat.leavesExact; rw [liveAt1_3 t ((hcond1_2 t).mpr h2)], after1_3]
        rw [outsAt1_eq V c t]; unfold stepAt; rw [dif_neg h0, dif_neg h1, dif_pos h2]; unfold outD; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply ((runD V c t h0 h1 h2 (prevSt V c t)).2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e6, H3⟩, HM, HL, HA⟩
        isplitl [HM HL HA HR Hg]
        · isplitl [HM]; · iexact HM
          isplitl [HL]; · iexact HL
          isplitl [HA]; · iexact HA
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_O V c t h0 h1 h2 _)
      · rw [Dat.leavesExact_idle (dat1 V c) 3 t (idleAt1_3 t (fun h => h2 ((hcond1_2 t).mp h))) (noFlush1_3 t (fun h => h2 ((hcond1_2 t).mp h)))]
        rw [outsAt1_eq V c t]; unfold stepAt; rw [dif_neg h0, dif_neg h1, dif_neg h2]; dsimp only
        rw [PhiS1_castSucc V c t, PhiS1_pos V c t hz]
        iintro ⟨⟨HM, HL, HA, HR, Hg⟩, Ho, ⟨%d0, H0⟩, ⟨%d1, H1⟩, ⟨%d2, H2⟩, ⟨%d3, H3⟩⟩
        iapply (kernelRun1_C (F := F) c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (prevSt V c t).1 (prevSt V c t).2.1 (prevSt V c t).2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HM HL HA HR Hg]
        · isplitl [HM]; · iexact HM
          isplitl [HL]; · iexact HL
          isplitl [HA]; · iexact HA
          isplitl [HR]; · iexact HR
          iexact Hg
        isplitl [Ho]; · iexact Ho
        isplitl [H0]; · iexact H0
        isplitl [H1]; · iexact H1
        isplitl [H2]; · iexact H2
        iexists _; iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem PhiS1_out (c : Dev nD) : (n : ℕ) → (h : n ≤ cfg1.N) → n ≠ 0 → (PhiS1 V c n h ⊢ Pipeline.ΦA spec1 c)
  | 0, _, hz => absurd rfl hz
  | n + 1, h, _ => by
    rw [PhiS1_succ]
    iintro ⟨HM, HL, HA, HR, Hg⟩
    iapply (PhiA1_join c)
    isplitl [HM]; · iexists _; iexact HM
    isplitl [HL]; · iexists _; iexact HL
    isplitl [HA]; · iexists _; iexact HA
    isplitl [HR]; · iexact HR
    iexact Hg

theorem hout1 (c : Dev nD) : (dat1 V c).Φ (Fin.last cfg1.N) ⊢ Pipeline.ΦA spec1 c :=
  PhiS1_out V c cfg1.N (Nat.le_refl _) (by have h : cfg1.N = 32 := N_1; omega)

end Region1b

end Cert.KernelIdeal.Fr

end
-- ==== Proof.FrameMainI.lean ====
/-
  The run of the idealized kernel program's @main over its two regions.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.Gen.KernelIdeal.Regions
import proofs.«173625_j60997125538304_2_alg».proof.Proof.FrameR0I
import proofs.«173625_j60997125538304_2_alg».proof.Proof.FrameR1I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-!
  The whole run of @main: three weight casts on the host, the projection region, the attention region. The buffer
  contents at each boundary are a fold from the launch memory; each region is a segment entered from the contents
  the segment before it left; the launch theorem over the segments gives every weakly fair execution terminating with
  every unscoped buffer at the last boundary's contents — in particular the result array at what the attention
  pipeline's write-backs leave, and the four arguments as launched.
-/

variable (m : (ℓ : Loc nD τ sig) → Buf (Elt F) ℓ) (ρ : Dev nD → PrngReg)

/-- Core `c`'s buffers at launch, after the host casts, after the projection region, after the attention region. -/
abbrev WW0 : Dev nD → Valuation τ sig (Elt F) := fun c b => m (c, b)
abbrev WW1 : Dev nD → Valuation τ sig (Elt F) := fun c => StableHlo.after hostOps0 (WW0 m c)
abbrev VV1 : (c : Dev nD) → (b : Ref sig .tc) → Buf (Elt F) ((c : Thread nD τ).loc b) := fun c b => WW1 m c b
def WW2 (c : Dev nD) : Valuation τ sig (Elt F) :=
  Pipeline.withArrays spec0 c (WW1 m c) fun w => (dat0 (VV1 m) c).arrAt w cfg0.N
theorem WW2_arr (c : Dev nD) (w : Fin cfg0.W) :
    WW2 m c (Proc.devRef .tc (Pipeline.arrRef spec0 w)) = (dat0 (VV1 m) c).arrAt w cfg0.N := by
  unfold WW2; exact Pipeline.withArrays_arr spec0 launch0.win.arr_inj c _ _ w
theorem WW2_of_ne (c : Dev nD) (b : Ref sig .tc) (hb : ∀ w, Pipeline.arrRef spec0 w ≠ b) :
    WW2 m c (Proc.devRef .tc b) = WW1 m c (Proc.devRef .tc b) := by
  unfold WW2; exact Pipeline.withArrays_of_ne spec0 c _ _ b hb
abbrev VV2 : (c : Dev nD) → (b : Ref sig .tc) → Buf (Elt F) ((c : Thread nD τ).loc b) := fun c b => WW2 m c b
theorem hF0 (c : Dev nD) (w : Fin cfg0.W) : (dat0 (VV1 m) c).arrAt w cfg0.N = VV2 m c (Pipeline.arrRef spec0 w) :=
  (WW2_arr m c w).symm
theorem hrest0 (c : Dev nD) : ∀ b, b ∉ Finset.univ.image (Pipeline.arrRef spec0) → VV2 m c b = VV1 m c b :=
  fun b hb => WW2_of_ne m c b fun w e => hb (Finset.mem_image.mpr ⟨w, Finset.mem_univ _, e⟩)

def WW3 (c : Dev nD) : Valuation τ sig (Elt F) :=
  Pipeline.withArrays spec1 c (WW2 m c) fun w => (dat1 (VV2 m) c).arrAt w cfg1.N
theorem WW3_arr (c : Dev nD) (w : Fin cfg1.W) :
    WW3 m c (Proc.devRef .tc (Pipeline.arrRef spec1 w)) = (dat1 (VV2 m) c).arrAt w cfg1.N := by
  unfold WW3; exact Pipeline.withArrays_arr spec1 launch1.win.arr_inj c _ _ w
theorem WW3_of_ne (c : Dev nD) (b : Ref sig .tc) (hb : ∀ w, Pipeline.arrRef spec1 w ≠ b) :
    WW3 m c (Proc.devRef .tc b) = WW2 m c (Proc.devRef .tc b) := by
  unfold WW3; exact Pipeline.withArrays_of_ne spec1 c _ _ b hb
abbrev VV3 : (c : Dev nD) → (b : Ref sig .tc) → Buf (Elt F) ((c : Thread nD τ).loc b) := fun c b => WW3 m c b
theorem hF1 (c : Dev nD) (w : Fin cfg1.W) : (dat1 (VV2 m) c).arrAt w cfg1.N = VV3 m c (Pipeline.arrRef spec1 w) :=
  (WW3_arr m c w).symm
theorem hrest1 (c : Dev nD) : ∀ b, b ∉ Finset.univ.image (Pipeline.arrRef spec1) → VV3 m c b = VV2 m c b :=
  fun b hb => WW3_of_ne m c b fun w e => hb (Finset.mem_image.mpr ⟨w, Finset.mem_univ _, e⟩)

/-- No host cast writes an argument, and no region's output window is one: each argument ends as launched. -/
theorem WW1_of (c : Dev nD) (r : Ref sig .tc) (h : r ∉ hostOps0_W) : WW1 m c r = WW0 m c r :=
  StableHlo.after_of_writes_sub hostOps0 _ hostOps0_writes h
theorem WW3_main_arg0 (c : Dev nD) : WW3 m c (Proc.devRef .tc main_arg0) = m ((c : Thread nD τ).loc main_arg0) :=
  calc WW3 m c (Proc.devRef .tc main_arg0)
    _ = WW2 m c (Proc.devRef .tc main_arg0) := WW3_of_ne m c main_arg0 (by decide)
    _ = WW1 m c (Proc.devRef .tc main_arg0) := (WW2_arr m c 0).trans (((dat0 (VV1 m) c).arrAt_in 0 rfl _).trans (A_eq0 (VV1 m) c 0))
    _ = WW0 m c (Proc.devRef .tc main_arg0) := WW1_of m c main_arg0 (by decide)
    _ = m ((c : Thread nD τ).loc main_arg0) := rfl
theorem WW3_main_arg1 (c : Dev nD) : WW3 m c (Proc.devRef .tc main_arg1) = m ((c : Thread nD τ).loc main_arg1) :=
  calc WW3 m c (Proc.devRef .tc main_arg1)
    _ = WW2 m c (Proc.devRef .tc main_arg1) := WW3_of_ne m c main_arg1 (by decide)
    _ = WW1 m c (Proc.devRef .tc main_arg1) := WW2_of_ne m c main_arg1 (by decide)
    _ = WW0 m c (Proc.devRef .tc main_arg1) := WW1_of m c main_arg1 (by decide)
    _ = m ((c : Thread nD τ).loc main_arg1) := rfl
theorem WW3_main_arg2 (c : Dev nD) : WW3 m c (Proc.devRef .tc main_arg2) = m ((c : Thread nD τ).loc main_arg2) :=
  calc WW3 m c (Proc.devRef .tc main_arg2)
    _ = WW2 m c (Proc.devRef .tc main_arg2) := WW3_of_ne m c main_arg2 (by decide)
    _ = WW1 m c (Proc.devRef .tc main_arg2) := WW2_of_ne m c main_arg2 (by decide)
    _ = WW0 m c (Proc.devRef .tc main_arg2) := WW1_of m c main_arg2 (by decide)
    _ = m ((c : Thread nD τ).loc main_arg2) := rfl
theorem WW3_main_arg3 (c : Dev nD) : WW3 m c (Proc.devRef .tc main_arg3) = m ((c : Thread nD τ).loc main_arg3) :=
  calc WW3 m c (Proc.devRef .tc main_arg3)
    _ = WW2 m c (Proc.devRef .tc main_arg3) := WW3_of_ne m c main_arg3 (by decide)
    _ = WW1 m c (Proc.devRef .tc main_arg3) := WW2_of_ne m c main_arg3 (by decide)
    _ = WW0 m c (Proc.devRef .tc main_arg3) := WW1_of m c main_arg3 (by decide)
    _ = m ((c : Thread nD τ).loc main_arg3) := rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev LL : GSem nD τ sig → Finset Unit := fun _ => ∅
abbrev lvv : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TTₙ (c : Dev nD) : sProp 𝕄 := iprop(StableHlo.held (c : Thread nD τ) (Pipeline.ucRefs τ sig) (WW3 m c) ∗ ∃ r, prngReg c r)

set_option backward.isDefEq.respectTransparency.types false in
/-- The projection region as a segment: entered from every unscoped buffer at the contents after the host casts, left
    with its arrays at what its write-backs leave. -/
def reg0 : Pipeline.RegionSeg (pcfgs (F := F)) adm (pdats m) () defs₀ 𝒱₀ LL lvv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LL lvv 0 fun _ _ => rfl
  pre c := iprop(StableHlo.held (c : Thread nD τ) (Pipeline.ucRefs τ sig) (WW1 m c) ∗ RR c)
  post c := iprop(StableHlo.held (c : Thread nD τ) (Pipeline.ucRefs τ sig) (WW2 m c) ∗ RR c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch's invariant gives back at a region's exit: the generator register and the scoped buffers. -/
theorem PhiA_out1 (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The attention region as a segment: entered from the contents the projection region left, left with the result
    array at what its write-backs leave; the scratch buffers go into the region's invariant with the other scoped
    buffers and come back out of it. -/
def reg1 : Pipeline.RegionSeg (pcfgs (F := F)) adm (pdats m) () defs₀ 𝒱₀ LL lvv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ LL lvv 1 fun _ _ => rfl
  pre c := iprop(StableHlo.held (c : Thread nD τ) (Pipeline.ucRefs τ sig) (WW2 m c) ∗ RR c)
  post c := iprop(TTₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (VV2 m) c).Φ (Fin.last cfg1.N) from rfl]
    exact (hout1 (VV2 m) c).trans (PhiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev mainSegs : List (Pipeline.Seg (pcfgs (F := F)) adm (pdats m) () defs₀ 𝒱₀ LL lvv) :=
  [ .host (hseg hostOps0 hostOps0_sub hostOps0_fresh (WW0 m)),
    .region (reg0 m),
    .region (reg1 m) ]
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, with
    the result array at what the attention pipeline's write-backs leave and the four arguments as launched. -/
theorem run_main : θ_run defs (onTc (τ := τ) (main (F := F))) ⟨m, fun _ => 0, ρ⟩ (fun r => ∀ c : Dev nD,
      r.2.mem ((c.tc : Thread nD τ).loc main_v4) = (dat1 (VV2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ LL lvv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WW0 m c) ∗ RR c)) (Tₙ := TTₙ m)
    (hch := ⟨fun _ => .rfl, fun _ => .rfl, fun _ => .rfl, fun _ => .rfl⟩)
    (hinit := by
      refine Pipeline.initEach LL lvv fun c => ?_
      rw [show unscopedBufs c (fun b => m ((c : Thread nD τ).loc b)) = StableHlo.held (c : Thread nD τ) (Pipeline.ucRefs τ sig) (WW0 m c)
        from Pipeline.unscopedBufs_held c (WW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WW3 m c b)
    (hfin := fun c s' => by
      iintro ⟨⟨Hh, -⟩, HSI⟩
      unfold StableHlo.held
      imodintro
      iapply (pointsTo_read_all (Pipeline.ucRefs τ sig) (fun b => (((c : Thread nD τ)).1, b)) (WW3 m c) s')
      isplitl [Hh] <;> iassumption)
    (hQ := fun s h c =>
      ⟨(h c _ (mem_uc main_v4 (by decide))).trans (WW3_arr m c 3),
       (h c _ (mem_uc main_arg0 (by decide))).trans (WW3_main_arg0 m c),
       (h c _ (mem_uc main_arg1 (by decide))).trans (WW3_main_arg1 m c),
       (h c _ (mem_uc main_arg2 (by decide))).trans (WW3_main_arg2 m c),
       (h c _ (mem_uc main_arg3 (by decide))).trans (WW3_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.LibFmax.lean ====
/-
  The maximum of a finite family of extended reals, taken from -∞ (the fold of max over the family).
-/
import Mathlib.Data.EReal.Basic
import Mathlib.Data.Fintype.Basic
import Mathlib.Data.Fintype.BigOperators

namespace Cert.Attn

/-- The maximum of a finite family of extended reals, from -∞. -/
noncomputable def fmax {n : ℕ} (f : Fin n → EReal) : EReal := (Finset.univ : Finset (Fin n)).fold max ⊥ f

end Cert.Attn
-- ==== Proof.AttnSpec.lean ====
/-
  Causal attention over the extended reals, index by index: the three projections q, k, v of the input by the
  weight matrices (y = x · Wᵀ), the scaled scores of a query row against the key rows at or before it (the later
  ones are -∞), the row's softmax taken with its maximum subtracted, and the weighted sum of the value rows.
  This module imports no program: it is the one function both programs are shown to compute.
-/
import Idealize.ShloMosaic.PureOps.Ideal
import Idealize.ShloMosaic.Lib.ValueIdx
import proofs.«173625_j60997125538304_2_alg».proof.Proof.LibFmax

noncomputable section

namespace Cert.Attn

open Idealize.ShloMosaic Idealize.ShloMosaic.ValueIdx
open scoped BigOperators

abbrev SX : Shape := ⟨3, ![4, 2048, 1024]⟩
abbrev SW : Shape := ⟨2, ![1024, 1024]⟩

/-- A projection: row (b, s) of x against row e of the weight matrix. -/
def proj (x : SX.Idx → EReal) (W : SW.Idx → EReal) (b : Fin 4) (s : Fin 2048) (e : Fin 1024) : EReal :=
  ∑ d : Fin 1024, x (ix3 b s d) * W (ix2 e d)

/-- The scaled, causally masked score of query row i against key row j of batch b. -/
def score (x : SX.Idx → EReal) (Wq Wk : SW.Idx → EReal) (b : Fin 4) (i j : Fin 2048) : EReal :=
  if j.val ≤ i.val then (∑ e : Fin 1024, proj x Wq b i e * proj x Wk b j e) * ((1 / 32 : ℝ) : EReal) else ⊥

/-- The row's maximum score. -/
def rowMax (x : SX.Idx → EReal) (Wq Wk : SW.Idx → EReal) (b : Fin 4) (i : Fin 2048) : EReal :=
  max ⊥ (fmax fun j : Fin 2048 => score x Wq Wk b i j)

/-- The attention output at (b, i, d): the softmax weights of row i (each exponential of a score less the row's
    maximum, over the sum of them all) against column d of the value rows. -/
def attn (x : SX.Idx → EReal) (Wq Wk Wv : SW.Idx → EReal) (b : Fin 4) (i : Fin 2048) (d : Fin 1024) : EReal :=
  ∑ j : Fin 2048,
    Ideal.div (Ideal.exp (score x Wq Wk b i j - rowMax x Wq Wk b i))
        (0 + ∑ j' : Fin 2048, Ideal.exp (score x Wq Wk b i j' - rowMax x Wq Wk b i))
      * proj x Wv b j d

end Cert.Attn

end
-- ==== Proof.RefAttn.lean ====
/-
  The reference program read index by index: its result at (b, i, d) is the causal attention of the specification.
  Stage by stage: the three projections, the raw scores, the causal mask and the scale, the row maximum, the
  exponentials, their row sum, the weights, and the weighted sum of the value rows.
-/
import proofs.«173625_j60997125538304_2_alg».proof.Proof.Gen.ReferenceIdeal.Read
import proofs.«173625_j60997125538304_2_alg».proof.Proof.AttnSpec
import Idealize.ShloMosaic.Lib.ValueIdx
import Idealize.ShloMosaic.Lib.Pipeline.Value
import Idealize.ShloMosaic.PureOps.Ideal.Laws

noncomputable section

namespace Cert.RefAttn

open Cert.ReferenceIdeal Cert.ReferenceIdeal.Read Idealize.ShloMosaic Idealize.ShloMosaic.ValueIdx
open scoped BigOperators

/-- The input array's type and the weight matrices' type, at the extended reals. -/
abbrev X := (⟨S4x2048x1024, .f32⟩ : BufTy).Contents (Elt Ideal)
abbrev W := (⟨S1024x1024, .f32⟩ : BufTy).Contents (Elt Ideal)

/-! ## The projections -/

/-- A projection read at (b, s, e): row (b, s) of the input against row e of the weights. -/
theorem v0_apply (x0 : X) (x1 : W) (b : Fin 4) (s : Fin 2048) (e : Fin 1024) :
    val_main_v0 (F := Ideal) x0 x1 (ix3 b s e) = Cert.Attn.proj x0 x1 b s e := by
  rw [val_main_v0_apply]
  unfold Cert.Attn.proj
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]

theorem v1_apply (x0 : X) (x2 : W) (b : Fin 4) (s : Fin 2048) (e : Fin 1024) :
    val_main_v1 (F := Ideal) x0 x2 (ix3 b s e) = Cert.Attn.proj x0 x2 b s e := by
  rw [val_main_v1_apply]
  unfold Cert.Attn.proj
  refine Finset.sum_congr rfl fun k _ => ?_
  have el : lidx_main_v1 (ix3 b s e) k = ix3 b s k :=
    funext fun a => Fin.ext (by match a with | ⟨0, _⟩ => rfl | ⟨1, _⟩ => rfl | ⟨2, _⟩ => rfl)
  have er : ridx_main_v1 (ix3 b s e) k = ix2 e k :=
    funext fun a => Fin.ext (by match a with | ⟨0, _⟩ => rfl | ⟨1, _⟩ => rfl)
  rw [el, er]

theorem v2_apply (x0 : X) (x3 : W) (b : Fin 4) (s : Fin 2048) (e : Fin 1024) :
    val_main_v2 (F := Ideal) x0 x3 (ix3 b s e) = Cert.Attn.proj x0 x3 b s e := by
  rw [val_main_v2_apply]
  unfold Cert.Attn.proj
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 e k :=
    funext fun a => Fin.ext (by match a with | ⟨0, _⟩ => rfl | ⟨1, _⟩ => rfl)
  rw [el, er]

/-! ## The raw scores -/

/-- The raw score of query row i against key row j: the sum over e of the two projections' products. -/
theorem v3_apply (x0 : X) (x1 x2 : W) (b : Fin 4) (i j : Fin 2048) :
    val_main_v3 (F := Ideal) x0 x1 x2 (ix3 b i j)
      = ∑ e : Fin 1024, Cert.Attn.proj x0 x1 b i e * Cert.Attn.proj x0 x2 b j e := by
  rw [val_main_v3_apply]
  refine Finset.sum_congr rfl fun k _ => ?_
  have el : lidx_main_v3 (ix3 b i j) k = ix3 b i k :=
    funext fun a => Fin.ext (by match a with | ⟨0, _⟩ => rfl | ⟨1, _⟩ => rfl | ⟨2, _⟩ => rfl)
  have er : ridx_main_v3 (ix3 b i j) k = ix3 b j k :=
    funext fun a => Fin.ext (by match a with | ⟨0, _⟩ => rfl | ⟨1, _⟩ => rfl | ⟨2, _⟩ => rfl)
  rw [el, er, v0_apply, v1_apply]

/-! ## The causal mask -/

/-- A natural number below 2048 read back from its 32-bit word as a signed integer. -/
theorem toInt_ofNat_small (n : Nat) (hn : n < 2048) : (BitVec.ofNat 32 n).toInt = (n : Int) := by
  have e := BitVec.toInt_eq_toNat_cond (BitVec.ofNat 32 n)
  rw [BitVec.toNat_ofNat] at e
  omega

/-- The signed comparison "row + 0 ≥ column" on words of coordinates below 2048 is the comparison of the coordinates. -/
theorem sge_ofNat (i j : Nat) (hi : i < 2048) (hj : j < 2048) :
    IntOp.cmpi .sge (IntOp.addi (BitVec.ofNat 32 i) 0#32) (BitVec.ofNat 32 j) = if j ≤ i then 1#1 else 0#1 := by
  have e0 : IntOp.addi (BitVec.ofNat 32 i) 0#32 = BitVec.ofNat 32 i := BitVec.add_zero _
  rw [e0]
  have ti := toInt_ofNat_small i hi
  have tj := toInt_ofNat_small j hj
  by_cases h : j ≤ i
  · rw [if_pos h]
    exact IntOp.cmpi_sge.mpr (by rw [ti, tj]; exact_mod_cast h)
  · rw [if_neg h]
    refine eq_zero_of_ne_one fun hc => h ?_
    have := IntOp.cmpi_sge.mp hc
    rw [ti, tj] at this
    exact_mod_cast this

/-- The mask at (b, i, j): set exactly when column j is at or before row i. -/
theorem mask_apply (b : Fin 4) (i j : Fin 2048) :
    val_main_call1_v1 (F := Ideal) (ix3 b i j) = if j.val ≤ i.val then 1#1 else 0#1 := by
  rw [val_main_call1_v1_apply, val_main_v6_apply, val_main_v5_apply, val_main_call0_v4_apply, val_main_call0_v2_apply,
    val_main_call0_v0_apply, val_main_call0_v1_apply, val_main_call0_c_apply, val_main_call0_v3_apply, val_main_v4_apply,
    val_main_c_apply, val_main_call0_v5_apply, val_main_call0_c_0_apply]
  show Scalar.select (IntOp.cmpi .sge (IntOp.addi (BitVec.ofNat 32 i.val) 0#32) (BitVec.ofNat 32 j.val)) 1#1 0#1 = _
  rw [sge_ofNat i.val j.val i.isLt j.isLt]
  by_cases h : j.val ≤ i.val
  · rw [if_pos h]; exact select_one _ _
  · rw [if_neg h]; exact select_zero _ _

/-! ## The masked scores and the scale -/

/-- The word 0xFF800000 is -∞. -/
theorem ofBits_neg_inf : Ideal.ofBits .f32 0xFF800000#32 = (⊥ : EReal) := by simp [Ideal.ofBits, Ideal.ieee]

/-- The masked raw score: the raw score where the mask is set, -∞ elsewhere. -/
theorem v7_apply (x0 : X) (x1 x2 : W) (b : Fin 4) (i j : Fin 2048) :
    val_main_v7 (F := Ideal) x0 x1 x2 (ix3 b i j)
      = if j.val ≤ i.val then ∑ e : Fin 1024, Cert.Attn.proj x0 x1 b i e * Cert.Attn.proj x0 x2 b j e else ⊥ := by
  rw [val_main_v7_apply, mask_apply, v3_apply, val_main_call1_v2_apply, val_main_call1_v0_apply, val_main_cst_apply]
  by_cases h : j.val ≤ i.val
  · rw [if_pos h, if_pos h]; exact select_one _ _
  · rw [if_neg h, if_neg h]; exact (select_zero _ _).trans ofBits_neg_inf

/-- The word 0x3F800000 is 1. -/
theorem ofBits_one : Ideal.ofBits .f32 0x3F800000#32 = ((1 : ℝ) : EReal) := by
  simp [Ideal.ofBits, Ideal.ieee]
  rw [← EReal.coe_mul, ← EReal.coe_one]
  norm_num

/-- The word 0x44800000 is 1024. -/
theorem ofBits_1024 : Ideal.ofBits .f32 0x44800000#32 = ((1024 : ℝ) : EReal) := by
  simp [Ideal.ofBits, Ideal.ieee]
  rw [← EReal.coe_mul]
  norm_num

/-- The scale: one over the square root of 1024 is 1/32. -/
theorem scale_eq :
    Ideal.div (Ideal.ofBits .f32 0x3F800000#32) (Ideal.sqrt (Ideal.ofBits .f32 0x44800000#32)) = ((1 / 32 : ℝ) : EReal) := by
  rw [ofBits_one, ofBits_1024, Ideal.sqrt_coe, if_neg (by norm_num)]
  have h : Real.sqrt 1024 = 32 := by
    rw [show (1024 : ℝ) = 32 ^ 2 by norm_num]; exact Real.sqrt_sq (by norm_num)
  rw [h, Ideal.div_coe (by norm_num), ← EReal.coe_mul, one_mul]

/-- The broadcast scale is 1/32 at every index. -/
theorem v10_apply (idx : S4x2048x2048.Idx) : val_main_v10 (F := Ideal) idx = ((1 / 32 : ℝ) : EReal) := by
  rw [val_main_v10_apply, val_main_v9_apply, val_main_cst_1_apply, val_main_v8_apply, val_main_cst_0_apply]
  exact scale_eq

/-- The scaled masked score is the specification's score: -∞ times the positive scale is -∞. -/
theorem v11_apply (x0 : X) (x1 x2 : W) (b : Fin 4) (i j : Fin 2048) :
    val_main_v11 (F := Ideal) x0 x1 x2 (ix3 b i j) = Cert.Attn.score x0 x1 x2 b i j := by
  rw [val_main_v11_apply, v7_apply, v10_apply]
  unfold Cert.Attn.score
  by_cases h : j.val ≤ i.val
  · rw [if_pos h, if_pos h]; rfl
  · rw [if_neg h, if_neg h]; exact EReal.bot_mul_coe_of_pos (by norm_num)

/-! ## The row maximum -/

/-- The maximum over the last axis from -∞, at (b, i): the fold of max over the row's scores. -/
theorem v12_apply (x0 : X) (x1 x2 : W) (b : Fin 4) (i : Fin 2048) :
    val_main_v12 (F := Ideal) x0 x1 x2 (ix2 b i)
      = Cert.Attn.fmax fun j : Fin 2048 => Cert.Attn.score x0 x1 x2 b i j := by
  have hr : S4x2048x2048.Reduces [2] S4x2048 := by decide
  unfold val_main_v12
  refine (Host.reduce_eq_fold_single FloatOps.maximumf _ _ _ hr _ _).trans ?_
  have hi : val_main_cst_2 (F := Ideal) (Shape.Idx.first Gen.h_S_) = (⊥ : EReal) := ofBits_neg_inf
  have hf : (val_main_v11 (F := Ideal) x0 x1 x2 ∘ hr.lift (ix2 b i))
      = fun j : Fin 2048 => Cert.Attn.score x0 x1 x2 b i j :=
    funext fun k => by
      have e : hr.lift (ix2 b i) k = ix3 b i (⟨k.val, k.isLt⟩ : Fin 2048) :=
        funext fun c => Fin.ext (by match c with | ⟨0, _⟩ => rfl | ⟨1, _⟩ => rfl | ⟨2, _⟩ => rfl)
      show val_main_v11 (F := Ideal) x0 x1 x2 (hr.lift (ix2 b i) k) = _
      rw [e, v11_apply]
      rfl
  unfold Cert.Attn.fmax
  exact congrArg₂ (fun (a : EReal) (f : Fin 2048 → EReal) => Finset.fold max a f (Finset.univ : Finset (Fin 2048))) hi hf

/-- The row maximum against -∞, at (b, i). -/
theorem v14_apply (x0 : X) (x1 x2 : W) (b : Fin 4) (i : Fin 2048) :
    val_main_v14 (F := Ideal) x0 x1 x2 (ix2 b i) = Cert.Attn.rowMax x0 x1 x2 b i := by
  rw [val_main_v14_apply, v12_apply, val_main_v13_apply, val_main_cst_3_apply]
  unfold Cert.Attn.rowMax
  show max (Ideal.ofBits .f32 0xFF800000#32) _ = _
  rw [ofBits_neg_inf]

/-- The row maximum broadcast back along the row. -/
theorem v16_apply (x0 : X) (x1 x2 : W) (b : Fin 4) (i j : Fin 2048) :
    val_main_v16 (F := Ideal) x0 x1 x2 (ix3 b i j) = Cert.Attn.rowMax x0 x1 x2 b i := by
  rw [val_main_v16_apply, val_main_v15_apply]
  have e : idx_main_v15 (idx_main_v16 (ix3 b i j)) = ix2 b i :=
    funext fun a => Fin.ext (by match a with | ⟨0, _⟩ => rfl | ⟨1, _⟩ => rfl)
  rw [e, v14_apply]

/-! ## The exponentials, their row sum, the weights -/

/-- The exponential of the score less the row maximum. -/
theorem v18_apply (x0 : X) (x1 x2 : W) (b : Fin 4) (i j : Fin 2048) :
    val_main_v18 (F := Ideal) x0 x1 x2 (ix3 b i j)
      = Ideal.exp (Cert.Attn.score x0 x1 x2 b i j - Cert.Attn.rowMax x0 x1 x2 b i) := by
  rw [val_main_v18_apply, val_main_v17_apply, v11_apply, v16_apply]
  rfl

/-- The row sum of the exponentials, from zero. -/
theorem v19_apply (x0 : X) (x1 x2 : W) (b : Fin 4) (i : Fin 2048) :
    val_main_v19 (F := Ideal) x0 x1 x2 (ix2 b i)
      = 0 + ∑ j : Fin 2048, Ideal.exp (Cert.Attn.score x0 x1 x2 b i j - Cert.Attn.rowMax x0 x1 x2 b i) := by
  rw [val_main_v19_apply, val_main_cst_4_apply]
  show Ideal.ofBits .f32 0x00000000#32 + _ = _
  rw [Ideal.ofBits_zero_f32]
  refine congrArg (0 + ·) (Finset.sum_congr rfl fun k _ => ?_)
  have e : idx_main_v19 (ix2 b i) k = ix3 b i k :=
    funext fun a => Fin.ext (by match a with | ⟨0, _⟩ => rfl | ⟨1, _⟩ => rfl | ⟨2, _⟩ => rfl)
  rw [e, v18_apply]

/-- The row sum broadcast back along the row. -/
theorem v21_apply (x0 : X) (x1 x2 : W) (b : Fin 4) (i j : Fin 2048) :
    val_main_v21 (F := Ideal) x0 x1 x2 (ix3 b i j)
      = 0 + ∑ j' : Fin 2048, Ideal.exp (Cert.Attn.score x0 x1 x2 b i j' - Cert.Attn.rowMax x0 x1 x2 b i) := by
  rw [val_main_v21_apply, val_main_v20_apply]
  have e : idx_main_v20 (idx_main_v21 (ix3 b i j)) = ix2 b i :=
    funext fun a => Fin.ext (by match a with | ⟨0, _⟩ => rfl | ⟨1, _⟩ => rfl)
  rw [e, v19_apply]

/-- The softmax weight at (b, i, j). -/
theorem v22_apply (x0 : X) (x1 x2 : W) (b : Fin 4) (i j : Fin 2048) :
    val_main_v22 (F := Ideal) x0 x1 x2 (ix3 b i j)
      = Ideal.div (Ideal.exp (Cert.Attn.score x0 x1 x2 b i j - Cert.Attn.rowMax x0 x1 x2 b i))
          (0 + ∑ j' : Fin 2048, Ideal.exp (Cert.Attn.score x0 x1 x2 b i j' - Cert.Attn.rowMax x0 x1 x2 b i)) := by
  rw [val_main_v22_apply, v18_apply, v21_apply]
  rfl

/-! ## The output -/

/-- The reference's result at (b, i, d) is the specification's attention. -/
theorem ref_is_attn (x0 : (⟨Cert.ReferenceIdeal.S4x2048x1024, .f32⟩ : BufTy).Contents (Elt Ideal)) (x1 x2 x3 : (⟨Cert.ReferenceIdeal.S1024x1024, .f32⟩ : BufTy).Contents (Elt Ideal)) (b : Fin 4) (i : Fin 2048) (d : Fin 1024) :
    Cert.ReferenceIdeal.Read.val_main_v23 (F := Ideal) x0 x1 x2 x3 (ValueIdx.ix3 b i d) = Cert.Attn.attn x0 x1 x2 x3 b i d := by
  rw [val_main_v23_apply]
  unfold Cert.Attn.attn
  refine Finset.sum_congr rfl fun k _ => ?_
  have el : lidx_main_v23 (ix3 b i d) k = ix3 b i k :=
    funext fun a => Fin.ext (by match a with | ⟨0, _⟩ => rfl | ⟨1, _⟩ => rfl | ⟨2, _⟩ => rfl)
  have er : ridx_main_v23 (ix3 b i d) k = ix3 b k d :=
    funext fun a => Fin.ext (by match a with | ⟨0, _⟩ => rfl | ⟨1, _⟩ => rfl | ⟨2, _⟩ => rfl)
  rw [el, er, v22_apply, v2_apply]

end Cert.RefAttn

end
-- ==== Proof.ProjValue.lean ====
/-
  The projection region's three output arrays after the region, index by index: each is the projection of the input
  array by one weight matrix. First the body's payload read at an index (a row of the input block against a row of
  the weight matrix), then each grid point's write-back as a block of that one whole-array function, then the cover
  of the array by the blocks.
-/
import proofs.«173625_j60997125538304_2_alg».proof.Proof.FrameR0I
import proofs.«173625_j60997125538304_2_alg».proof.Proof.AttnSpec
import Idealize.ShloMosaic.Lib.Pipeline.Value
import Idealize.ShloMosaic.Lib.ValueIdx
import Idealize.ShloMosaic.PureOps.Ideal.Laws

noncomputable section

namespace Cert.KernelIdeal.ProjV

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The payload at an index -/

abbrev D0 := dot_S512x1024_S1024x1024_S512x1024_1_1_0_0_n_n

theorem lhs_D0_0 (i : S512x1024.Idx) (q : D0.contr.Idx) : (D0.lhsIdx i q 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs_D0_1 (i : S512x1024.Idx) (q : D0.contr.Idx) : (D0.lhsIdx i q 1).val = (q ⟨0, by decide⟩).val :=
  D0.lhsIdx_val_of_single rfl i q
theorem rhs_D0_0 (i : S512x1024.Idx) (q : D0.contr.Idx) : (D0.rhsIdx i q 0).val = (i 1).val := by
  unfold DotDims.rhsIdx
  rw [dif_neg (show ¬(0 : Fin S1024x1024.rank) ∈ D0.rhsBatch by decide), dif_pos (show (0 : Fin S1024x1024.rank) ∈ D0.rhsNonContracting by decide)]
  rfl
theorem rhs_D0_1 (i : S512x1024.Idx) (q : D0.contr.Idx) : (D0.rhsIdx i q 1).val = (q ⟨0, by decide⟩).val :=
  D0.rhsIdx_val_of_single rfl i q

/-- The product of the block's rows by the weight matrix's rows, into zero, at (r, e): the sum over the shared axis. -/
theorem matmul_apply (a : FVec Ideal S512x1024 .bf16) (w : FVec Ideal S1024x1024 .bf16) (r : Fin 512) (e : Fin 1024) :
    (matmul D0 none a w (constant S512x1024 .f32 0x00000000#32) : FVec Ideal S512x1024 .f32) (ix2 r e)
      = ∑ d : Fin 1024, a (ix2 r d) * w (ix2 e d) := by
  refine (Ideal.matmul_constant_zero_apply D0 none a w (ix2 r e)).trans ?_
  rw [← Equiv.sum_comp (ValueIdx.contrEquiv1 D0 1024 rfl rfl).symm]
  refine Finset.sum_congr rfl fun k _ => ?_
  have hk := ValueIdx.contrEquiv1_symm_val D0 1024 rfl rfl k
  have el : D0.lhsIdx (ix2 r e) ((ValueIdx.contrEquiv1 D0 1024 rfl rfl).symm k) = ix2 r k := funext fun c => Fin.ext (by
    match c with
    | ⟨0, _⟩ => exact lhs_D0_0 _ _
    | ⟨1, _⟩ => exact (lhs_D0_1 _ _).trans hk)
  have er : D0.rhsIdx (ix2 r e) ((ValueIdx.contrEquiv1 D0 1024 rfl rfl).symm k) = ix2 e k := funext fun c => Fin.ext (by
    match c with
    | ⟨0, _⟩ => exact rhs_D0_0 _ _
    | ⟨1, _⟩ => exact (rhs_D0_1 _ _).trans hk)
  rw [el, er]

/-- The block with its unit axis dropped and its format narrowed, at (r, d), is the block at (z, r, d). -/
theorem pay1_apply (v0 : Vec Ideal S1x512x1024 .f32) (z : Fin 1) (r : Fin 512) (d : Fin 1024) :
    k0_pay1 (F := Ideal) v0 (ix2 r d) = v0 (ix3 z r d) := by
  unfold k0_pay1
  refine (shapeCast_dropUnit_apply ![512, 1024] v0 _ (ix2 r d)).trans ?_
  refine congrArg v0 (funext fun a => Fin.ext ?_)
  match a with
  | ⟨0, _⟩ => show 0 = z.val; omega
  | ⟨1, _⟩ => rfl
  | ⟨2, _⟩ => rfl

/-- The first output's payload at (z, r, e): row r of the input block against row e of the weight matrix. -/
theorem pay2_apply (v0 : Vec Ideal S1x512x1024 .f32) (v3 : Vec Ideal S1024x1024 .bf16) (z : Fin 1) (r : Fin 512) (e : Fin 1024) :
    k0_pay2 (F := Ideal) v0 v3 (ix3 z r e) = ∑ d : Fin 1024, v0 (ix3 z r d) * v3 (ix2 e d) := by
  unfold k0_pay2
  refine (shapeCast_addUnit_apply ![512, 1024] _ _ (ix3 z r e)).trans ?_
  have ej : (fun a : Fin 2 => (ix3 z r e) a.succ) = ix2 r e :=
    funext fun a => by match a with | ⟨0, _⟩ => rfl | ⟨1, _⟩ => rfl
  refine (congrArg _ ej).trans ?_
  refine (matmul_apply _ _ r e).trans ?_
  refine Finset.sum_congr rfl fun d _ => ?_
  rw [pay1_apply v0 z r d, shapeCast_self]

/-- The three payloads are one function. -/
theorem pay3_eq (v0 : Vec Ideal S1x512x1024 .f32) (v : Vec Ideal S1024x1024 .bf16) :
    k0_pay3 (F := Ideal) v0 v = k0_pay2 (F := Ideal) v0 v := rfl
theorem pay4_eq (v0 : Vec Ideal S1x512x1024 .f32) (v : Vec Ideal S1024x1024 .bf16) :
    k0_pay4 (F := Ideal) v0 v = k0_pay2 (F := Ideal) v0 v := rfl

/-- One element of a point's payload is one projection entry, once the point's input blocks are known to be the
    rows of the input array and the weight matrix that the entry reads. -/
theorem point_eq (x : Cert.Attn.SX.Idx → EReal) (w : Cert.Attn.SW.Idx → EReal)
    (X : Vec Ideal S1x512x1024 .f32) (Wb : Vec Ideal S1024x1024 .bf16)
    (b : Fin 4) (s : Fin 2048) (e' : Fin 1024) (z : Fin 1) (r : Fin 512) (e : Fin 1024)
    (hX : ∀ d : Fin 1024, X (ix3 z r d) = x (ix3 b s d))
    (hW : ∀ d : Fin 1024, Wb (ix2 e d) = w (ix2 e' d)) :
    k0_pay2 (F := Ideal) X Wb (ix3 z r e) = Cert.Attn.proj x w b s e' := by
  rw [pay2_apply]
  unfold Cert.Attn.proj
  exact Finset.sum_congr rfl fun d _ => by rw [hX d, hW d]

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid, for output window 4. -/
theorem idx_facts4 : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_4.index t (0 : Fin 3) ≤ 3 ∧ win0_4.index t (1 : Fin 3) ≤ 3 :=
  (by decide +kernel : ∀ t : Fin grid0.N, _)

/-- Every block of the array is some point's. -/
theorem idx_onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- The printed index maps over the grid, for output window 5. -/
theorem idx_facts5 : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_2.index t (0 : Fin 2) = 0 ∧ win0_2.index t (1 : Fin 2) = 0
    ∧ win0_5.index t (0 : Fin 3) ≤ 3 ∧ win0_5.index t (1 : Fin 3) ≤ 3 :=
  (by decide +kernel : ∀ t : Fin grid0.N, _)

/-- Every block of the array is some point's. -/
theorem idx_onto5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- The printed index maps over the grid, for output window 6. -/
theorem idx_facts6 : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_3.index t (0 : Fin 2) = 0 ∧ win0_3.index t (1 : Fin 2) = 0
    ∧ win0_6.index t (0 : Fin 3) ≤ 3 ∧ win0_6.index t (1 : Fin 3) ≤ 3 :=
  (by decide +kernel : ∀ t : Fin grid0.N, _)

/-- Every block of the array is some point's. -/
theorem idx_onto6 : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

section
variable (V : (c : Dev nD) → (b : Ref sig .tc) → Buf (Elt Ideal) ((c : Thread nD τ).loc b)) (c : Dev nD)

/-- The query, key and value arrays as functions of the arrays the region finds: the input's projections. -/
abbrev Gq : S4x2048x1024.Idx → EReal := fun i => Cert.Attn.proj (V c main_arg0) (V c main_v0) (i 0) (i 1) (i 2)
abbrev Gk : S4x2048x1024.Idx → EReal := fun i => Cert.Attn.proj (V c main_arg0) (V c main_v1) (i 0) (i 1) (i 2)
abbrev Gv : S4x2048x1024.Idx → EReal := fun i => Cert.Attn.proj (V c main_arg0) (V c main_v2) (i 0) (i 1) (i 2)

/-! ### The query array -/

theorem flushed4_eq (t : Fin cfg0.N) :
    (Fr.dat0 (F := Ideal) V c).flushed 4 t = ((cfg0.win 4).blk t).view.read (Elt Ideal) (Gq V c) := by
  show (cfg0.win 4).cut (grid0.coords t) ((Fr.dat0 (F := Ideal) V c).after 4 t) = _
  rw [Fr.after0_4]
  unfold Fr.out0_4
  rw [View.canon_unit_zero hz3]
  simp only [View.ld_unit_zero (S := S1x512x1024) hz3, View.ld_unit_zero (S := S1024x1024) hz2]
  funext j
  have hj0 : (j 0).val < 1 := (j 0).isLt
  have hj1 : (j 1).val < 512 := (j 1).isLt
  have hj2 : (j 2).val < 1024 := (j 2).isLt
  obtain ⟨e0, e1, e2, e3, e4, e5, e6, e7⟩ := idx_facts4 t
  have ex : (win0 4).xinj (grid0.coords t) j
      = ix3 (⟨(j 0).val, hj0⟩ : Fin 1) (⟨(j 1).val, hj1⟩ : Fin 512) (⟨(j 2).val, hj2⟩ : Fin 1024) :=
    funext fun a => by match a with | ⟨0, _⟩ => rfl | ⟨1, _⟩ => rfl | ⟨2, _⟩ => rfl
  rw [View.read_apply]
  show k0_pay2 (F := Ideal) (Fr.iblk0 V c 0 t) (Fr.iblk0 V c 1 t) ((win0 4).xinj (grid0.coords t) j) = _
  rw [ex]
  refine (point_eq (V c main_arg0) (V c main_v0) (Fr.iblk0 V c 0 t) (Fr.iblk0 V c 1 t)
    (((cfg0.win 4).blk t).view.emb j 0) (((cfg0.win 4).blk t).view.emb j 1) (((cfg0.win 4).blk t).view.emb j 2)
    ⟨(j 0).val, hj0⟩ ⟨(j 1).val, hj1⟩ ⟨(j 2).val, hj2⟩ ?_ ?_).trans ?_
  · intro d
    unfold Fr.iblk0
    rw [View.read_apply]
    show V c main_arg0 (((cfg0.win 0).blk t).view.emb (ix3 (⟨(j 0).val, hj0⟩ : Fin 1) (⟨(j 1).val, hj1⟩ : Fin 512) d))
      = V c main_arg0 (ix3 (((cfg0.win 4).blk t).view.emb j 0) (((cfg0.win 4).blk t).view.emb j 1) d)
    refine congrArg (V c main_arg0) (funext fun a => Fin.ext ?_)
    match a with
    | ⟨0, _⟩ => show win0_0.index t (0 : Fin 3) * 1 + 1 * (j 0).val = win0_4.index t (0 : Fin 3) * 1 + 1 * (j 0).val; omega
    | ⟨1, _⟩ => show win0_0.index t (1 : Fin 3) * 512 + 1 * (j 1).val = win0_4.index t (1 : Fin 3) * 512 + 1 * (j 1).val; omega
    | ⟨2, _⟩ => show win0_0.index t (2 : Fin 3) * 1024 + 1 * d.val = d.val; omega
  · intro d
    unfold Fr.iblk0
    rw [View.read_apply]
    show V c main_v0 (((cfg0.win 1).blk t).view.emb (ix2 (⟨(j 2).val, hj2⟩ : Fin 1024) d))
      = V c main_v0 (ix2 (((cfg0.win 4).blk t).view.emb j 2) d)
    refine congrArg (V c main_v0) (funext fun a => Fin.ext ?_)
    match a with
    | ⟨0, _⟩ => show win0_1.index t (0 : Fin 2) * 1024 + 1 * (j 2).val = win0_4.index t (2 : Fin 3) * 1024 + 1 * (j 2).val; omega
    | ⟨1, _⟩ => show win0_1.index t (1 : Fin 2) * 1024 + 1 * d.val = d.val; omega
  · rfl

/-- An index of the array is in point t's block iff each coordinate is in the block's range on its axis. -/
theorem mem_blk4 (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_0).slice (win0_4.rect t)).set ↔ _
  rw [View.set_slice_whole, Rect.mem_set_unit]
  exact Iff.rfl

/-- The blocks cover the array: row s of batch b is in the block of the point with block index (b, s / 512, 0). -/
theorem cover4 (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The array after the region: the projection of the input by the weight matrix, index by index. -/
theorem q_array :
    (Fr.dat0 (F := Ideal) V c).arrAt 4 cfg0.N
      = fun i : S4x2048x1024.Idx => Cert.Attn.proj (V c main_arg0) (V c main_v0) (i 0) (i 1) (i 2) :=
  (Fr.dat0 (F := Ideal) V c).arrAt_eq_of_cover 4 (Gq V c) (fun t _ => flushed4_eq V c t) cover4

/-! ### The key array -/

theorem flushed5_eq (t : Fin cfg0.N) :
    (Fr.dat0 (F := Ideal) V c).flushed 5 t = ((cfg0.win 5).blk t).view.read (Elt Ideal) (Gk V c) := by
  show (cfg0.win 5).cut (grid0.coords t) ((Fr.dat0 (F := Ideal) V c).after 5 t) = _
  rw [Fr.after0_5]
  unfold Fr.out0_5
  rw [View.canon_unit_zero hz3]
  simp only [View.ld_unit_zero (S := S1x512x1024) hz3, View.ld_unit_zero (S := S1024x1024) hz2]
  funext j
  have hj0 : (j 0).val < 1 := (j 0).isLt
  have hj1 : (j 1).val < 512 := (j 1).isLt
  have hj2 : (j 2).val < 1024 := (j 2).isLt
  obtain ⟨e0, e1, e2, e3, e4, e5, e6, e7⟩ := idx_facts5 t
  have ex : (win0 5).xinj (grid0.coords t) j
      = ix3 (⟨(j 0).val, hj0⟩ : Fin 1) (⟨(j 1).val, hj1⟩ : Fin 512) (⟨(j 2).val, hj2⟩ : Fin 1024) :=
    funext fun a => by match a with | ⟨0, _⟩ => rfl | ⟨1, _⟩ => rfl | ⟨2, _⟩ => rfl
  rw [View.read_apply]
  show k0_pay3 (F := Ideal) (Fr.iblk0 V c 0 t) (Fr.iblk0 V c 2 t) ((win0 5).xinj (grid0.coords t) j) = _
  rw [ex, pay3_eq]
  refine (point_eq (V c main_arg0) (V c main_v1) (Fr.iblk0 V c 0 t) (Fr.iblk0 V c 2 t)
    (((cfg0.win 5).blk t).view.emb j 0) (((cfg0.win 5).blk t).view.emb j 1) (((cfg0.win 5).blk t).view.emb j 2)
    ⟨(j 0).val, hj0⟩ ⟨(j 1).val, hj1⟩ ⟨(j 2).val, hj2⟩ ?_ ?_).trans ?_
  · intro d
    unfold Fr.iblk0
    rw [View.read_apply]
    show V c main_arg0 (((cfg0.win 0).blk t).view.emb (ix3 (⟨(j 0).val, hj0⟩ : Fin 1) (⟨(j 1).val, hj1⟩ : Fin 512) d))
      = V c main_arg0 (ix3 (((cfg0.win 5).blk t).view.emb j 0) (((cfg0.win 5).blk t).view.emb j 1) d)
    refine congrArg (V c main_arg0) (funext fun a => Fin.ext ?_)
    match a with
    | ⟨0, _⟩ => show win0_0.index t (0 : Fin 3) * 1 + 1 * (j 0).val = win0_5.index t (0 : Fin 3) * 1 + 1 * (j 0).val; omega
    | ⟨1, _⟩ => show win0_0.index t (1 : Fin 3) * 512 + 1 * (j 1).val = win0_5.index t (1 : Fin 3) * 512 + 1 * (j 1).val; omega
    | ⟨2, _⟩ => show win0_0.index t (2 : Fin 3) * 1024 + 1 * d.val = d.val; omega
  · intro d
    unfold Fr.iblk0
    rw [View.read_apply]
    show V c main_v1 (((cfg0.win 2).blk t).view.emb (ix2 (⟨(j 2).val, hj2⟩ : Fin 1024) d))
      = V c main_v1 (ix2 (((cfg0.win 5).blk t).view.emb j 2) d)
    refine congrArg (V c main_v1) (funext fun a => Fin.ext ?_)
    match a with
    | ⟨0, _⟩ => show win0_2.index t (0 : Fin 2) * 1024 + 1 * (j 2).val = win0_5.index t (2 : Fin 3) * 1024 + 1 * (j 2).val; omega
    | ⟨1, _⟩ => show win0_2.index t (1 : Fin 2) * 1024 + 1 * d.val = d.val; omega
  · rfl

/-- An index of the array is in point t's block iff each coordinate is in the block's range on its axis. -/
theorem mem_blk5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v3_1).slice (win0_5.rect t)).set ↔ _
  rw [View.set_slice_whole, Rect.mem_set_unit]
  exact Iff.rfl

/-- The blocks cover the array: row s of batch b is in the block of the point with block index (b, s / 512, 0). -/
theorem cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The array after the region: the projection of the input by the weight matrix, index by index. -/
theorem k_array :
    (Fr.dat0 (F := Ideal) V c).arrAt 5 cfg0.N
      = fun i : S4x2048x1024.Idx => Cert.Attn.proj (V c main_arg0) (V c main_v1) (i 0) (i 1) (i 2) :=
  (Fr.dat0 (F := Ideal) V c).arrAt_eq_of_cover 5 (Gk V c) (fun t _ => flushed5_eq V c t) cover5

/-! ### The value array -/

theorem flushed6_eq (t : Fin cfg0.N) :
    (Fr.dat0 (F := Ideal) V c).flushed 6 t = ((cfg0.win 6).blk t).view.read (Elt Ideal) (Gv V c) := by
  show (cfg0.win 6).cut (grid0.coords t) ((Fr.dat0 (F := Ideal) V c).after 6 t) = _
  rw [Fr.after0_6]
  unfold Fr.out0_6
  rw [View.canon_unit_zero hz3]
  simp only [View.ld_unit_zero (S := S1x512x1024) hz3, View.ld_unit_zero (S := S1024x1024) hz2]
  funext j
  have hj0 : (j 0).val < 1 := (j 0).isLt
  have hj1 : (j 1).val < 512 := (j 1).isLt
  have hj2 : (j 2).val < 1024 := (j 2).isLt
  obtain ⟨e0, e1, e2, e3, e4, e5, e6, e7⟩ := idx_facts6 t
  have ex : (win0 6).xinj (grid0.coords t) j
      = ix3 (⟨(j 0).val, hj0⟩ : Fin 1) (⟨(j 1).val, hj1⟩ : Fin 512) (⟨(j 2).val, hj2⟩ : Fin 1024) :=
    funext fun a => by match a with | ⟨0, _⟩ => rfl | ⟨1, _⟩ => rfl | ⟨2, _⟩ => rfl
  rw [View.read_apply]
  show k0_pay4 (F := Ideal) (Fr.iblk0 V c 0 t) (Fr.iblk0 V c 3 t) ((win0 6).xinj (grid0.coords t) j) = _
  rw [ex, pay4_eq]
  refine (point_eq (V c main_arg0) (V c main_v2) (Fr.iblk0 V c 0 t) (Fr.iblk0 V c 3 t)
    (((cfg0.win 6).blk t).view.emb j 0) (((cfg0.win 6).blk t).view.emb j 1) (((cfg0.win 6).blk t).view.emb j 2)
    ⟨(j 0).val, hj0⟩ ⟨(j 1).val, hj1⟩ ⟨(j 2).val, hj2⟩ ?_ ?_).trans ?_
  · intro d
    unfold Fr.iblk0
    rw [View.read_apply]
    show V c main_arg0 (((cfg0.win 0).blk t).view.emb (ix3 (⟨(j 0).val, hj0⟩ : Fin 1) (⟨(j 1).val, hj1⟩ : Fin 512) d))
      = V c main_arg0 (ix3 (((cfg0.win 6).blk t).view.emb j 0) (((cfg0.win 6).blk t).view.emb j 1) d)
    refine congrArg (V c main_arg0) (funext fun a => Fin.ext ?_)
    match a with
    | ⟨0, _⟩ => show win0_0.index t (0 : Fin 3) * 1 + 1 * (j 0).val = win0_6.index t (0 : Fin 3) * 1 + 1 * (j 0).val; omega
    | ⟨1, _⟩ => show win0_0.index t (1 : Fin 3) * 512 + 1 * (j 1).val = win0_6.index t (1 : Fin 3) * 512 + 1 * (j 1).val; omega
    | ⟨2, _⟩ => show win0_0.index t (2 : Fin 3) * 1024 + 1 * d.val = d.val; omega
  · intro d
    unfold Fr.iblk0
    rw [View.read_apply]
    show V c main_v2 (((cfg0.win 3).blk t).view.emb (ix2 (⟨(j 2).val, hj2⟩ : Fin 1024) d))
      = V c main_v2 (ix2 (((cfg0.win 6).blk t).view.emb j 2) d)
    refine congrArg (V c main_v2) (funext fun a => Fin.ext ?_)
    match a with
    | ⟨0, _⟩ => show win0_3.index t (0 : Fin 2) * 1024 + 1 * (j 2).val = win0_6.index t (2 : Fin 3) * 1024 + 1 * (j 2).val; omega
    | ⟨1, _⟩ => show win0_3.index t (1 : Fin 2) * 1024 + 1 * d.val = d.val; omega
  · rfl

/-- An index of the array is in point t's block iff each coordinate is in the block's range on its axis. -/
theorem mem_blk6 (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v3_2).slice (win0_6.rect t)).set ↔ _
  rw [View.set_slice_whole, Rect.mem_set_unit]
  exact Iff.rfl

/-- The blocks cover the array: row s of batch b is in the block of the point with block index (b, s / 512, 0). -/
theorem cover6 (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto6 ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- The array after the region: the projection of the input by the weight matrix, index by index. -/
theorem v_array :
    (Fr.dat0 (F := Ideal) V c).arrAt 6 cfg0.N
      = fun i : S4x2048x1024.Idx => Cert.Attn.proj (V c main_arg0) (V c main_v2) (i 0) (i 1) (i 2) :=
  (Fr.dat0 (F := Ideal) V c).arrAt_eq_of_cover 6 (Gv V c) (fun t _ => flushed6_eq V c t) cover6

end

end Cert.KernelIdeal.ProjV

end
-- ==== Proof.HostCasts.lean ====
/-
  The host prefix of the kernel program: the three weight matrices narrowed to bf16 before the projection region.
  At the extended reals a change of format is the identity, so each narrowed matrix is the argument it came from,
  and the input array is untouched.
-/
import proofs.«173625_j60997125538304_2_alg».proof.Proof.Gen.KernelIdeal.Launch
import Idealize.ShloMosaic.Lib.StableHlo.Run
import Idealize.ShloMosaic.PureOps.Ideal.Laws

noncomputable section

namespace Cert.KernelIdeal.ProjV

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The narrowed query weights are the query weights. -/
theorem cast_v0 :
    (StableHlo.after (Cert.KernelIdeal.Gen.hostOps0 (F := Ideal)) (fun b => m (c, b)) (Proc.devRef .tc main_v0) : S1024x1024.Idx → EReal)
      = m ((c : Thread nD τ).loc main_arg1) := by
  after_results
  rfl

/-- The narrowed key weights are the key weights. -/
theorem cast_v1 :
    (StableHlo.after (Cert.KernelIdeal.Gen.hostOps0 (F := Ideal)) (fun b => m (c, b)) (Proc.devRef .tc main_v1) : S1024x1024.Idx → EReal)
      = m ((c : Thread nD τ).loc main_arg2) := by
  after_results
  rfl

/-- The narrowed value weights are the value weights. -/
theorem cast_v2 :
    (StableHlo.after (Cert.KernelIdeal.Gen.hostOps0 (F := Ideal)) (fun b => m (c, b)) (Proc.devRef .tc main_v2) : S1024x1024.Idx → EReal)
      = m ((c : Thread nD τ).loc main_arg3) := by
  after_results
  rfl

/-- The input array is not written by the host prefix. -/
theorem cast_arg0 :
    (StableHlo.after (Cert.KernelIdeal.Gen.hostOps0 (F := Ideal)) (fun b => m (c, b)) (Proc.devRef .tc main_arg0) : S4x2048x1024.Idx → EReal)
      = m ((c : Thread nD τ).loc main_arg0) := by
  after_results

end Cert.KernelIdeal.ProjV

end
-- ==== Proof.FiniteInputs.lean ====
/-
  From the precondition to "every input entry is a real number": the precondition says that the absolute value of
  every entry of the four argument arrays is below +∞, and an extended real whose absolute value is below +∞ is
  neither infinity.
-/
import proofs.«173625_j60997125538304_2_alg».proof.Defs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Idealize.SL.Sem

/-- The word 0x7F800000 is +∞. -/
theorem ofBits_pos_inf : Ideal.ofBits .f32 0x7F800000#32 = (⊤ : EReal) := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  induction x using EReal.rec with
  | bot => exact absurd hlt (by simp)
  | coe r => exact ⟨r, rfl⟩
  | top => exact absurd hlt (by simp)

/-- The scalar shape has one index. -/
instance : Subsingleton Cert.Pre_finite_inputs.S_.Idx := ⟨fun a b => funext fun d => d.elim0⟩

/-- One entry of an array whose comparison "absolute value below the broadcast +∞" holds there is a real number. -/
theorem entry_real {s : Shape} (hb : Cert.Pre_finite_inputs.S_.BroadcastsInDim s (![] : Fin 0 → Fin s.rank))
    (x : FVec Ideal s .f32) (i : s.Idx)
    (h : cmpf .olt (Host.absf x) (broadcastInDim s ![] hb (constant (F := Ideal) Cert.Pre_finite_inputs.S_ .f32 0x7F800000#32)) i = 1#1) :
    ∃ r : ℝ, x i = (r : EReal) := by
  rw [cmpf_apply, broadcastInDim_apply _ hb _ i ix0 (fun a => a.elim0)] at h
  exact real_of_abs_lt _ h

/-- Under the precondition every entry of the four argument arrays is a real number. -/
theorem args_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have hc := congrFun (h c) ValueIdx.ix0
  dsimp only [Cert.Pre_finite_inputs.fn, Cert.Pre_finite_inputs.fn_part1] at hc
  obtain ⟨h13, h17⟩ := IntOp.andi_eq_one.mp hc
  obtain ⟨h8, h12⟩ := IntOp.andi_eq_one.mp h13
  obtain ⟨h3, h7⟩ := IntOp.andi_eq_one.mp h8
  refine ⟨fun i => ?_, fun i => ?_, fun i => ?_, fun i => ?_⟩
  · exact entry_real _ _ i (Host.reduce_andi_all _ _ _ _ _ h3 i)
  · exact entry_real _ _ i (Host.reduce_andi_all _ _ _ _ _ h7 i)
  · exact entry_real _ _ i (Host.reduce_andi_all _ _ _ _ _ h12 i)
  · exact entry_real _ _ i (Host.reduce_andi_all _ _ _ _ _ h17 i)

end Cert.Finite

end
-- ==== Proof.FrameR1ValI.lean ====
/-
  What the attention body leaves in each buffer it stores into, case by case, as a payload term of the input blocks
  (the query block x0, the key block x1, the value block x2) and of what it found in the three scratch buffers (the
  running maximum xs7, the denominator xs8, the numerator xs9). Every store of the body is of a buffer's whole
  rectangle and every load reads a whole rectangle, so the stores read back as the last payload stored and the loads
  as the contents themselves; no arithmetic is opened. Folding a tile in leaves
    the maximum    pay5 (pay9 a1 a2 x0 x1 xs7),
    the denominator pay12 a1 a2 x0 x1 xs7 xs8,
    the numerator  pay4 (pay7 x2) (pay10 a1 a2 x0 x1 xs7) (pay11 a1 a2 x0 x1 xs7) xs9
  with a1, a2 the query-tile and key-tile numbers; at the first key tile the scratch found is replaced by the reset
  values pay1, pay2, pay3; at the last key tile the output block is pay6 of the numerator over the denominator.
-/
import proofs.«173625_j60997125538304_2_alg».proof.Proof.Gen.KernelIdeal.Launch
import proofs.«173625_j60997125538304_2_alg».proof.Proof.Gen.KernelIdeal.Skeleton
import proofs.«173625_j60997125538304_2_alg».proof.Proof.Gen.KernelIdeal.Points
import proofs.«173625_j60997125538304_2_alg».proof.Proof.FrameR1BaseI
import proofs.«173625_j60997125538304_2_alg».proof.Proof.FrameR1RunAI
import proofs.«173625_j60997125538304_2_alg».proof.Proof.FrameR1RunBI
import proofs.«173625_j60997125538304_2_alg».proof.Proof.FrameR1RunCI
import proofs.«173625_j60997125538304_2_alg».proof.Proof.FrameR1RunDI
import proofs.«173625_j60997125538304_2_alg».proof.Proof.FrameR1RunEI
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Offsets spelt as a literal vector of zeros are the zero offsets. -/
theorem offs2_zero : (![0, 0] : Fin 2 → Nat) = fun _ => 0 := funext fun a => by fin_cases a <;> rfl
theorem offs3_zero : (![0, 0, 0] : Fin 3 → Nat) = fun _ => 0 := funext fun a => by fin_cases a <;> rfl

/-! ### A later key tile that is folded in, not the last -/

/-- The running maximum after the tile is folded in: the larger of the maximum found and the tile's row maxima. -/
theorem valB_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    scM.view.read (Elt F) (scM.view.writes (Elt F) scM.view.junk (kernelRun1_B c i arg3 harg3 arg4 harg4 arg5 harg5 arg6 harg6 arg7 harg7 arg8 harg8 arg9 harg9 hc0 hc1 hc2 x0 x1 x2 xs7 xs8 xs9).1)
      = k1_pay5 (k1_pay9 (BitVec.ofNat 32 (i 1).val) (BitVec.ofNat 32 (i 2).val) x0 x1 xs7) := by
  rw [View.read_writes_junk_eq_canon]
  unfold kernelRun1_B
  dsimp only
  sl_unfold_words
  rw [View.canon_unit_zero offs2_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-- The denominator after the tile is folded in: the one found, rescaled to the new maximum, plus the tile's row sums. -/
theorem valB_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    scL.view.read (Elt F) (scL.view.writes (Elt F) scL.view.junk (kernelRun1_B c i arg3 harg3 arg4 harg4 arg5 harg5 arg6 harg6 arg7 harg7 arg8 harg8 arg9 harg9 hc0 hc1 hc2 x0 x1 x2 xs7 xs8 xs9).2.1)
      = k1_pay12 (BitVec.ofNat 32 (i 1).val) (BitVec.ofNat 32 (i 2).val) x0 x1 xs7 xs8 := by
  rw [View.read_writes_junk_eq_canon]
  unfold kernelRun1_B
  dsimp only
  sl_unfold_words
  rw [View.canon_unit_zero offs2_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-- The numerator after the tile is folded in: the one found, rescaled to the new maximum, plus the tile's weights against its value rows. -/
theorem valB_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    scA.view.read (Elt F) (scA.view.writes (Elt F) scA.view.junk (kernelRun1_B c i arg3 harg3 arg4 harg4 arg5 harg5 arg6 harg6 arg7 harg7 arg8 harg8 arg9 harg9 hc0 hc1 hc2 x0 x1 x2 xs7 xs8 xs9).2.2.1)
      = k1_pay4 (k1_pay7 x2) (k1_pay10 (BitVec.ofNat 32 (i 1).val) (BitVec.ofNat 32 (i 2).val) x0 x1 xs7) (k1_pay11 (BitVec.ofNat 32 (i 1).val) (BitVec.ofNat 32 (i 2).val) x0 x1 xs7) xs9 := by
  rw [View.read_writes_junk_eq_canon]
  unfold kernelRun1_B
  dsimp only
  sl_unfold_words
  rw [View.canon_unit_zero offs2_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-! ### The last key tile, folded in, then the quotient written out -/

/-- The running maximum after the last tile is folded in. -/
theorem valE_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    scM.view.read (Elt F) (scM.view.writes (Elt F) scM.view.junk (kernelRun1_E c i arg3 harg3 arg4 harg4 arg5 harg5 arg6 harg6 arg7 harg7 arg8 harg8 arg9 harg9 hc0 hc1 hc2 x0 x1 x2 xs7 xs8 xs9).2.1)
      = k1_pay5 (k1_pay9 (BitVec.ofNat 32 (i 1).val) (BitVec.ofNat 32 (i 2).val) x0 x1 xs7) := by
  rw [View.read_writes_junk_eq_canon]
  unfold kernelRun1_E
  dsimp only
  sl_unfold_words
  rw [View.canon_unit_zero offs2_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-- The denominator after the last tile is folded in. -/
theorem valE_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    scL.view.read (Elt F) (scL.view.writes (Elt F) scL.view.junk (kernelRun1_E c i arg3 harg3 arg4 harg4 arg5 harg5 arg6 harg6 arg7 harg7 arg8 harg8 arg9 harg9 hc0 hc1 hc2 x0 x1 x2 xs7 xs8 xs9).2.2.1)
      = k1_pay12 (BitVec.ofNat 32 (i 1).val) (BitVec.ofNat 32 (i 2).val) x0 x1 xs7 xs8 := by
  rw [View.read_writes_junk_eq_canon]
  unfold kernelRun1_E
  dsimp only
  sl_unfold_words
  rw [View.canon_unit_zero offs2_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-- The numerator after the last tile is folded in. -/
theorem valE_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    scA.view.read (Elt F) (scA.view.writes (Elt F) scA.view.junk (kernelRun1_E c i arg3 harg3 arg4 harg4 arg5 harg5 arg6 harg6 arg7 harg7 arg8 harg8 arg9 harg9 hc0 hc1 hc2 x0 x1 x2 xs7 xs8 xs9).2.2.2.1)
      = k1_pay4 (k1_pay7 x2) (k1_pay10 (BitVec.ofNat 32 (i 1).val) (BitVec.ofNat 32 (i 2).val) x0 x1 xs7) (k1_pay11 (BitVec.ofNat 32 (i 1).val) (BitVec.ofNat 32 (i 2).val) x0 x1 xs7) xs9 := by
  rw [View.read_writes_junk_eq_canon]
  unfold kernelRun1_E
  dsimp only
  sl_unfold_words
  rw [View.canon_unit_zero offs2_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-- The output block at the last tile: the numerator just stored over the denominator just stored. -/
theorem valE_O (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    (Memref.whole cc1_stg3_0 : Memref sig .tc .vmem S1x1024x1024 .f32).view.read (Elt F) ((Memref.whole cc1_stg3_0 : Memref sig .tc .vmem S1x1024x1024 .f32).view.writes (Elt F) (Memref.whole cc1_stg3_0 : Memref sig .tc .vmem S1x1024x1024 .f32).view.junk (kernelRun1_E c i arg3 harg3 arg4 harg4 arg5 harg5 arg6 harg6 arg7 harg7 arg8 harg8 arg9 harg9 hc0 hc1 hc2 x0 x1 x2 xs7 xs8 xs9).1)
      = k1_pay6 (k1_pay4 (k1_pay7 x2) (k1_pay10 (BitVec.ofNat 32 (i 1).val) (BitVec.ofNat 32 (i 2).val) x0 x1 xs7) (k1_pay11 (BitVec.ofNat 32 (i 1).val) (BitVec.ofNat 32 (i 2).val) x0 x1 xs7) xs9) (k1_pay12 (BitVec.ofNat 32 (i 1).val) (BitVec.ofNat 32 (i 2).val) x0 x1 xs7 xs8) := by
  rw [View.read_writes_junk_eq_canon]
  unfold kernelRun1_E
  dsimp only
  sl_unfold_words
  rw [View.canon_unit_zero (S := S1x1024x1024) offs3_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

/-! ### The first key tile of a row of tiles: reset, then fold the tile in -/

/-- The running maximum after the reset and the first tile: the fold over the reset maximum. -/
theorem valA_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    scM.view.read (Elt F) (scM.view.writes (Elt F) scM.view.junk (kernelRun1_A c i arg3 harg3 arg4 harg4 arg5 harg5 arg6 harg6 arg7 harg7 arg8 harg8 arg9 harg9 hc0 hc1 hc2 x0 x1 x2).1)
      = k1_pay5 (k1_pay9 (BitVec.ofNat 32 (i 1).val) (BitVec.ofNat 32 (i 2).val) x0 x1 (k1_pay1 (F := F))) := by
  rw [View.read_writes_junk_eq_canon]
  unfold kernelRun1_A
  dsimp only
  sl_unfold_words
  rw [View.canon_cons_unit_zero (S := S1024x1) offs2_zero]
  simp only [View.readCov_unit_zero (S := S1024x1) _ offs2_zero, View.readCov_unit_zero (S := S1024x1024) _ offs2_zero, View.readAt_eq_ld, harg3.read_unread, harg4.read_unread, harg5.read_unread, View.ld_unit_zero (S := S1x1024x1024) offs3_zero, View.ld_unit_zero (S := S1x512x1024) offs3_zero]

/-- The denominator after the reset and the first tile: the fold over the reset maximum and the zero denominator. -/
theorem valA_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    scL.view.read (Elt F) (scL.view.writes (Elt F) scL.view.junk (kernelRun1_A c i arg3 harg3 arg4 harg4 arg5 harg5 arg6 harg6 arg7 harg7 arg8 harg8 arg9 harg9 hc0 hc1 hc2 x0 x1 x2).2.1)
      = k1_pay12 (BitVec.ofNat 32 (i 1).val) (BitVec.ofNat 32 (i 2).val) x0 x1 (k1_pay1 (F := F)) (k1_pay2 (F := F)) := by
  rw [View.read_writes_junk_eq_canon]
  unfold kernelRun1_A
  dsimp only
  sl_unfold_words
  rw [View.canon_cons_unit_zero (S := S1024x1) offs2_zero]
  simp only [View.readCov_unit_zero (S := S1024x1) _ offs2_zero, View.readCov_unit_zero (S := S1024x1024) _ offs2_zero, View.readAt_eq_ld, harg3.read_unread, harg4.read_unread, harg5.read_unread, View.ld_unit_zero (S := S1x1024x1024) offs3_zero, View.ld_unit_zero (S := S1x512x1024) offs3_zero]

/-- The numerator after the reset and the first tile: the fold over the reset maximum and the zero numerator. -/
theorem valA_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    scA.view.read (Elt F) (scA.view.writes (Elt F) scA.view.junk (kernelRun1_A c i arg3 harg3 arg4 harg4 arg5 harg5 arg6 harg6 arg7 harg7 arg8 harg8 arg9 harg9 hc0 hc1 hc2 x0 x1 x2).2.2.1)
      = k1_pay4 (k1_pay7 x2) (k1_pay10 (BitVec.ofNat 32 (i 1).val) (BitVec.ofNat 32 (i 2).val) x0 x1 (k1_pay1 (F := F))) (k1_pay11 (BitVec.ofNat 32 (i 1).val) (BitVec.ofNat 32 (i 2).val) x0 x1 (k1_pay1 (F := F))) (k1_pay3 (F := F)) := by
  rw [View.read_writes_junk_eq_canon]
  unfold kernelRun1_A
  dsimp only
  sl_unfold_words
  rw [View.canon_cons_unit_zero (S := S1024x1024) offs2_zero]
  simp only [View.readCov_unit_zero (S := S1024x1) _ offs2_zero, View.readCov_unit_zero (S := S1024x1024) _ offs2_zero, View.readAt_eq_ld, harg3.read_unread, harg4.read_unread, harg5.read_unread, View.ld_unit_zero (S := S1x1024x1024) offs3_zero, View.ld_unit_zero (S := S1x512x1024) offs3_zero]

/-! ### The last key tile, wholly after the query tile: only the quotient is written out -/

/-- The output block: the numerator found over the denominator found. -/
theorem valD_O (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (xs7 : Vec F S1024x1 .f32) (xs8 : Vec F S1024x1 .f32) (xs9 : Vec F S1024x1024 .f32) :
    (Memref.whole cc1_stg3_0 : Memref sig .tc .vmem S1x1024x1024 .f32).view.read (Elt F) ((Memref.whole cc1_stg3_0 : Memref sig .tc .vmem S1x1024x1024 .f32).view.writes (Elt F) (Memref.whole cc1_stg3_0 : Memref sig .tc .vmem S1x1024x1024 .f32).view.junk (kernelRun1_D c i arg3 harg3 arg4 harg4 arg5 harg5 arg6 harg6 arg7 harg7 arg8 harg8 arg9 harg9 hc0 hc1 hc2 x0 x1 x2 xs7 xs8 xs9).1)
      = k1_pay6 xs9 xs8 := by
  rw [View.read_writes_junk_eq_canon]
  unfold kernelRun1_D
  dsimp only
  sl_unfold_words
  rw [View.canon_unit_zero (S := S1x1024x1024) offs3_zero]
  simp only [View.readCov_unit_zero (S := S1024x1) _ offs2_zero, View.readCov_unit_zero (S := S1024x1024) _ offs2_zero, View.readAt_eq_ld, harg3.read_unread, harg4.read_unread, harg5.read_unread, harg7.read_unread, harg8.read_unread, harg9.read_unread, View.ld_unit_zero (S := S1x1024x1024) offs3_zero, View.ld_unit_zero (S := S1x512x1024) offs3_zero, View.ld_unit_zero (S := S1024x1) offs2_zero, View.ld_unit_zero (S := S1024x1024) offs2_zero]

end Cert.KernelIdeal.Fr

end
-- ==== Proof.AttnCases.lean ====
/-
  What each control case of the attention body leaves in the scratch buffers and the output buffer at a grid point,
  as payload terms of the point's input blocks and of the scratch found.
-/
import proofs.«173625_j60997125538304_2_alg».proof.Proof.FrameR1I
import proofs.«173625_j60997125538304_2_alg».proof.Proof.FrameR1ValI
import proofs.«173625_j60997125538304_2_alg».proof.Proof.AttnSpec
import Idealize.ShloMosaic.Lib.ValueIdx

set_option maxRecDepth 16384

noncomputable section

namespace Cert.KernelIdeal.AttnV

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.KernelIdeal.Fr
open scoped BigOperators

variable (V : (c : Dev nD) → (b : Ref sig .tc) → Buf (Elt Ideal) ((c : Thread nD τ).loc b)) (c : Dev nD)

/-- The first key tile of a row of tiles: the fold over the reset values. -/
theorem stA_eq (t : Fin cfg1.N) (h0 : t.val % 4 = 0) :
    stA V c t h0 = (k1_pay5 (F := Ideal) (k1_pay9 (F := Ideal) (BitVec.ofNat 32 ((grid1.coords t) 1).val) (BitVec.ofNat 32 ((grid1.coords t) 2).val) (iblk1 V c 0 t) (iblk1 V c 1 t) (k1_pay1 (F := Ideal))),
       k1_pay12 (F := Ideal) (BitVec.ofNat 32 ((grid1.coords t) 1).val) (BitVec.ofNat 32 ((grid1.coords t) 2).val) (iblk1 V c 0 t) (iblk1 V c 1 t) (k1_pay1 (F := Ideal)) (k1_pay2 (F := Ideal)),
       k1_pay4 (F := Ideal) (k1_pay7 (F := Ideal) (iblk1 V c 2 t)) (k1_pay10 (F := Ideal) (BitVec.ofNat 32 ((grid1.coords t) 1).val) (BitVec.ofNat 32 ((grid1.coords t) 2).val) (iblk1 V c 0 t) (iblk1 V c 1 t) (k1_pay1 (F := Ideal))) (k1_pay11 (F := Ideal) (BitVec.ofNat 32 ((grid1.coords t) 1).val) (BitVec.ofNat 32 ((grid1.coords t) 2).val) (iblk1 V c 0 t) (iblk1 V c 1 t) (k1_pay1 (F := Ideal))) (k1_pay3 (F := Ideal))) := by
  unfold stA runA
  refine Prod.ext ?_ (Prod.ext ?_ ?_)
  · dsimp only
    exact valA_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr (by omega)) (fun h => by have := (hcond1_2 t).mp h; omega) (iblk1 V c 0 t) (iblk1 V c 1 t) (iblk1 V c 2 t)
  · dsimp only
    exact valA_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr (by omega)) (fun h => by have := (hcond1_2 t).mp h; omega) (iblk1 V c 0 t) (iblk1 V c 1 t) (iblk1 V c 2 t)
  · dsimp only
    exact valA_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr (by omega)) (fun h => by have := (hcond1_2 t).mp h; omega) (iblk1 V c 0 t) (iblk1 V c 1 t) (iblk1 V c 2 t)

/-- A later key tile folded in, not the last: the fold over the scratch found. -/
theorem stB_eq (t : Fin cfg1.N) (h0 : ¬t.val % 4 = 0) (h1 : t.val % 8 < 2 ∨ 4 ≤ t.val % 8) (h2 : ¬t.val % 4 = 3) (xs : St Ideal) :
    stB V c t h0 h1 h2 xs = (k1_pay5 (F := Ideal) (k1_pay9 (F := Ideal) (BitVec.ofNat 32 ((grid1.coords t) 1).val) (BitVec.ofNat 32 ((grid1.coords t) 2).val) (iblk1 V c 0 t) (iblk1 V c 1 t) xs.1),
       k1_pay12 (F := Ideal) (BitVec.ofNat 32 ((grid1.coords t) 1).val) (BitVec.ofNat 32 ((grid1.coords t) 2).val) (iblk1 V c 0 t) (iblk1 V c 1 t) xs.1 xs.2.1,
       k1_pay4 (F := Ideal) (k1_pay7 (F := Ideal) (iblk1 V c 2 t)) (k1_pay10 (F := Ideal) (BitVec.ofNat 32 ((grid1.coords t) 1).val) (BitVec.ofNat 32 ((grid1.coords t) 2).val) (iblk1 V c 0 t) (iblk1 V c 1 t) xs.1) (k1_pay11 (F := Ideal) (BitVec.ofNat 32 ((grid1.coords t) 1).val) (BitVec.ofNat 32 ((grid1.coords t) 2).val) (iblk1 V c 0 t) (iblk1 V c 1 t) xs.1) xs.2.2) := by
  unfold stB runB
  refine Prod.ext ?_ (Prod.ext ?_ ?_)
  · dsimp only
    exact valB_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2
  · dsimp only
    exact valB_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2
  · dsimp only
    exact valB_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) xs.1 xs.2.1 xs.2.2

/-- The last key tile folded in: the fold over the scratch found. -/
theorem stE_eq (t : Fin cfg1.N) (h0 : ¬t.val % 4 = 0) (h1 : t.val % 8 < 2 ∨ 4 ≤ t.val % 8) (h2 : t.val % 4 = 3) (xs : St Ideal) :
    stE V c t h0 h1 h2 xs = (k1_pay5 (F := Ideal) (k1_pay9 (F := Ideal) (BitVec.ofNat 32 ((grid1.coords t) 1).val) (BitVec.ofNat 32 ((grid1.coords t) 2).val) (iblk1 V c 0 t) (iblk1 V c 1 t) xs.1),
       k1_pay12 (F := Ideal) (BitVec.ofNat 32 ((grid1.coords t) 1).val) (BitVec.ofNat 32 ((grid1.coords t) 2).val) (iblk1 V c 0 t) (iblk1 V c 1 t) xs.1 xs.2.1,
       k1_pay4 (F := Ideal) (k1_pay7 (F := Ideal) (iblk1 V c 2 t)) (k1_pay10 (F := Ideal) (BitVec.ofNat 32 ((grid1.coords t) 1).val) (BitVec.ofNat 32 ((grid1.coords t) 2).val) (iblk1 V c 0 t) (iblk1 V c 1 t) xs.1) (k1_pay11 (F := Ideal) (BitVec.ofNat 32 ((grid1.coords t) 1).val) (BitVec.ofNat 32 ((grid1.coords t) 2).val) (iblk1 V c 0 t) (iblk1 V c 1 t) xs.1) xs.2.2) := by
  unfold stE runE
  refine Prod.ext ?_ (Prod.ext ?_ ?_)
  · dsimp only
    exact valE_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2
  · dsimp only
    exact valE_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2
  · dsimp only
    exact valE_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2

/-- The output buffer at the last key tile when it is folded in: the new numerator over the new denominator. -/
theorem outE_eq (t : Fin cfg1.N) (h0 : ¬t.val % 4 = 0) (h1 : t.val % 8 < 2 ∨ 4 ≤ t.val % 8) (h2 : t.val % 4 = 3) (xs : St Ideal) :
    outE V c t h0 h1 h2 xs = k1_pay6 (F := Ideal) (stE V c t h0 h1 h2 xs).2.2 (stE V c t h0 h1 h2 xs).2.1 := by
  rw [stE_eq]
  dsimp only
  unfold outE runE
  exact valE_O c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) xs.1 xs.2.1 xs.2.2

/-- The output buffer at the last key tile when it is not folded in: the numerator found over the denominator found. -/
theorem outD_eq (t : Fin cfg1.N) (h0 : ¬t.val % 4 = 0) (h1 : ¬(t.val % 8 < 2 ∨ 4 ≤ t.val % 8)) (h2 : t.val % 4 = 3) (xs : St Ideal) :
    outD V c t h0 h1 h2 xs = k1_pay6 (F := Ideal) xs.2.2 xs.2.1 := by
  unfold outD runD
  exact valD_O c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) xs.1 xs.2.1 xs.2.2

end Cert.KernelIdeal.AttnV

end
-- ==== Proof.KernelPayloads0.lean ====
/-
  What the kernels' stored values read as at an index, at the ideal values: the layout, word and pattern facts,
  the three matrix products and the two row reductions the payload lemmas are assembled from.
-/
import proofs.«173625_j60997125538304_2_alg».proof.Proof.Gen.KernelIdeal.Skeleton
import proofs.«173625_j60997125538304_2_alg».proof.Proof.LibFmax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx Cert.Attn

variable [Cert.KernelIdeal.Facts]

/-! ## Column forms of the layout operations -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## Words and patterns -/

/-- The f32 pattern `0x3D000000` is the real 2⁻⁵, one thirty-second. -/
theorem ofBits_inv32 : Ideal.ofBits .f32 0x3D000000#32 = (((1 : ℝ) / 32 : ℝ) : EReal) := by
  simp [Ideal.ofBits, Ideal.ieee, -EReal.coe_mul]; norm_num

/-- The f32 pattern `0xFF800000` is minus infinity. -/
theorem ofBits_neg_inf : Ideal.ofBits .f32 0xFF800000#32 = ⊥ := by
  simp [Ideal.ofBits, Ideal.ieee]

/-- The constant named "neg_big" is minus infinity at the ideal values. -/
theorem named_neg_big : Named.named (F := Ideal) Cert.KernelIdeal.κ "neg_big" (φ := .f32) 0xF149F2CA#32 = ⊥ := rfl

/-- On numbers below 2³¹ the signed comparison of 32-bit words is the comparison of the numbers. -/
theorem sle_ofNat {a b : ℕ} (ha : a < 2147483648) (hb : b < 2147483648) :
    (BitVec.ofNat 32 a).sle (BitVec.ofNat 32 b) = decide (a ≤ b) := by
  have h1 : ∀ n : ℕ, n < 2147483648 → (BitVec.ofNat 32 n).toInt = (n : ℤ) := by
    intro n hn
    rw [BitVec.toInt_eq_toNat_cond, BitVec.toNat_ofNat]
    split <;> omega
  rw [BitVec.sle_eq_decide, h1 a ha, h1 b hb]
  simp

/-- The causal mask's bit at row `r` of query tile `qi` and column `j` of key tile `ki`: set exactly when the key's
    position `ki · 512 + j` is at most the query's position `qi · 1024 + r`. -/
theorem mask_bit (qi ki : ℕ) (hq : qi < 2) (hk : ki < 4) (r : Fin 1024) (j : Fin 512) :
    IntOp.cmpi .sge (IntOp.addi (Scalar.muli (BitVec.ofNat 32 qi) 1024#32) (BitVec.ofNat 32 r.val))
                    (IntOp.addi (Scalar.muli (BitVec.ofNat 32 ki) 512#32) (BitVec.ofNat 32 j.val))
      = BitVec.ofBool (decide (ki * 512 + j.val ≤ qi * 1024 + r.val)) := by
  have e1 : IntOp.addi (Scalar.muli (BitVec.ofNat 32 qi) 1024#32) (BitVec.ofNat 32 r.val) = BitVec.ofNat 32 (qi * 1024 + r.val) := by
    show BitVec.ofNat 32 qi * BitVec.ofNat 32 1024 + BitVec.ofNat 32 r.val = _
    rw [← BitVec.ofNat_mul, ← BitVec.ofNat_add]
  have e2 : IntOp.addi (Scalar.muli (BitVec.ofNat 32 ki) 512#32) (BitVec.ofNat 32 j.val) = BitVec.ofNat 32 (ki * 512 + j.val) := by
    show BitVec.ofNat 32 ki * BitVec.ofNat 32 512 + BitVec.ofNat 32 j.val = _
    rw [← BitVec.ofNat_mul, ← BitVec.ofNat_add]
  rw [e1, e2]
  show BitVec.ofBool ((BitVec.ofNat 32 (ki * 512 + j.val)).sle (BitVec.ofNat 32 (qi * 1024 + r.val))) = _
  have hr := r.isLt
  have hj := j.isLt
  rw [sle_ofNat (by omega) (by omega)]

/-- A select on a decided bit is the `if`. -/
theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-! ## The three matrix products read at an index -/

theorem matmul_qk_lhs_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem matmul_qk_lhs_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem matmul_qk_rhs_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem matmul_qk_rhs_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- Query rows times key rows, both contracted on the feature axis: entry `(p, c)` is the inner product of row `p` of the left operand and row `c` of the right. -/
theorem matmul_qk_apply (lhs : FVec Ideal S1024x1024 .bf16) (rhs : FVec Ideal S512x1024 .bf16) (p : Fin 1024) (c : Fin 512) :
    matmul dot_S1024x1024_S512x1024_S1024x512_1_1_0_0_n_n none lhs rhs (constant (F := Ideal) S1024x512 .f32 0x00000000#32) (ix2 p c)
      = ∑ k : Fin 1024, lhs (ix2 p k) * rhs (ix2 c k) := by
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 p c) ((ValueIdx.contrEquiv1 dot_S1024x1024_S512x1024_S1024x512_1_1_0_0_n_n 1024 rfl rfl).symm k) = ix2 p k := funext fun a => Fin.ext (by
    match a with
    | ⟨0, _⟩ => exact matmul_qk_lhs_0 _ _
    | ⟨1, _⟩ => exact (matmul_qk_lhs_1 _ _).trans hk)
  have er : dot_S1024x1024_S512x1024_S1024x512_1_1_0_0_n_n.rhsIdx (ix2 p c) ((ValueIdx.contrEquiv1 dot_S1024x1024_S512x1024_S1024x512_1_1_0_0_n_n 1024 rfl rfl).symm k) = ix2 c k := funext fun a => Fin.ext (by
    match a with
    | ⟨0, _⟩ => exact matmul_qk_rhs_0 _ _
    | ⟨1, _⟩ => exact (matmul_qk_rhs_1 _ _).trans hk)
  rw [el, er]

theorem matmul_proj_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem matmul_proj_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem matmul_proj_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem matmul_proj_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Input rows times weight rows, both contracted on the input-feature axis: entry `(p, c)` is the inner product of row `p` of the left operand and row `c` of the right (`x @ Wᵀ`). -/
theorem matmul_proj_apply (lhs : FVec Ideal S512x1024 .bf16) (rhs : FVec Ideal S1024x1024 .bf16) (p : Fin 512) (c : Fin 1024) :
    matmul dot_S512x1024_S1024x1024_S512x1024_1_1_0_0_n_n none lhs rhs (constant (F := Ideal) S512x1024 .f32 0x00000000#32) (ix2 p c)
      = ∑ k : Fin 1024, lhs (ix2 p k) * rhs (ix2 c k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p c) ((ValueIdx.contrEquiv1 dot_S512x1024_S1024x1024_S512x1024_1_1_0_0_n_n 1024 rfl rfl).symm k) = ix2 p k := funext fun a => Fin.ext (by
    match a with
    | ⟨0, _⟩ => exact matmul_proj_lhs_0 _ _
    | ⟨1, _⟩ => exact (matmul_proj_lhs_1 _ _).trans hk)
  have er : dot_S512x1024_S1024x1024_S512x1024_1_1_0_0_n_n.rhsIdx (ix2 p c) ((ValueIdx.contrEquiv1 dot_S512x1024_S1024x1024_S512x1024_1_1_0_0_n_n 1024 rfl rfl).symm k) = ix2 c k := funext fun a => Fin.ext (by
    match a with
    | ⟨0, _⟩ => exact matmul_proj_rhs_0 _ _
    | ⟨1, _⟩ => exact (matmul_proj_rhs_1 _ _).trans hk)
  rw [el, er]

theorem matmul_pv_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem matmul_pv_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem matmul_pv_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem matmul_pv_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Probabilities times values, the plain matrix product: entry `(p, c)` is the sum over the key index `k` of the left operand at `(p, k)` times the right at `(k, c)`. -/
theorem matmul_pv_apply (lhs : FVec Ideal S1024x512 .bf16) (rhs : FVec Ideal S512x1024 .bf16) (p : Fin 1024) (c : Fin 1024) :
    matmul dot_S1024x512_S512x1024_S1024x1024_1_0_0_1_n_n none lhs rhs (constant (F := Ideal) S1024x1024 .f32 0x00000000#32) (ix2 p c)
      = ∑ k : Fin 512, lhs (ix2 p k) * rhs (ix2 k c) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p c) ((ValueIdx.contrEquiv1 dot_S1024x512_S512x1024_S1024x1024_1_0_0_1_n_n 512 rfl rfl).symm k) = ix2 p k := funext fun a => Fin.ext (by
    match a with
    | ⟨0, _⟩ => exact matmul_pv_lhs_0 _ _
    | ⟨1, _⟩ => exact (matmul_pv_lhs_1 _ _).trans hk)
  have er : dot_S1024x512_S512x1024_S1024x1024_1_0_0_1_n_n.rhsIdx (ix2 p c) ((ValueIdx.contrEquiv1 dot_S1024x512_S512x1024_S1024x1024_1_0_0_1_n_n 512 rfl rfl).symm k) = ix2 k c := funext fun a => Fin.ext (by
    match a with
    | ⟨0, _⟩ => exact (matmul_pv_rhs_0 _ _).trans hk
    | ⟨1, _⟩ => exact matmul_pv_rhs_1 _ _)
  rw [el, er]

/-! ## A row's maximum and sum -/

/-- The index a reduction along the columns inserts column `j` at, in row `r`. -/
theorem lift_row (r : Fin 1024) (j : Fin 512) : reduces_S1024x512_S1024.lift (ix1 r) j = ix2 r j :=
  funext fun a => Fin.ext (match a with | ⟨0, _⟩ => rfl | ⟨1, _⟩ => rfl)

/-- The maximum along the columns, from -∞, read at row `r`. -/
theorem rowmax_apply (src : FVec Ideal S1024x512 .f32) (hacc : (0xFF800000#32 : BitVec 32) = 0xFF800000#32) (r : Fin 1024) :
    multiReduction .maximumf [1] S1024 src 0xFF800000#32 reduces_S1024x512_S1024 (.inl rfl) hacc (ix1 r)
      = fmax fun j : Fin 512 => src (ix2 r j) := by
  refine (Ideal.multiReduction_maximumf_single src 0xFF800000#32 reduces_S1024x512_S1024 (.inl rfl) hacc (ix1 r)).trans ?_
  show (Finset.univ : Finset (Fin 512)).fold max (Ideal.ofBits .f32 0xFF800000#32) (src ∘ reduces_S1024x512_S1024.lift (ix1 r)) = _
  rw [ofBits_neg_inf]
  unfold fmax
  exact congrArg (fun f => (Finset.univ : Finset (Fin 512)).fold max ⊥ f) (funext fun j => congrArg src (lift_row r j))

/-- The sum along the columns read at row `r`. -/
theorem rowsum_apply (src : FVec Ideal S1024x512 .f32) (hacc : (0x00000000#32 : BitVec 32) = 0x00000000#32) (r : Fin 1024) :
    multiReduction .add [1] S1024 src 0x00000000#32 reduces_S1024x512_S1024 (.inl rfl) hacc (ix1 r)
      = ∑ j : Fin 512, src (ix2 r j) := by
  refine (Ideal.multiReduction_add_single src 0x00000000#32 reduces_S1024x512_S1024 (.inl rfl) hacc (ix1 r)).trans ?_
  show ∑ j : Fin 512, src (reduces_S1024x512_S1024.lift (ix1 r) j) = _
  exact Finset.sum_congr rfl fun j _ => congrArg src (lift_row r j)

end Cert.KernelIdeal.Pay

end
-- ==== Proof.KernelPayloads.lean ====
/-
  The kernels' stored values read at an index, at the ideal values: each store of the projection kernel is a row of
  `x` against a row of the weight; each store of the attention kernel is one step of the online softmax — the masked,
  scaled scores, the running maximum, the rescaling factor, the unnormalized probabilities, the running sum and the
  running weighted sum of values — and the final division.
-/
import proofs.«173625_j60997125538304_2_alg».proof.Proof.KernelPayloads0

noncomputable section

namespace Cert.KernelIdeal.Pay

open Cert.KernelIdeal Cert.KernelIdeal.Gen Idealize.ShloMosaic Idealize.ShloMosaic.ValueIdx Cert.Attn

variable [Cert.KernelIdeal.Facts]

/-! ## The projection kernel -/

/-- The input tile, squeezed and rounded to bf16 (the identity at the ideal values). -/
theorem k0_pay1_apply (v0 : Vec Ideal S1x512x1024 .f32) (p : Fin 512) (d : Fin 1024) :
    k0_pay1 (F := Ideal) v0 (ix2 p d) = v0 (ix3 (0 : Fin 1) p d) := by
  unfold k0_pay1
  exact shapeCast_1ab_ab_apply v0 _ p d

/-- The stored query tile: row `p` of the input against row `e` of the weight. -/
theorem k0_pay2_apply (v0 : Vec Ideal S1x512x1024 .f32) (v3 : Vec Ideal S1024x1024 .bf16) (p : Fin 512) (e : Fin 1024) :
    k0_pay2 (F := Ideal) v0 v3 (ix3 (0 : Fin 1) p e) = ∑ d : Fin 1024, v0 (ix3 (0 : Fin 1) p d) * v3 (ix2 e d) := by
  unfold k0_pay2
  rw [shapeCast_ab_1ab_apply, shapeCast_self, truncf_apply, matmul_proj_apply]
  simp only [k0_pay1_apply]

/-- The stored key tile, likewise. -/
theorem k0_pay3_apply (v0 : Vec Ideal S1x512x1024 .f32) (v6 : Vec Ideal S1024x1024 .bf16) (p : Fin 512) (e : Fin 1024) :
    k0_pay3 (F := Ideal) v0 v6 (ix3 (0 : Fin 1) p e) = ∑ d : Fin 1024, v0 (ix3 (0 : Fin 1) p d) * v6 (ix2 e d) := by
  unfold k0_pay3
  rw [shapeCast_ab_1ab_apply, shapeCast_self, truncf_apply, matmul_proj_apply]
  simp only [k0_pay1_apply]

/-- The stored value tile, likewise. -/
theorem k0_pay4_apply (v0 : Vec Ideal S1x512x1024 .f32) (v9 : Vec Ideal S1024x1024 .bf16) (p : Fin 512) (e : Fin 1024) :
    k0_pay4 (F := Ideal) v0 v9 (ix3 (0 : Fin 1) p e) = ∑ d : Fin 1024, v0 (ix3 (0 : Fin 1) p d) * v9 (ix2 e d) := by
  unfold k0_pay4
  rw [shapeCast_ab_1ab_apply, shapeCast_self, truncf_apply, matmul_proj_apply]
  simp only [k0_pay1_apply]

/-! ## The attention kernel: the start of a row of key tiles -/

/-- The running maximum starts at -∞. -/
theorem k1_pay1_apply (y : S1024x1.Idx) : k1_pay1 (F := Ideal) y = ⊥ := by
  unfold k1_pay1
  rw [shapeCast_self]
  exact named_neg_big

/-- The running sum starts at zero. -/
theorem k1_pay2_apply (y : S1024x1.Idx) : k1_pay2 (F := Ideal) y = 0 := by
  unfold k1_pay2
  rw [shapeCast_self]
  exact Ideal.ofBits_zero_f32

/-- The running weighted sum of values starts at zero. -/
theorem k1_pay3_apply (y : S1024x1024.Idx) : k1_pay3 (F := Ideal) y = 0 := by
  unfold k1_pay3
  rw [shapeCast_self]
  exact Ideal.ofBits_zero_f32

/-- The new running maximum is stored as it is. -/
theorem k1_pay5_apply (v35 : FVec Ideal S1024x1 .f32) (y : S1024x1.Idx) : k1_pay5 (F := Ideal) v35 y = v35 y := by
  unfold k1_pay5
  rw [shapeCast_self]

/-- The value tile, squeezed. -/
theorem k1_pay7_apply (v16 : Vec Ideal S1x512x1024 .bf16) (j : Fin 512) (d : Fin 1024) :
    k1_pay7 (F := Ideal) v16 (ix2 j d) = v16 (ix3 (0 : Fin 1) j d) := by
  unfold k1_pay7
  exact shapeCast_1ab_ab_apply v16 _ j d

/-! ## The masked, scaled scores -/

/-- Entry `(r, j)` of the scores of query tile `qi` against key tile `ki`: the inner product of query row `r` and key row
    `j` over 32 where the key's position is at most the query's, -∞ elsewhere. -/
theorem k1_pay8_apply (qi ki : ℕ) (hq : qi < 2) (hk : ki < 4) (v12 : Vec Ideal S1x1024x1024 .bf16) (v14 : Vec Ideal S1x512x1024 .bf16)
    (r : Fin 1024) (j : Fin 512) :
    k1_pay8 (F := Ideal) (BitVec.ofNat 32 qi) (BitVec.ofNat 32 ki) v12 v14 (ix2 r j)
      = if ki * 512 + j.val ≤ qi * 1024 + r.val then
          (∑ e : Fin 1024, v12 (ix3 (0 : Fin 1) r e) * v14 (ix3 (0 : Fin 1) j e)) * (((1 : ℝ) / 32 : ℝ) : EReal)
        else ⊥ := by
  have hc : cmpi .sge (addi (broadcast S1024x512 (Scalar.muli (BitVec.ofNat 32 qi) 1024#32)) (iota .tc S1024x512 32 [0] iota_S1024x512_d0_w32))
      (addi (broadcast S1024x512 (Scalar.muli (BitVec.ofNat 32 ki) 512#32)) (iota .tc S1024x512 32 [1] iota_S1024x512_d1_w32)) (ix2 r j)
      = BitVec.ofBool (decide (ki * 512 + j.val ≤ qi * 1024 + r.val)) := by
    show IntOp.cmpi .sge (IntOp.addi _ (iota .tc S1024x512 32 [0] iota_S1024x512_d0_w32 (ix2 r j)))
      (IntOp.addi _ (iota .tc S1024x512 32 [1] iota_S1024x512_d1_w32 (ix2 r j))) = _
    rw [iota_single_apply, iota_single_apply]
    exact mask_bit qi ki hq hk r j
  have hm := matmul_qk_apply (shapeCast S1024x1024 v12 shapeCasts_S1x1024x1024_S1024x1024)
    (shapeCast S512x1024 v14 shapeCasts_S1x512x1024_S512x1024) r j
  show Scalar.select
      (cmpi .sge (addi (broadcast S1024x512 (Scalar.muli (BitVec.ofNat 32 qi) 1024#32)) (iota .tc S1024x512 32 [0] iota_S1024x512_d0_w32))
        (addi (broadcast S1024x512 (Scalar.muli (BitVec.ofNat 32 ki) 512#32)) (iota .tc S1024x512 32 [1] iota_S1024x512_d1_w32)) (ix2 r j))
      (matmul dot_S1024x1024_S512x1024_S1024x512_1_1_0_0_n_n none (shapeCast S1024x1024 v12 shapeCasts_S1x1024x1024_S1024x1024)
          (shapeCast S512x1024 v14 shapeCasts_S1x512x1024_S512x1024) (constant (F := Ideal) S1024x512 .f32 0x00000000#32) (ix2 r j)
        * Ideal.ofBits .f32 0x3D000000#32)
      (Named.named (F := Ideal) κ "neg_big" (φ := .f32) 0xF149F2CA#32) = _
  rw [hc, select_ofBool, named_neg_big, hm, ofBits_inv32]
  simp only [shapeCast_1ab_ab_apply]

/-! ## The online-softmax step -/

/-- The new running maximum of row `r`: the old one against the row's largest score. -/
theorem k1_pay9_apply (a1 a2 : BitVec 32) (v12 : Vec Ideal S1x1024x1024 .bf16) (v14 : Vec Ideal S1x512x1024 .bf16)
    (v32 : Vec Ideal S1024x1 .f32) (r : Fin 1024) :
    k1_pay9 (F := Ideal) a1 a2 v12 v14 v32 (ix2 r (0 : Fin 1))
      = max (v32 (ix2 r (0 : Fin 1))) (fmax fun j : Fin 512 => k1_pay8 (F := Ideal) a1 a2 v12 v14 (ix2 r j)) :=
  congrArg (max (v32 (ix2 r (0 : Fin 1))))
    ((shapeCast_a_a1_apply _ shapeCasts_S1024_S1024x1 r (0 : Fin 1)).trans
      (rowmax_apply (k1_pay8 (F := Ideal) a1 a2 v12 v14) rfl r))

/-- The factor the old running sums are rescaled by. -/
theorem k1_pay10_apply (a1 a2 : BitVec 32) (v12 : Vec Ideal S1x1024x1024 .bf16) (v14 : Vec Ideal S1x512x1024 .bf16)
    (v32 : Vec Ideal S1024x1 .f32) (r : Fin 1024) :
    k1_pay10 (F := Ideal) a1 a2 v12 v14 v32 (ix2 r (0 : Fin 1))
      = Ideal.exp (v32 (ix2 r (0 : Fin 1)) - k1_pay9 (F := Ideal) a1 a2 v12 v14 v32 (ix2 r (0 : Fin 1))) := rfl

/-- The unnormalized probabilities: the exponential of a score less its row's new running maximum. -/
theorem k1_pay11_apply (a1 a2 : BitVec 32) (v12 : Vec Ideal S1x1024x1024 .bf16) (v14 : Vec Ideal S1x512x1024 .bf16)
    (v32 : Vec Ideal S1024x1 .f32) (r : Fin 1024) (j : Fin 512) :
    k1_pay11 (F := Ideal) a1 a2 v12 v14 v32 (ix2 r j)
      = Ideal.exp (k1_pay8 (F := Ideal) a1 a2 v12 v14 (ix2 r j) - k1_pay9 (F := Ideal) a1 a2 v12 v14 v32 (ix2 r (0 : Fin 1))) :=
  congrArg (fun x => Ideal.exp (k1_pay8 (F := Ideal) a1 a2 v12 v14 (ix2 r j) - x))
    (broadcastTo_a1_ab_apply (k1_pay9 (F := Ideal) a1 a2 v12 v14 v32) broadcasts_S1024x1_S1024x512 r j)

/-- The new running sum of row `r`: the old one rescaled plus the row's probabilities. -/
theorem k1_pay12_apply (a1 a2 : BitVec 32) (v12 : Vec Ideal S1x1024x1024 .bf16) (v14 : Vec Ideal S1x512x1024 .bf16)
    (v32 : Vec Ideal S1024x1 .f32) (v41 : Vec Ideal S1024x1 .f32) (r : Fin 1024) :
    k1_pay12 (F := Ideal) a1 a2 v12 v14 v32 v41 (ix2 r (0 : Fin 1))
      = k1_pay10 (F := Ideal) a1 a2 v12 v14 v32 (ix2 r (0 : Fin 1)) * v41 (ix2 r (0 : Fin 1))
        + ∑ j : Fin 512, k1_pay11 (F := Ideal) a1 a2 v12 v14 v32 (ix2 r j) := by
  unfold k1_pay12
  rw [shapeCast_self]
  exact congrArg (k1_pay10 (F := Ideal) a1 a2 v12 v14 v32 (ix2 r (0 : Fin 1)) * v41 (ix2 r (0 : Fin 1)) + ·)
    ((shapeCast_a_a1_apply _ shapeCasts_S1024_S1024x1 r (0 : Fin 1)).trans
      (rowsum_apply (k1_pay11 (F := Ideal) a1 a2 v12 v14 v32) rfl r))

/-- The new running weighted sum of values at `(r, d)`: the old one rescaled plus the probabilities against the values. -/
theorem k1_pay4_apply (v17 : FVec Ideal S512x1024 .bf16) (v37 : FVec Ideal S1024x1 .f32) (v40 : FVec Ideal S1024x512 .f32)
    (v51 : Vec Ideal S1024x1024 .f32) (r : Fin 1024) (d : Fin 1024) :
    k1_pay4 (F := Ideal) v17 v37 v40 v51 (ix2 r d)
      = v37 (ix2 r (0 : Fin 1)) * v51 (ix2 r d) + ∑ j : Fin 512, v40 (ix2 r j) * v17 (ix2 j d) := by
  unfold k1_pay4
  rw [shapeCast_self]
  simp only [addf_apply, mulf_apply]
  rw [broadcastTo_a1_ab_apply, matmul_pv_apply]
  rfl

/-- The output tile: the weighted sum of values over the sum of the probabilities. -/
theorem k1_pay6_apply (v12 : Vec Ideal S1024x1024 .f32) (v13 : Vec Ideal S1024x1 .f32) (r : Fin 1024) (d : Fin 1024) :
    k1_pay6 (F := Ideal) v12 v13 (ix3 (0 : Fin 1) r d) = Ideal.div (v12 (ix2 r d)) (v13 (ix2 r (0 : Fin 1))) := by
  unfold k1_pay6
  rw [shapeCast_ab_1ab_apply]
  simp only [divf_apply]
  rw [broadcastTo_a1_ab_apply]

end Cert.KernelIdeal.Pay

end
-- ==== Proof.LibOnlineSoftmax.lean ====
/-
  Online softmax over key tiles equals the one-pass softmax-weighted sum, on the extended reals.

  A row of T * K scores s (each -∞ or a real, the first one a real) and real values v is read in T tiles of
  width K. A running state (m, d, a) — the maximum so far, the denominator and the numerator of the weighted sum,
  both taken relative to m — starts at (-∞, 0, 0); a tile with scores s' and values v' updates it to
    m' = max m (max s'),  d' = exp (m - m') · d + ∑ⱼ exp (s'ⱼ - m'),  a' = exp (m - m') · a + ∑ⱼ exp (s'ⱼ - m') · v'ⱼ.
  After n ≥ 1 tiles m is the real maximum M of the scores read so far, d = ∑ᵢ exp (sᵢ - M) and
  a = ∑ᵢ exp (sᵢ - M) · vᵢ over them (exp (-∞) = 0; exp (m - m') · exp (sᵢ - m) = exp (sᵢ - m') on the reals),
  so after all the tiles a / d = ∑ᵢ (exp (sᵢ - M) / ∑ᵢ' exp (sᵢ' - M)) · vᵢ with M the maximum of the row: the
  softmax of the row, taken with its maximum subtracted, against v. A tile that is entirely -∞ leaves a state
  with a real maximum unchanged, so such tiles at the end of the row may be skipped.
-/
import Idealize.ShloMosaic.PureOps.Ideal
import Mathlib.Algebra.BigOperators.Fin
import Mathlib.Algebra.Order.BigOperators.Group.Finset
import Mathlib.Data.Finset.Lattice.Fold
import proofs.«173625_j60997125538304_2_alg».proof.Proof.LibFmax

noncomputable section

namespace Cert.Softmax

open Cert.Attn Idealize.ShloMosaic
open scoped BigOperators

/-! ### The recurrence -/

/-- column j of tile t in the flat numbering of T tiles of width K -/
def tileIx (T K : ℕ) (t : Fin T) (j : Fin K) : Fin (T * K) :=
  ⟨t.val * K + j.val,
    calc t.val * K + j.val < t.val * K + K := Nat.add_lt_add_left j.isLt _
      _ = (t.val + 1) * K := (Nat.succ_mul _ _).symm
      _ ≤ T * K := Nat.mul_le_mul_right _ t.isLt⟩

/-- one tile's update of a row's running (maximum, denominator, numerator at one output column) -/
def step {K : ℕ} (st : EReal × EReal × EReal) (s v : Fin K → EReal) : EReal × EReal × EReal :=
  (max st.1 (fmax s),
   Ideal.exp (st.1 - max st.1 (fmax s)) * st.2.1 + ∑ j : Fin K, Ideal.exp (s j - max st.1 (fmax s)),
   Ideal.exp (st.1 - max st.1 (fmax s)) * st.2.2 + ∑ j : Fin K, Ideal.exp (s j - max st.1 (fmax s)) * v j)

/-- the state after the first n tiles, from (-∞, 0, 0) -/
def run (T K : ℕ) (s v : Fin (T * K) → EReal) : ℕ → EReal × EReal × EReal
  | 0 => (⊥, 0, 0)
  | n + 1 => if h : n < T then step (run T K s v n) (fun j => s (tileIx T K ⟨n, h⟩ j)) (fun j => v (tileIx T K ⟨n, h⟩ j)) else run T K s v n

theorem run_zero (T K : ℕ) (s v : Fin (T * K) → EReal) : run T K s v 0 = (⊥, 0, 0) := rfl

theorem run_succ_of_lt (T K : ℕ) (s v : Fin (T * K) → EReal) (n : ℕ) (h : n < T) :
    run T K s v (n + 1)
      = step (run T K s v n) (fun j => s (tileIx T K ⟨n, h⟩ j)) (fun j => v (tileIx T K ⟨n, h⟩ j)) := by
  show (if h : n < T then _ else _) = _
  rw [dif_pos h]

theorem run_succ_of_ge (T K : ℕ) (s v : Fin (T * K) → EReal) (n : ℕ) (h : T ≤ n) :
    run T K s v (n + 1) = run T K s v n := by
  show (if h : n < T then _ else _) = _
  rw [dif_neg (Nat.not_lt.mpr h)]

/-- past the last tile the state no longer moves -/
theorem run_of_ge (T K : ℕ) (s v : Fin (T * K) → EReal) (n : ℕ) (h : T ≤ n) :
    run T K s v n = run T K s v T := by
  induction n, h using Nat.le_induction with
  | base => rfl
  | succ n h ih => rw [run_succ_of_ge T K s v n h, ih]

/-! ### Extended reals that are -∞ or real -/

/-- the maximum of a family of values that are -∞ or real is -∞ or real -/
theorem fmax_bot_or_coe {n : ℕ} (f : Fin n → EReal) (hf : ∀ i, f i = ⊥ ∨ ∃ r : ℝ, f i = (r : EReal)) :
    fmax f = ⊥ ∨ ∃ r : ℝ, fmax f = (r : EReal) := by
  refine Finset.sup_induction (p := fun a : EReal => a = ⊥ ∨ ∃ r : ℝ, a = (r : EReal)) (Or.inl rfl) ?_
    (fun i _ => hf i)
  intro a ha b hb
  rcases max_choice a b with h | h
  · rw [show a ⊔ b = a from h]; exact ha
  · rw [show a ⊔ b = b from h]; exact hb

theorem le_fmax {n : ℕ} (f : Fin n → EReal) (i : Fin n) : f i ≤ fmax f :=
  Finset.le_sup (f := f) (Finset.mem_univ i)

theorem fmax_le {n : ℕ} (f : Fin n → EReal) (a : EReal) (h : ∀ i, f i ≤ a) : fmax f ≤ a :=
  Finset.sup_le (fun i _ => h i)

theorem fmax_bot {n : ℕ} : fmax (fun _ : Fin n => (⊥ : EReal)) = ⊥ :=
  Finset.sup_bot _

/-- a value that is -∞ or real and at least a real is real -/
theorem coe_of_coe_le {a : EReal} (ha : a = ⊥ ∨ ∃ r : ℝ, a = (r : EReal)) {r0 : ℝ} (h : (r0 : EReal) ≤ a) :
    ∃ r : ℝ, a = (r : EReal) := by
  rcases ha with ha | ha
  · exact absurd (le_bot_iff.mp (ha ▸ h)) (EReal.coe_ne_bot r0)
  · exact ha

/-- exp (a - m) as a real, for a that is -∞ or real and m real -/
def ew (a : EReal) (m : ℝ) : ℝ := if a = ⊥ then 0 else Real.exp (a.toReal - m)

theorem exp_sub_coe (a : EReal) (ha : a = ⊥ ∨ ∃ r : ℝ, a = (r : EReal)) (m : ℝ) :
    Ideal.exp (a - (m : EReal)) = ((ew a m : ℝ) : EReal) := by
  rcases ha with ha | ⟨r, ha⟩
  · rw [ha, EReal.bot_sub, Ideal.exp_bot, ew, if_pos rfl, EReal.coe_zero]
  · rw [ha, ← EReal.coe_sub, Ideal.exp_coe, ew, if_neg (EReal.coe_ne_bot r), EReal.toReal_coe]

theorem ew_nonneg (a : EReal) (m : ℝ) : 0 ≤ ew a m := by
  unfold ew; split
  · exact le_refl 0
  · exact (Real.exp_pos _).le

theorem ew_coe_pos (r m : ℝ) : 0 < ew (r : EReal) m := by
  rw [ew, if_neg (EReal.coe_ne_bot r)]; exact Real.exp_pos _

/-- changing the reference maximum from m to m' multiplies by exp (m - m') -/
theorem ew_rescale (a : EReal) (m m' : ℝ) : ew (m : EReal) m' * ew a m = ew a m' := by
  rw [ew, if_neg (EReal.coe_ne_bot m), EReal.toReal_coe]
  unfold ew; split
  · exact mul_zero _
  · rw [← Real.exp_add]; congr 1; ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### One tile's update, on the reals -/

/-- one tile's update of a state whose maximum is -∞ or real and whose sums are real, the new maximum being the
    real m' -/
theorem step_coe {K : ℕ} (M : EReal) (hM : M = ⊥ ∨ ∃ r : ℝ, M = (r : EReal)) (D N : ℝ) (s v : Fin K → EReal)
    (hs : ∀ j, s j = ⊥ ∨ ∃ r : ℝ, s j = (r : EReal)) (vr : Fin K → ℝ) (hv : ∀ j, v j = (vr j : EReal)) (m' : ℝ)
    (hm' : max M (fmax s) = (m' : EReal)) :
    step (M, (D : EReal), (N : EReal)) s v
      = ((m' : EReal), ((ew M m' * D + ∑ j, ew (s j) m' : ℝ) : EReal),
          ((ew M m' * N + ∑ j, ew (s j) m' * vr j : ℝ) : EReal)) := by
  unfold step
  simp only [hm']
  rw [exp_sub_coe M hM m']
  refine Prod.ext rfl (Prod.ext ?_ ?_)
  · show _ * (D : EReal) + ∑ j : Fin K, Ideal.exp (s j - (m' : EReal))
      = ((ew M m' * D + ∑ j, ew (s j) m' : ℝ) : EReal)
    rw [EReal.coe_add, EReal.coe_mul, coe_sum]
    congr 1
    exact Finset.sum_congr rfl (fun j _ => exp_sub_coe (s j) (hs j) m')
  · show _ * (N : EReal) + ∑ j : Fin K, Ideal.exp (s j - (m' : EReal)) * v j
      = ((ew M m' * N + ∑ j, ew (s j) m' * vr j : ℝ) : EReal)
    rw [EReal.coe_add, EReal.coe_mul, coe_sum]
    congr 1
    refine Finset.sum_congr rfl (fun j _ => ?_)
    rw [exp_sub_coe (s j) (hs j) m', hv j, EReal.coe_mul]

/-- a tile that is entirely -∞ leaves a state with a real maximum unchanged -/
theorem step_masked {K : ℕ} (st : EReal × EReal × EReal) (hm : ∃ r : ℝ, st.1 = (r : EReal)) (v : Fin K → EReal) :
    step st (fun _ : Fin K => (⊥ : EReal)) v = st := by
  obtain ⟨r, hr⟩ := hm
  obtain ⟨a, d, n⟩ := st
  simp only at hr
  subst hr
  have h1 : Ideal.exp ((r : EReal) - (r : EReal)) = 1 := by
    rw [← EReal.coe_sub, sub_self, Ideal.exp_coe, Real.exp_zero, EReal.coe_one]
  have h2 : Ideal.exp ((⊥ : EReal) - (r : EReal)) = 0 := by rw [EReal.bot_sub, Ideal.exp_bot]
  unfold step
  simp only [fmax_bot, max_bot_right, h1, h2, one_mul, zero_mul, Finset.sum_const_zero, add_zero]

/-! ### Sums over the first tiles -/

/-- the sum of f over the columns of the first n tiles -/
def psum (T K : ℕ) (n : ℕ) (f : Fin (T * K) → ℝ) : ℝ :=
  ∑ t : Fin T, ∑ j : Fin K, if t.val < n then f (tileIx T K t j) else 0

theorem psum_zero (T K : ℕ) (f : Fin (T * K) → ℝ) : psum T K 0 f = 0 := by
  simp [psum]

theorem psum_succ (T K : ℕ) (n : ℕ) (h : n < T) (f : Fin (T * K) → ℝ) :
    psum T K (n + 1) f = psum T K n f + ∑ j : Fin K, f (tileIx T K ⟨n, h⟩ j) := by
  unfold psum
  have key : ∀ t : Fin T, (∑ j : Fin K, if t.val < n + 1 then f (tileIx T K t j) else 0)
      = (∑ j : Fin K, if t.val < n then f (tileIx T K t j) else 0)
        + (if t = ⟨n, h⟩ then ∑ j : Fin K, f (tileIx T K ⟨n, h⟩ j) else 0) := by
    intro t
    by_cases h1 : t.val < n
    · have h2 : t ≠ ⟨n, h⟩ := fun e => by rw [e] at h1; exact lt_irrefl _ h1
      simp only [h1, Nat.lt_succ_of_lt h1, if_true, if_neg h2, add_zero]
    · by_cases h2 : t = ⟨n, h⟩
      · subst h2
        simp only [Nat.lt_succ_self, lt_irrefl, if_true, if_false, Finset.sum_const_zero, zero_add]
      · have h3 : ¬ t.val < n + 1 := fun h3 => h2 (Fin.ext (by
          have : t.val = n := by omega
          exact this))
        simp only [h1, h3, if_false, if_neg h2, Finset.sum_const_zero, add_zero]
  rw [Finset.sum_congr rfl (fun t _ => key t), Finset.sum_add_distrib, Finset.sum_ite_eq' (Finset.univ : Finset (Fin T)) (⟨n, h⟩ : Fin T),
    if_pos (Finset.mem_univ _)]

theorem mul_psum (T K : ℕ) (c : ℝ) (n : ℕ) (f : Fin (T * K) → ℝ) :
    c * psum T K n f = psum T K n (fun i => c * f i) := by
  unfold psum
  rw [Finset.mul_sum]
  refine Finset.sum_congr rfl (fun t _ => ?_)
  rw [Finset.mul_sum]
  refine Finset.sum_congr rfl (fun j _ => ?_)
  split
  · rfl
  · exact mul_zero c

/-- the tiles' numbering is the standard one of pairs -/
theorem tileIx_eq (T K : ℕ) (t : Fin T) (j : Fin K) : tileIx T K t j = finProdFinEquiv (t, j) := by
  apply Fin.ext
  show t.val * K + j.val = j.val + K * t.val
  rw [Nat.add_comm, Nat.mul_comm]

/-- every column is a column of some tile -/
theorem exists_tileIx (T K : ℕ) (i : Fin (T * K)) : ∃ (t : Fin T) (j : Fin K), i = tileIx T K t j := by
  obtain ⟨p, rfl⟩ := finProdFinEquiv.surjective i
  exact ⟨p.1, p.2, (tileIx_eq T K p.1 p.2).symm⟩

theorem psum_all (T K : ℕ) (f : Fin (T * K) → ℝ) : psum T K T f = ∑ i : Fin (T * K), f i := by
  unfold psum
  have h1 : ∀ t : Fin T, (∑ j : Fin K, if t.val < T then f (tileIx T K t j) else 0)
      = ∑ j : Fin K, f (tileIx T K t j) := fun t => Finset.sum_congr rfl (fun j _ => if_pos t.isLt)
  rw [Finset.sum_congr rfl (fun t _ => h1 t), ← Fintype.sum_prod_type' (fun t j => f (tileIx T K t j))]
  exact Fintype.sum_equiv finProdFinEquiv _ _ (fun p => by rw [tileIx_eq])

/-! ### The running maximum -/

/-- the running maximum after n tiles is -∞ or real, bounds the scores read so far and is at most the row's -/
theorem run_fst (T K : ℕ) (s v : Fin (T * K) → EReal) (hs : ∀ i, s i = ⊥ ∨ ∃ r : ℝ, s i = (r : EReal)) :
    ∀ n, n ≤ T →
      ((run T K s v n).1 = ⊥ ∨ ∃ r : ℝ, (run T K s v n).1 = (r : EReal))
      ∧ (∀ (t : Fin T) (j : Fin K), t.val < n → s (tileIx T K t j) ≤ (run T K s v n).1)
      ∧ (run T K s v n).1 ≤ fmax s := by
  intro n
  induction n with
  | zero => exact fun _ => ⟨Or.inl rfl, fun t _ h => absurd h (Nat.not_lt_zero _), bot_le⟩
  | succ n ih =>
    intro hn
    have h : n < T := hn
    obtain ⟨ih1, ih2, ih3⟩ := ih (Nat.le_of_lt h)
    rw [run_succ_of_lt T K s v n h]
    show (max (run T K s v n).1 (fmax fun j => s (tileIx T K ⟨n, h⟩ j)) = ⊥
        ∨ ∃ r : ℝ, max (run T K s v n).1 (fmax fun j => s (tileIx T K ⟨n, h⟩ j)) = (r : EReal))
      ∧ (∀ (t : Fin T) (j : Fin K), t.val < n + 1 →
          s (tileIx T K t j) ≤ max (run T K s v n).1 (fmax fun j => s (tileIx T K ⟨n, h⟩ j)))
      ∧ max (run T K s v n).1 (fmax fun j => s (tileIx T K ⟨n, h⟩ j)) ≤ fmax s
    refine ⟨?_, ?_, ?_⟩
    · rcases max_choice (run T K s v n).1 (fmax fun j => s (tileIx T K ⟨n, h⟩ j)) with e | e
      · rw [e]; exact ih1
      · rw [e]; exact fmax_bot_or_coe _ (fun j => hs _)
    · intro t j ht
      by_cases h1 : t.val < n
      · exact (ih2 t j h1).trans (le_max_left _ _)
      · have h2 : t = ⟨n, h⟩ := Fin.ext (by
          have : t.val = n := by omega
          exact this)
        subst h2
        exact (le_fmax (fun j => s (tileIx T K ⟨n, h⟩ j)) j).trans (le_max_right _ _)
    · exact max_le ih3 (fmax_le _ _ (fun j => le_fmax s _))

/-- once a tile has been read the running maximum is real, the first score being real -/
theorem run_fst_coe (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (n : ℕ) (hn : 1 ≤ n) : ∃ r : ℝ, (run T K s v n).1 = (r : EReal) := by
  have main : ∀ n, 1 ≤ n → n ≤ T → ∃ r : ℝ, (run T K s v n).1 = (r : EReal) := by
    intro n hn hnT
    obtain ⟨h1, h2, _⟩ := run_fst T K s v hs n hnT
    obtain ⟨r0, hr0⟩ := h0
    have hix : tileIx T K ⟨0, hT⟩ ⟨0, hK⟩ = ⟨0, Nat.mul_pos hT hK⟩ := Fin.ext (by
      show 0 * K + 0 = 0
      rw [Nat.zero_mul])
    have hle := h2 ⟨0, hT⟩ ⟨0, hK⟩ hn
    rw [hix, hr0] at hle
    exact coe_of_coe_le h1 hle
  rcases Nat.lt_or_ge n T with h | h
  · exact main n hn (Nat.le_of_lt h)
  · rw [run_of_ge T K s v n h]; exact main T hT le_rfl

/-! ### The state after n tiles -/

/-- after n ≥ 1 tiles: the real maximum m of the scores read so far, and over them the sums of exp (sᵢ - m)
    and of exp (sᵢ - m) · vᵢ -/
theorem run_eq (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (vr : Fin (T * K) → ℝ) (hv : ∀ i, v i = (vr i : EReal)) (n : ℕ) (hn : 1 ≤ n) (hnT : n ≤ T) :
    ∃ m : ℝ, run T K s v n
      = ((m : EReal), ((psum T K n (fun i => ew (s i) m) : ℝ) : EReal),
          ((psum T K n (fun i => ew (s i) m * vr i) : ℝ) : EReal)) := by
  induction n, hn using Nat.le_induction with
  | base =>
    obtain ⟨m, hm⟩ := run_fst_coe T K hT hK s v hs h0 1 le_rfl
    refine ⟨m, ?_⟩
    rw [run_succ_of_lt T K s v 0 hT] at hm ⊢
    rw [run_zero] at hm ⊢
    have hmax : max (⊥ : EReal) (fmax fun j => s (tileIx T K ⟨0, hT⟩ j)) = (m : EReal) := hm
    have e := step_coe ⊥ (Or.inl rfl) 0 0 (fun j => s (tileIx T K ⟨0, hT⟩ j)) (fun j => v (tileIx T K ⟨0, hT⟩ j))
      (fun j => hs _) (fun j => vr (tileIx T K ⟨0, hT⟩ j)) (fun j => hv _) m hmax
    rw [EReal.coe_zero] at e
    rw [e, psum_succ T K 0 hT, psum_succ T K 0 hT, psum_zero, psum_zero, mul_zero]
  | succ n hn ih =>
    have h : n < T := hnT
    obtain ⟨m, hrun⟩ := ih (Nat.le_of_lt h)
    obtain ⟨m', hm'⟩ := run_fst_coe T K hT hK s v hs h0 (n + 1) (Nat.le_succ_of_le hn)
    refine ⟨m', ?_⟩
    rw [run_succ_of_lt T K s v n h] at hm' ⊢
    rw [hrun] at hm' ⊢
    have hmax : max (m : EReal) (fmax fun j => s (tileIx T K ⟨n, h⟩ j)) = (m' : EReal) := hm'
    rw [step_coe (m : EReal) (Or.inr ⟨m, rfl⟩) _ _ (fun j => s (tileIx T K ⟨n, h⟩ j))
      (fun j => v (tileIx T K ⟨n, h⟩ j)) (fun j => hs _) (fun j => vr (tileIx T K ⟨n, h⟩ j)) (fun j => hv _) m' hmax,
      psum_succ T K n h, psum_succ T K n h, mul_psum, mul_psum]
    have e1 : (fun i => ew (m : EReal) m' * ew (s i) m) = fun i => ew (s i) m' :=
      funext fun i => ew_rescale (s i) m m'
    have e2 : (fun i => ew (m : EReal) m' * (ew (s i) m * vr i)) = fun i => ew (s i) m' * vr i :=
      funext fun i => by rw [← mul_assoc, ew_rescale]
    rw [e1, e2]

/-! ### The theorems -/

/-- the online recurrence over all the tiles is the softmax of the row, taken with its maximum subtracted,
    against the values -/
theorem online_softmax (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (hv : ∀ i, ∃ r : ℝ, v i = (r : EReal)) :
    Ideal.div (run T K s v T).2.2 (run T K s v T).2.1
      = ∑ i : Fin (T * K), Ideal.div (Ideal.exp (s i - max ⊥ (fmax s)))
          (0 + ∑ i' : Fin (T * K), Ideal.exp (s i' - max ⊥ (fmax s))) * v i := by
  choose vr hvr using hv
  obtain ⟨m, hrun⟩ := run_eq T K hT hK s v hs h0 vr hvr T hT le_rfl
  obtain ⟨_, hb, hle⟩ := run_fst T K s v hs T le_rfl
  rw [hrun] at hb hle
  -- the running maximum at the end is the row's
  have hM : fmax s = (m : EReal) := by
    refine le_antisymm (fmax_le _ _ (fun i => ?_)) hle
    obtain ⟨t, j, rfl⟩ := exists_tileIx T K i
    exact hb t j t.isLt
  rw [hrun, max_bot_left, hM]
  show Ideal.div ((psum T K T (fun i => ew (s i) m * vr i) : ℝ) : EReal) ((psum T K T (fun i => ew (s i) m) : ℝ) : EReal)
    = _
  rw [psum_all, psum_all]
  -- the denominator is a positive real
  have hL : 0 < ∑ i : Fin (T * K), ew (s i) m := by
    refine Finset.sum_pos' (fun i _ => ew_nonneg _ _) ⟨⟨0, Nat.mul_pos hT hK⟩, Finset.mem_univ _, ?_⟩
    obtain ⟨r0, hr0⟩ := h0
    rw [hr0]; exact ew_coe_pos r0 m
  have hden : (0 : EReal) + ∑ i' : Fin (T * K), Ideal.exp (s i' - (m : EReal))
      = ((∑ i : Fin (T * K), ew (s i) m : ℝ) : EReal) := by
    rw [zero_add, coe_sum]
    exact Finset.sum_congr rfl (fun i _ => exp_sub_coe (s i) (hs i) m)
  rw [hden, Ideal.div_coe hL.ne', ← EReal.coe_mul]
  have hterm : ∀ i : Fin (T * K),
      Ideal.div (Ideal.exp (s i - (m : EReal))) ((∑ i : Fin (T * K), ew (s i) m : ℝ) : EReal) * v i
        = ((ew (s i) m * (1 / ∑ i : Fin (T * K), ew (s i) m) * vr i : ℝ) : EReal) := by
    intro i
    rw [Ideal.div_coe hL.ne', exp_sub_coe (s i) (hs i) m, hvr i, ← EReal.coe_mul, ← EReal.coe_mul]
  rw [Finset.sum_congr rfl (fun i _ => hterm i), ← coe_sum, Finset.sum_mul]
  refine congrArg _ (Finset.sum_congr rfl (fun i _ => ?_))
  ring

/-- tiles from n on entirely -∞ change nothing once one tile has been seen -/
theorem run_masked_tail (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (n : ℕ) (hn : 1 ≤ n) (hmask : ∀ (t : Fin T) (j : Fin K), n ≤ t.val → s (tileIx T K t j) = ⊥) :
    run T K s v T = run T K s v n := by
  rcases Nat.lt_or_ge n T with hlt | hge
  · have main : ∀ k, n ≤ k → k ≤ T → run T K s v k = run T K s v n := by
      intro k hk
      induction k, hk using Nat.le_induction with
      | base => exact fun _ => rfl
      | succ k hk ih =>
        intro hkT
        have h : k < T := hkT
        have hbot : (fun j => s (tileIx T K ⟨k, h⟩ j)) = fun _ : Fin K => (⊥ : EReal) :=
          funext fun j => hmask ⟨k, h⟩ j hk
        rw [run_succ_of_lt T K s v k h, hbot,
          step_masked _ (run_fst_coe T K hT hK s v hs h0 k (le_trans hn hk)), ih (Nat.le_of_lt h)]
    exact main T (Nat.le_of_lt hlt) le_rfl
  · exact (run_of_ge T K s v n hge).symm

end Cert.Softmax
-- ==== Proof.AttnRowStep.lean ====
/-
  One key tile folded into a query row is one step of the online softmax.

  Fix a query row r of the query tile and an output column d. What folding a key tile in leaves at the row in the
  three scratch buffers — the maximum at (r, 0), the denominator at (r, 0), the numerator at (r, d) — is the step
  of the online-softmax recurrence from what was there, on the tile's 512 masked scaled scores of the row and the
  tile's 512 values of column d. The reset values are the recurrence's start (-∞, 0, 0), and the output block is the
  numerator over the denominator.
-/
import proofs.«173625_j60997125538304_2_alg».proof.Proof.KernelPayloads
import proofs.«173625_j60997125538304_2_alg».proof.Proof.LibOnlineSoftmax

noncomputable section

namespace Cert.KernelIdeal.AttnV

open Cert.KernelIdeal Cert.KernelIdeal.Gen Idealize.ShloMosaic Idealize.ShloMosaic.ValueIdx Cert.Attn
open Cert.KernelIdeal.Pay
open scoped BigOperators

/-- The row's state in the three scratch buffers: the maximum and the denominator at (r, 0), the numerator at (r, d). -/
def rowSt (xs7 xs8 : Vec Ideal S1024x1 .f32) (xs9 : Vec Ideal S1024x1024 .f32) (r d : Fin 1024) : EReal × EReal × EReal :=
  (xs7 (ix2 r (0 : Fin 1)), xs8 (ix2 r (0 : Fin 1)), xs9 (ix2 r d))

/-- Folding a tile in is the recurrence's step on the tile's scores of the row and its values of the column. -/
theorem fold_row (a1 a2 : BitVec 32) (x0 : Vec Ideal S1x1024x1024 .bf16) (x1 x2 : Vec Ideal S1x512x1024 .bf16)
    (xs7 xs8 : Vec Ideal S1024x1 .f32) (xs9 : Vec Ideal S1024x1024 .f32) (r d : Fin 1024) :
    rowSt (k1_pay5 (F := Ideal) (k1_pay9 (F := Ideal) a1 a2 x0 x1 xs7)) (k1_pay12 (F := Ideal) a1 a2 x0 x1 xs7 xs8)
        (k1_pay4 (F := Ideal) (k1_pay7 (F := Ideal) x2) (k1_pay10 (F := Ideal) a1 a2 x0 x1 xs7) (k1_pay11 (F := Ideal) a1 a2 x0 x1 xs7) xs9) r d
      = Cert.Softmax.step (rowSt xs7 xs8 xs9 r d) (fun j : Fin 512 => k1_pay8 (F := Ideal) a1 a2 x0 x1 (ix2 r j))
          (fun j : Fin 512 => x2 (ix3 (0 : Fin 1) j d)) := by
  have h9 := k1_pay9_apply a1 a2 x0 x1 xs7 r
  have h10 := (k1_pay10_apply a1 a2 x0 x1 xs7 r).trans (congrArg (fun z => Ideal.exp (xs7 (ix2 r (0 : Fin 1)) - z)) h9)
  have h11 : ∀ j : Fin 512, k1_pay11 (F := Ideal) a1 a2 x0 x1 xs7 (ix2 r j)
      = Ideal.exp (k1_pay8 (F := Ideal) a1 a2 x0 x1 (ix2 r j)
          - max (xs7 (ix2 r (0 : Fin 1))) (fmax fun j : Fin 512 => k1_pay8 (F := Ideal) a1 a2 x0 x1 (ix2 r j))) :=
    fun j => (k1_pay11_apply a1 a2 x0 x1 xs7 r j).trans
      (congrArg (fun z => Ideal.exp (k1_pay8 (F := Ideal) a1 a2 x0 x1 (ix2 r j) - z)) h9)
  unfold rowSt Cert.Softmax.step
  refine Prod.ext ?_ (Prod.ext ?_ ?_)
  · exact (k1_pay5_apply _ _).trans h9
  · refine (k1_pay12_apply a1 a2 x0 x1 xs7 xs8 r).trans ?_
    rw [h10]
    exact congrArg _ (Finset.sum_congr rfl (fun j _ => h11 j))
  · refine (k1_pay4_apply _ _ _ xs9 r d).trans ?_
    rw [h10]
    exact congrArg _ (Finset.sum_congr rfl (fun j _ => by rw [h11 j, k1_pay7_apply]))

/-- The reset values are the recurrence's start. -/
theorem reset_row (r d : Fin 1024) :
    rowSt (k1_pay1 (F := Ideal)) (k1_pay2 (F := Ideal)) (k1_pay3 (F := Ideal)) r d = ((⊥ : EReal), (0 : EReal), (0 : EReal)) := by
  unfold rowSt
  rw [k1_pay1_apply, k1_pay2_apply, k1_pay3_apply]

/-- The output block at (0, r, d) is the row's numerator over its denominator. -/
theorem out_row (A : Vec Ideal S1024x1024 .f32) (L : Vec Ideal S1024x1 .f32) (r d : Fin 1024) :
    k1_pay6 (F := Ideal) A L (ix3 (0 : Fin 1) r d) = Ideal.div (A (ix2 r d)) (L (ix2 r (0 : Fin 1))) :=
  k1_pay6_apply A L r d

/-- A tile's masked scaled scores of a row, from the rows of the query and key blocks. -/
theorem tile_scores (qi ki : ℕ) (hq : qi < 2) (hk : ki < 4) (x0 : Vec Ideal S1x1024x1024 .bf16) (x1 : Vec Ideal S1x512x1024 .bf16)
    (r : Fin 1024) (j : Fin 512) :
    k1_pay8 (F := Ideal) (BitVec.ofNat 32 qi) (BitVec.ofNat 32 ki) x0 x1 (ix2 r j)
      = if ki * 512 + j.val ≤ qi * 1024 + r.val then
          (∑ e : Fin 1024, x0 (ix3 (0 : Fin 1) r e) * x1 (ix3 (0 : Fin 1) j e)) * (((1 : ℝ) / 32 : ℝ) : EReal)
        else ⊥ :=
  k1_pay8_apply qi ki hq hk x0 x1 r j

end Cert.KernelIdeal.AttnV

end
-- ==== Proof.AttnReal.lean ====
/-
  Finiteness of the specification's pieces: with real inputs and real weights every projection is a real number,
  every score is -∞ or a real number, the score against key row 0 is always a real number (row 0 is never masked),
  and a score against a later key row is -∞.
-/
import proofs.«173625_j60997125538304_2_alg».proof.Proof.AttnSpec
import Mathlib.Algebra.BigOperators.Fin

noncomputable section

namespace Cert.Attn

open Idealize.ShloMosaic Idealize.ShloMosaic.ValueIdx
open scoped BigOperators

/-- A finite sum of reals, as an extended real, is the sum of the terms as extended reals. -/
theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of real inputs by real weights is a real number. -/
theorem proj_real (x : SX.Idx → EReal) (W : SW.Idx → EReal) (hx : ∀ i, ∃ r : ℝ, x i = (r : EReal))
    (hW : ∀ i, ∃ r : ℝ, W i = (r : EReal)) (b : Fin 4) (s : Fin 2048) (e : Fin 1024) :
    ∃ r : ℝ, proj x W b s e = (r : EReal) := by
  choose xr hxr using hx
  choose wr hwr using hW
  refine ⟨∑ d : Fin 1024, xr (ix3 b s d) * wr (ix2 e d), ?_⟩
  unfold proj
  rw [coe_finsum]
  exact Finset.sum_congr rfl fun d _ => by rw [hxr, hwr, EReal.coe_mul]

/-- The score of a query row against a key row at or before it is a real number. -/
theorem score_real_of_le (x : SX.Idx → EReal) (Wq Wk : SW.Idx → EReal) (hx : ∀ i, ∃ r : ℝ, x i = (r : EReal))
    (hWq : ∀ i, ∃ r : ℝ, Wq i = (r : EReal)) (hWk : ∀ i, ∃ r : ℝ, Wk i = (r : EReal))
    (b : Fin 4) (i j : Fin 2048) (h : j.val ≤ i.val) : ∃ r : ℝ, score x Wq Wk b i j = (r : EReal) := by
  choose qr hq using fun e => proj_real x Wq hx hWq b i e
  choose kr hk using fun e => proj_real x Wk hx hWk b j e
  refine ⟨(∑ e : Fin 1024, qr e * kr e) * (1 / 32), ?_⟩
  unfold score
  rw [if_pos h, EReal.coe_mul, coe_finsum]
  congr 1
  exact Finset.sum_congr rfl fun e _ => by rw [hq, hk, EReal.coe_mul]

/-- A score against a later key row is -∞. -/
theorem score_masked (x : SX.Idx → EReal) (Wq Wk : SW.Idx → EReal) (b : Fin 4) (i j : Fin 2048) (h : i.val < j.val) :
    score x Wq Wk b i j = ⊥ := by
  unfold score
  rw [if_neg (by omega)]

/-- Every score is -∞ or a real number. -/
theorem score_bot_or_real (x : SX.Idx → EReal) (Wq Wk : SW.Idx → EReal) (hx : ∀ i, ∃ r : ℝ, x i = (r : EReal))
    (hWq : ∀ i, ∃ r : ℝ, Wq i = (r : EReal)) (hWk : ∀ i, ∃ r : ℝ, Wk i = (r : EReal))
    (b : Fin 4) (i j : Fin 2048) :
    score x Wq Wk b i j = ⊥ ∨ ∃ r : ℝ, score x Wq Wk b i j = (r : EReal) := by
  by_cases h : j.val ≤ i.val
  · exact Or.inr (score_real_of_le x Wq Wk hx hWq hWk b i j h)
  · exact Or.inl (score_masked x Wq Wk b i j (by omega))

/-- The score against key row 0 is a real number: row 0 is never masked. -/
theorem score_zero_real (x : SX.Idx → EReal) (Wq Wk : SW.Idx → EReal) (hx : ∀ i, ∃ r : ℝ, x i = (r : EReal))
    (hWq : ∀ i, ∃ r : ℝ, Wq i = (r : EReal)) (hWk : ∀ i, ∃ r : ℝ, Wk i = (r : EReal))
    (b : Fin 4) (i : Fin 2048) : ∃ r : ℝ, score x Wq Wk b i ⟨0, by decide⟩ = (r : EReal) :=
  score_real_of_le x Wq Wk hx hWq hWk b i ⟨0, by decide⟩ (Nat.zero_le _)

end Cert.Attn

end
-- ==== Proof.AttnBlocks.lean ====
/-
  The attention region's blocks read at an index: where each grid point's query, key, value and output blocks sit in
  their arrays, and the output array assembled from the rows its last key tiles write back.
-/
import proofs.«173625_j60997125538304_2_alg».proof.Proof.FrameR1I
import Idealize.ShloMosaic.Lib.Pipeline.Value
import Idealize.ShloMosaic.Lib.ValueIdx

noncomputable section

namespace Cert.KernelIdeal.AttnB

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F] [Named F]

/-! ## The grid: batch, query tile, key tile -/

/-- The attention grid has 32 points. -/
theorem lt32 (t : Fin cfg1.N) : t.val < 32 := lt_of_lt_of_eq t.isLt N_1

/-- Point `t`'s batch element, -/
def bOf (t : Fin cfg1.N) : Fin 4 := ⟨t.val / 8, by have := lt32 t; omega⟩
/-- its query tile, -/
def qiOf (t : Fin cfg1.N) : ℕ := (t.val / 4) % 2
/-- and its key tile. -/
def kiOf (t : Fin cfg1.N) : ℕ := t.val % 4

theorem qiOf_lt (t : Fin cfg1.N) : qiOf t < 2 := by unfold qiOf; omega
theorem kiOf_lt (t : Fin cfg1.N) : kiOf t < 4 := by unfold kiOf; omega

/-- The position in the sequence of row `r` of point `t`'s query tile, -/
abbrev qrow (t : Fin cfg1.N) (r : Fin 1024) : Fin 2048 := ⟨qiOf t * 1024 + r.val, by have := qiOf_lt t; have := r.isLt; omega⟩
/-- and of row `j` of the key tile it is given: the key tile's number is clamped to the last tile the query tile's rows can see. -/
abbrev krow (t : Fin cfg1.N) (j : Fin 512) : Fin 2048 :=
  ⟨min (kiOf t) (2 * qiOf t + 1) * 512 + j.val, by have := qiOf_lt t; have := kiOf_lt t; have := j.isLt; omega⟩

/-- The printed index maps, decided over the grid. -/
theorem idx_facts : ∀ t : Fin cfg1.N,
    win1_0.index t (0 : Fin 3) = t.val / 8 ∧ win1_0.index t (1 : Fin 3) = (t.val / 4) % 2 ∧ win1_0.index t (2 : Fin 3) = 0
    ∧ win1_1.index t (0 : Fin 3) = t.val / 8 ∧ win1_1.index t (1 : Fin 3) = min (t.val % 4) (2 * ((t.val / 4) % 2) + 1) ∧ win1_1.index t (2 : Fin 3) = 0
    ∧ win1_2.index t (0 : Fin 3) = t.val / 8 ∧ win1_2.index t (1 : Fin 3) = min (t.val % 4) (2 * ((t.val / 4) % 2) + 1) ∧ win1_2.index t (2 : Fin 3) = 0
    ∧ win1_3.index t (0 : Fin 3) = t.val / 8 ∧ win1_3.index t (1 : Fin 3) = (t.val / 4) % 2 ∧ win1_3.index t (2 : Fin 3) = 0 :=
  (by decide +kernel : ∀ t : Fin grid1.N, _)

/-! ## The input blocks -/

section Blocks
variable (V : (c : Dev nD) → (b : Ref sig .tc) → Buf (Elt F) ((c : Thread nD τ).loc b))

/-- Point `t`'s query block: rows `qi · 1024 …` of batch element `b` of the projected queries. -/
theorem iblk1_q (c : Dev nD) (t : Fin cfg1.N) (r e : Fin 1024) :
    Fr.iblk1 V c 0 t (ix3 (0 : Fin 1) r e) = V c main_v3_0 (ix3 (bOf t) (qrow t r) e) := by
  show V c main_v3_0 (((cfg1.win 0).blk t).view.emb (ix3 (0 : Fin 1) r e)) = _
  refine congrArg (V c main_v3_0) (funext fun a => Fin.ext ?_)
  obtain ⟨e0, e1, e2, -⟩ := idx_facts t
  match a with
  | ⟨0, _⟩ => show win1_0.index t (0 : Fin 3) * 1 + 1 * (0 : Fin 1).val = t.val / 8; rw [e0]; simp
  | ⟨1, _⟩ => show win1_0.index t (1 : Fin 3) * 1024 + 1 * r.val = (t.val / 4) % 2 * 1024 + r.val; rw [e1]; omega
  | ⟨2, _⟩ => show win1_0.index t (2 : Fin 3) * 1024 + 1 * e.val = e.val; rw [e2]; omega

/-- Point `t`'s key block: rows `min ki (2 qi + 1) · 512 …` of batch element `b` of the projected keys. -/
theorem iblk1_k (c : Dev nD) (t : Fin cfg1.N) (j : Fin 512) (e : Fin 1024) :
    Fr.iblk1 V c 1 t (ix3 (0 : Fin 1) j e) = V c main_v3_1 (ix3 (bOf t) (krow t j) e) := by
  show V c main_v3_1 (((cfg1.win 1).blk t).view.emb (ix3 (0 : Fin 1) j e)) = _
  refine congrArg (V c main_v3_1) (funext fun a => Fin.ext ?_)
  obtain ⟨-, -, -, e0, e1, e2, -⟩ := idx_facts t
  match a with
  | ⟨0, _⟩ => show win1_1.index t (0 : Fin 3) * 1 + 1 * (0 : Fin 1).val = t.val / 8; rw [e0]; simp
  | ⟨1, _⟩ =>
    show win1_1.index t (1 : Fin 3) * 512 + 1 * j.val = min (t.val % 4) (2 * ((t.val / 4) % 2) + 1) * 512 + j.val
    rw [e1]; omega
  | ⟨2, _⟩ => show win1_1.index t (2 : Fin 3) * 1024 + 1 * e.val = e.val; rw [e2]; omega

/-- Point `t`'s value block: the same rows of the projected values. -/
theorem iblk1_v (c : Dev nD) (t : Fin cfg1.N) (j : Fin 512) (e : Fin 1024) :
    Fr.iblk1 V c 2 t (ix3 (0 : Fin 1) j e) = V c main_v3_2 (ix3 (bOf t) (krow t j) e) := by
  show V c main_v3_2 (((cfg1.win 2).blk t).view.emb (ix3 (0 : Fin 1) j e)) = _
  refine congrArg (V c main_v3_2) (funext fun a => Fin.ext ?_)
  obtain ⟨-, -, -, -, -, -, e0, e1, e2, -⟩ := idx_facts t
  match a with
  | ⟨0, _⟩ => show win1_2.index t (0 : Fin 3) * 1 + 1 * (0 : Fin 1).val = t.val / 8; rw [e0]; simp
  | ⟨1, _⟩ =>
    show win1_2.index t (1 : Fin 3) * 512 + 1 * j.val = min (t.val % 4) (2 * ((t.val / 4) % 2) + 1) * 512 + j.val
    rw [e1]; omega
  | ⟨2, _⟩ => show win1_2.index t (2 : Fin 3) * 1024 + 1 * e.val = e.val; rw [e2]; omega

/-! ## The output window -/

/-- Point `t`'s output block read off any contents `G` of the output array: rows `qi · 1024 …` of batch element `b`. -/
theorem blk3_read (c : Dev nD) (G : Buf (Elt F) ((c : Thread nD τ).loc main_v4)) (t : Fin cfg1.N) (r d : Fin 1024) :
    ((cfg1.win 3).blk t).view.read (Elt F) G (ix3 (0 : Fin 1) r d) = G (ix3 (bOf t) (qrow t r) d) := by
  show G (((cfg1.win 3).blk t).view.emb (ix3 (0 : Fin 1) r d)) = _
  refine congrArg G (funext fun a => Fin.ext ?_)
  obtain ⟨-, -, -, -, -, -, -, -, -, e0, e1, e2⟩ := idx_facts t
  match a with
  | ⟨0, _⟩ => show win1_3.index t (0 : Fin 3) * 1 + 1 * (0 : Fin 1).val = t.val / 8; rw [e0]; simp
  | ⟨1, _⟩ => show win1_3.index t (1 : Fin 3) * 1024 + 1 * r.val = (t.val / 4) % 2 * 1024 + r.val; rw [e1]; omega
  | ⟨2, _⟩ => show win1_3.index t (2 : Fin 3) * 1024 + 1 * d.val = d.val; rw [e2]; omega

/-- What point `t` writes back to the output array is what its body left in the output window's buffer (the window's
    blocks are never cut at the array's end). -/
theorem flushed3_eq (c : Dev nD) (t : Fin cfg1.N) :
    (Fr.dat1 V c).flushed 3 t = (Fr.outsAt1 V c t.val t.isLt).1 := by
  show (cfg1.win 3).cut (grid1.coords t) ((Fr.dat1 V c).after 3 t) = _
  rw [Fr.after1_3]
  rfl

/-- The same, at a point that writes back. -/
theorem flushed3 (c : Dev nD) (t : Fin cfg1.N) (hf : (cfg1.win 3).flush t = true) :
    (Fr.dat1 V c).flushed 3 t = (Fr.outsAt1 V c t.val t.isLt).1 := flushed3_eq V c t

/-- An index of the output array is in point `t`'s block iff each coordinate is in the block's range on its axis. -/
theorem mem_blk3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v4).slice (win1_3.rect t)).set ↔ _
  rw [View.set_slice_whole, Rect.mem_set_unit]
  exact Iff.rfl

/-- Every index of the output array is in the block of a point that writes back: the last key tile of its batch
    element and query tile. -/
theorem cover3 (i : S4x2048x1024.Idx) : ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  let t : Fin cfg1.N := ⟨(i 0).val * 8 + (i 1).val / 1024 * 4 + 3, lt_of_lt_of_eq (by omega) N_1.symm⟩
  have ht : t.val = (i 0).val * 8 + (i 1).val / 1024 * 4 + 3 := rfl
  obtain ⟨-, -, -, -, -, -, -, -, -, e0, e1, e2⟩ := idx_facts t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- The output array after the region: any contents `G` whose rows are what the last key tiles left in the output
    window's buffer. -/
theorem arrAt3_of_rows (c : Dev nD) (G : Buf (Elt F) ((c : Thread nD τ).loc main_v4))
    (h : ∀ t : Fin cfg1.N, t.val % 4 = 3 → ∀ r d : Fin 1024,
      (Fr.outsAt1 V c t.val t.isLt).1 (ix3 (0 : Fin 1) r d) = G (ix3 (bOf t) (qrow t r) d)) :
    (Fr.dat1 V c).arrAt 3 cfg1.N = G :=
  (Fr.dat1 V c).arrAt_eq_of_cover 3 G (fun t hf => by
    rw [flushed3_eq]
    refine funext fun (y : S1x1024x1024.Idx) => ?_
    obtain ⟨u, r, d, rfl⟩ : ∃ (u : Fin 1) (r d : Fin 1024), y = ix3 u r d := ⟨y 0, y 1, y 2, eq_ix3 y⟩
    have hu : u = 0 := Fin.ext (by omega)
    subst hu
    rw [blk3_read]
    exact h t ((flush1_3 t).mp hf) r d) cover3

end Blocks

end Cert.KernelIdeal.AttnB

end
-- ==== Proof.AttnRows.lean ====
/-
  The scratch rows after each grid point of the attention region are the online-softmax recurrence over the key
  tiles read so far, and the output block at the last key tile is the attention of its rows.

  A point is (batch b, query tile qi, key tile ki). Fix a row r of the query tile (global row i = qi * 1024 + r) and
  an output column d; let s be row i's 2048 masked scaled scores and v column d of the 2048 value rows of the batch,
  read in 4 tiles of 512. At ki = 0 the scratch is reset and tile 0 folded in; a later tile is folded in when it is
  not wholly after the query tile (ki ≤ 2 qi + 1), else the scratch is left as it was. So after the point the row's
  (maximum, denominator, numerator at d) is the recurrence's state after min (ki + 1) (2 qi + 2) tiles. At ki = 3 the
  output block is the numerator over the denominator: the state after all 4 tiles — the tiles left out are wholly
  -∞ and change nothing — whose quotient is the softmax-weighted sum, the attention at (b, i, d).
-/
import proofs.«173625_j60997125538304_2_alg».proof.Proof.AttnCases
import proofs.«173625_j60997125538304_2_alg».proof.Proof.AttnRowStep
import proofs.«173625_j60997125538304_2_alg».proof.Proof.AttnReal
import proofs.«173625_j60997125538304_2_alg».proof.Proof.AttnBlocks

set_option maxRecDepth 16384

noncomputable section

namespace Cert.KernelIdeal.AttnV

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.KernelIdeal.Fr
open scoped BigOperators

open Cert.Softmax
open Cert.KernelIdeal.AttnB (bOf qiOf kiOf qrow krow lt32)

variable (V : (c : Dev nD) → (b : Ref sig .tc) → Buf (Elt Ideal) ((c : Thread nD τ).loc b)) (c : Dev nD)
variable (x : SX.Idx → EReal) (Wq Wk Wv : SW.Idx → EReal)

/-! ### The points -/

/-- The point's coordinates are its query tile and key tile numbers. -/
theorem coords_at : ∀ t : Fin cfg1.N, ((grid1.coords t) 1).val = t.val / 4 % 2 ∧ ((grid1.coords t) 2).val = t.val % 4 :=
  (by decide +kernel : ∀ t : Fin grid1.N, ((grid1.coords t) 1).val = t.val / 4 % 2 ∧ ((grid1.coords t) 2).val = t.val % 4)

/-! ### The rows and what the region finds in the input arrays -/

/-- Row i's masked scaled scores against the batch's 2048 key rows, in 4 tiles of 512. -/
def sRow (b : Fin 4) (i : Fin 2048) : Fin (4 * 512) → EReal := fun j => score x Wq Wk b i j
/-- Column d of the batch's 2048 value rows, in 4 tiles of 512. -/
def vCol (b : Fin 4) (d : Fin 1024) : Fin (4 * 512) → EReal := fun j => proj x Wv b j d

/-- The input blocks at every point are blocks of the three projections: the query block is the point's query tile of
    the batch; the key and value blocks are the point's key tile, or the last tile not wholly after the query tile. -/
structure BlocksAre : Prop where
  q : ∀ (t : Fin cfg1.N) (r e : Fin 1024),
    (iblk1 V c 0 t : Vec Ideal S1x1024x1024 .bf16) (ix3 (0 : Fin 1) r e) = proj x Wq (bOf t) (qrow t r) e
  k : ∀ (t : Fin cfg1.N) (j : Fin 512) (e : Fin 1024),
    (iblk1 V c 1 t : Vec Ideal S1x512x1024 .bf16) (ix3 (0 : Fin 1) j e)
      = proj x Wk (bOf t) (krow t j) e
  v : ∀ (t : Fin cfg1.N) (j : Fin 512) (d : Fin 1024),
    (iblk1 V c 2 t : Vec Ideal S1x512x1024 .bf16) (ix3 (0 : Fin 1) j d)
      = proj x Wv (bOf t) (krow t j) d

variable {V c x Wq Wk Wv}

/-- At a point whose key tile is folded in, the tile's scores of a row and its values of a column are tile ki of the
    row's scores and of the column. -/
theorem tile_at (H : BlocksAre V c x Wq Wk Wv) (t : Fin cfg1.N) (hf : t.val % 8 < 2 ∨ 4 ≤ t.val % 8) (k : Fin 4) (hk : k.val = t.val % 4)
    (r d : Fin 1024) :
    (fun j : Fin 512 => k1_pay8 (F := Ideal) (BitVec.ofNat 32 ((grid1.coords t) 1).val) (BitVec.ofNat 32 ((grid1.coords t) 2).val)
        (iblk1 V c 0 t) (iblk1 V c 1 t) (ix2 r j))
      = (fun j : Fin 512 => sRow x Wq Wk (bOf t) (qrow t r) (tileIx 4 512 k j))
    ∧ (fun j : Fin 512 => (iblk1 V c 2 t : Vec Ideal S1x512x1024 .bf16) (ix3 (0 : Fin 1) j d))
      = (fun j : Fin 512 => vCol x Wv (bOf t) d (tileIx 4 512 k j)) := by
  have hlt := lt32 t
  have hmin : min (kiOf t) (2 * qiOf t + 1) = k.val := by
    rw [hk]; unfold kiOf qiOf; omega
  constructor
  · funext j
    rw [(coords_at t).1, (coords_at t).2, tile_scores (t.val / 4 % 2) (t.val % 4) (by omega) (by omega)]
    unfold sRow score
    have hcond : (t.val % 4 * 512 + j.val ≤ t.val / 4 % 2 * 1024 + r.val) ↔ ((tileIx 4 512 k j).val ≤ (qrow t r).val) := by
      show _ ↔ (k.val * 512 + j.val ≤ qiOf t * 1024 + r.val)
      rw [hk]; exact Iff.rfl
    refine if_congr hcond ?_ rfl
    refine congrArg (· * _) (Finset.sum_congr rfl (fun e _ => ?_))
    rw [H.q t r e, H.k t j e]
    refine congrArg (fun z => _ * proj x Wk (bOf t) z e) (Fin.ext ?_)
    show min (kiOf t) (2 * qiOf t + 1) * 512 + j.val = k.val * 512 + j.val
    rw [hmin]
  · funext j
    rw [H.v t j d]
    unfold vCol
    refine congrArg (fun z => proj x Wv (bOf t) z d) (Fin.ext ?_)
    show min (kiOf t) (2 * qiOf t + 1) * 512 + j.val = k.val * 512 + j.val
    rw [hmin]

/-! ### One point's effect on a row -/

/-- The scratch after a point that starts a row of tiles. -/
theorem stepAt_snd_A (t : Fin cfg1.N) (h0 : t.val % 4 = 0) (xs : St Ideal) : (stepAt V c t xs).2 = stA V c t h0 := by
  unfold stepAt; rw [dif_pos h0]

/-- The scratch after a point whose key tile is left out. -/
theorem stepAt_snd_skip (t : Fin cfg1.N) (h0 : ¬t.val % 4 = 0) (h1 : ¬(t.val % 8 < 2 ∨ 4 ≤ t.val % 8)) (xs : St Ideal) :
    (stepAt V c t xs).2 = xs := by
  unfold stepAt; rw [dif_neg h0, dif_neg h1]
  by_cases h2 : t.val % 4 = 3
  · rw [dif_pos h2]
  · rw [dif_neg h2]

/-- The output buffer after a last key tile: the numerator left over the denominator left. -/
theorem stepAt_fst_last (t : Fin cfg1.N) (h3 : t.val % 4 = 3) (xs : St Ideal) :
    (stepAt V c t xs).1 = k1_pay6 (F := Ideal) (stepAt V c t xs).2.2.2 (stepAt V c t xs).2.2.1 := by
  have h0 : ¬t.val % 4 = 0 := by omega
  unfold stepAt; rw [dif_neg h0]
  by_cases h1 : (t.val % 8 < 2 ∨ 4 ≤ t.val % 8)
  · rw [dif_pos h1, dif_pos h3]; dsimp only; exact outE_eq V c t h0 h1 h3 xs
  · rw [dif_neg h1, dif_pos h3]; dsimp only; exact outD_eq V c t h0 h1 h3 xs

/-- A row after a point that starts a row of tiles: the recurrence after one tile. -/
theorem row_A (H : BlocksAre V c x Wq Wk Wv) (t : Fin cfg1.N) (h0 : t.val % 4 = 0) (xs : St Ideal) (r d : Fin 1024) :
    rowSt (stepAt V c t xs).2.1 (stepAt V c t xs).2.2.1 (stepAt V c t xs).2.2.2 r d
      = run 4 512 (sRow x Wq Wk (bOf t) (qrow t r)) (vCol x Wv (bOf t) d) 1 := by
  rw [stepAt_snd_A t h0 xs, stA_eq]
  dsimp only
  refine (fold_row _ _ (iblk1 V c 0 t) (iblk1 V c 1 t) (iblk1 V c 2 t) _ _ _ r d).trans ?_
  rw [reset_row, (tile_at H t (by omega) ⟨0, by decide⟩ h0.symm r d).1, (tile_at H t (by omega) ⟨0, by decide⟩ h0.symm r d).2,
    run_succ_of_lt 4 512 _ _ 0 (by decide), run_zero]

/-- A row after a point whose key tile is folded in: the recurrence's step on tile ki. -/
theorem row_fold (H : BlocksAre V c x Wq Wk Wv) (t : Fin cfg1.N) (h0 : ¬t.val % 4 = 0) (h1 : t.val % 8 < 2 ∨ 4 ≤ t.val % 8)
    (xs : St Ideal) (r d : Fin 1024) :
    rowSt (stepAt V c t xs).2.1 (stepAt V c t xs).2.2.1 (stepAt V c t xs).2.2.2 r d
      = step (rowSt xs.1 xs.2.1 xs.2.2 r d)
          (fun j : Fin 512 => sRow x Wq Wk (bOf t) (qrow t r) (tileIx 4 512 ⟨t.val % 4, by omega⟩ j))
          (fun j : Fin 512 => vCol x Wv (bOf t) d (tileIx 4 512 ⟨t.val % 4, by omega⟩ j)) := by
  have hs : (stepAt V c t xs).2 = (k1_pay5 (F := Ideal) (k1_pay9 (F := Ideal) (BitVec.ofNat 32 ((grid1.coords t) 1).val) (BitVec.ofNat 32 ((grid1.coords t) 2).val) (iblk1 V c 0 t) (iblk1 V c 1 t) xs.1),
       k1_pay12 (F := Ideal) (BitVec.ofNat 32 ((grid1.coords t) 1).val) (BitVec.ofNat 32 ((grid1.coords t) 2).val) (iblk1 V c 0 t) (iblk1 V c 1 t) xs.1 xs.2.1,
       k1_pay4 (F := Ideal) (k1_pay7 (F := Ideal) (iblk1 V c 2 t)) (k1_pay10 (F := Ideal) (BitVec.ofNat 32 ((grid1.coords t) 1).val) (BitVec.ofNat 32 ((grid1.coords t) 2).val) (iblk1 V c 0 t) (iblk1 V c 1 t) xs.1) (k1_pay11 (F := Ideal) (BitVec.ofNat 32 ((grid1.coords t) 1).val) (BitVec.ofNat 32 ((grid1.coords t) 2).val) (iblk1 V c 0 t) (iblk1 V c 1 t) xs.1) xs.2.2) := by
    unfold stepAt; rw [dif_neg h0, dif_pos h1]
    by_cases h2 : t.val % 4 = 3
    · rw [dif_pos h2]; exact stE_eq V c t h0 h1 h2 xs
    · rw [dif_neg h2]; exact stB_eq V c t h0 h1 h2 xs
  rw [hs]
  dsimp only
  refine (fold_row _ _ (iblk1 V c 0 t) (iblk1 V c 1 t) (iblk1 V c 2 t) _ _ _ r d).trans ?_
  rw [(tile_at H t h1 ⟨t.val % 4, by omega⟩ rfl r d).1, (tile_at H t h1 ⟨t.val % 4, by omega⟩ rfl r d).2]

/-! ### The induction over the points -/

/-- After point n, a row of the scratch is the recurrence's state after the key tiles folded in so far. -/
theorem rows_after (H : BlocksAre V c x Wq Wk Wv) : ∀ (n : ℕ) (hn : n < cfg1.N) (r d : Fin 1024),
    rowSt (outsAt1 V c n hn).2.1 (outsAt1 V c n hn).2.2.1 (outsAt1 V c n hn).2.2.2 r d
      = run 4 512 (sRow x Wq Wk (bOf ⟨n, hn⟩) (qrow ⟨n, hn⟩ r)) (vCol x Wv (bOf ⟨n, hn⟩) d)
          (min (n % 4 + 1) (2 * (n / 4 % 2) + 2)) := by
  intro n
  induction n with
  | zero =>
    intro hn r d
    show rowSt (stepAt V c ⟨0, hn⟩ stJunk).2.1 (stepAt V c ⟨0, hn⟩ stJunk).2.2.1 (stepAt V c ⟨0, hn⟩ stJunk).2.2.2 r d = _
    exact row_A H ⟨0, hn⟩ rfl stJunk r d
  | succ n ih =>
    intro hn r d
    have hn' : n < cfg1.N := Nat.lt_of_succ_lt hn
    have h32 : n + 1 < 32 := lt32 ⟨n + 1, hn⟩
    show rowSt (stepAt V c ⟨n + 1, hn⟩ (outsAt1 V c n hn').2).2.1 (stepAt V c ⟨n + 1, hn⟩ (outsAt1 V c n hn').2).2.2.1
      (stepAt V c ⟨n + 1, hn⟩ (outsAt1 V c n hn').2).2.2.2 r d = _
    by_cases h0 : (n + 1) % 4 = 0
    · rw [row_A H ⟨n + 1, hn⟩ h0 (outsAt1 V c n hn').2 r d]
      have e : min ((n + 1) % 4 + 1) (2 * ((n + 1) / 4 % 2) + 2) = 1 := by omega
      rw [e]
    · -- the point before is of the same batch and query tile
      have hb : bOf ⟨n, hn'⟩ = bOf ⟨n + 1, hn⟩ := Fin.ext (by show n / 8 = (n + 1) / 8; omega)
      have hr : qrow ⟨n, hn'⟩ r = qrow ⟨n + 1, hn⟩ r :=
        Fin.ext (by show n / 4 % 2 * 1024 + r.val = (n + 1) / 4 % 2 * 1024 + r.val; omega)
      have ih' := ih hn' r d
      rw [hb, hr] at ih'
      by_cases h1 : ((n + 1) % 8 < 2 ∨ 4 ≤ (n + 1) % 8)
      · have e1 : min (n % 4 + 1) (2 * (n / 4 % 2) + 2) = (n + 1) % 4 := by omega
        have e2 : min ((n + 1) % 4 + 1) (2 * ((n + 1) / 4 % 2) + 2) = (n + 1) % 4 + 1 := by omega
        rw [row_fold H ⟨n + 1, hn⟩ h0 h1 (outsAt1 V c n hn').2 r d, ih', e1, e2,
          run_succ_of_lt 4 512 _ _ ((n + 1) % 4) (by omega)]
      · have e : min ((n + 1) % 4 + 1) (2 * ((n + 1) / 4 % 2) + 2) = min (n % 4 + 1) (2 * (n / 4 % 2) + 2) := by omega
        rw [stepAt_snd_skip ⟨n + 1, hn⟩ h0 h1 (outsAt1 V c n hn').2, ih', e]

/-! ### The output block -/

/-- At a last key tile the output block's row r is the attention of row r of the point's query tile. -/
theorem out_after (H : BlocksAre V c x Wq Wk Wv) (hx : ∀ i, ∃ r : ℝ, x i = (r : EReal)) (hWq : ∀ i, ∃ r : ℝ, Wq i = (r : EReal))
    (hWk : ∀ i, ∃ r : ℝ, Wk i = (r : EReal)) (hWv : ∀ i, ∃ r : ℝ, Wv i = (r : EReal))
    (t : Fin cfg1.N) (h3 : t.val % 4 = 3) (r d : Fin 1024) :
    (outsAt1 V c t.val t.isLt).1 (ix3 (0 : Fin 1) r d) = attn x Wq Wk Wv (bOf t) (qrow t r) d := by
  have h32 := lt32 t
  have hrows := rows_after H t.val t.isLt r d
  rw [outsAt1_eq V c t] at hrows ⊢
  rw [stepAt_fst_last t h3 (prevSt V c t), out_row]
  have hL : (stepAt V c t (prevSt V c t)).2.2.1 (ix2 r (0 : Fin 1)) = _ := congrArg (fun p : EReal × EReal × EReal => p.2.1) hrows
  have hA : (stepAt V c t (prevSt V c t)).2.2.2 (ix2 r d) = _ := congrArg (fun p : EReal × EReal × EReal => p.2.2) hrows
  rw [hL, hA]
  -- the row's scores and values
  have hs : ∀ j, sRow x Wq Wk (bOf t) (qrow t r) j = ⊥ ∨ ∃ z : ℝ, sRow x Wq Wk (bOf t) (qrow t r) j = (z : EReal) :=
    fun j => score_bot_or_real x Wq Wk hx hWq hWk (bOf t) (qrow t r) j
  have hs0 : ∃ z : ℝ, sRow x Wq Wk (bOf t) (qrow t r) ⟨0, Nat.mul_pos (by decide : 0 < 4) (by decide : 0 < 512)⟩ = (z : EReal) :=
    score_zero_real x Wq Wk hx hWq hWk (bOf t) (qrow t r)
  have hv : ∀ j, ∃ z : ℝ, vCol x Wv (bOf t) d j = (z : EReal) := fun j => proj_real x Wv hx hWv (bOf t) j d
  -- all four tiles: those left out are wholly -∞
  have hrun : run 4 512 (sRow x Wq Wk (bOf t) (qrow t r)) (vCol x Wv (bOf t) d) (min (t.val % 4 + 1) (2 * (t.val / 4 % 2) + 2))
      = run 4 512 (sRow x Wq Wk (bOf t) (qrow t r)) (vCol x Wv (bOf t) d) 4 := by
    rcases (by omega : t.val / 4 % 2 = 0 ∨ t.val / 4 % 2 = 1) with hq | hq
    · have e : min (t.val % 4 + 1) (2 * (t.val / 4 % 2) + 2) = 2 := by omega
      rw [e]
      refine (run_masked_tail 4 512 (by decide) (by decide) _ _ hs hs0 2 (by decide) (fun t' j ht' => ?_)).symm
      refine score_masked x Wq Wk (bOf t) (qrow t r) _ ?_
      show qiOf t * 1024 + r.val < t'.val * 512 + j.val
      have := r.isLt
      unfold qiOf; rw [hq]; omega
    · have e : min (t.val % 4 + 1) (2 * (t.val / 4 % 2) + 2) = 4 := by omega
      rw [e]
  rw [hrun]
  exact online_softmax 4 512 (by decide) (by decide) _ _ hs hs0 hv

end Cert.KernelIdeal.AttnV

end
-- ==== Proof.AttnValue.lean ====
/-
  The attention region's output array is the attention of the three projections: at every (batch, row, column) the
  softmax weights of the row's causally masked scaled scores against the column of the value rows. Each output block
  is written back at the last key tile of its query tile, where its rows are the attention of the tile's rows; the
  blocks tile the array.
-/
import proofs.«173625_j60997125538304_2_alg».proof.Proof.AttnRows

set_option maxRecDepth 16384

noncomputable section

namespace Cert.KernelIdeal.AttnV

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.KernelIdeal.Fr
open scoped BigOperators

/-- The output array after the attention region, given that the region finds the three projections in its input
    arrays and that the input and the weights are real. -/
theorem attn_array (V : (c : Dev nD) → (b : Ref sig .tc) → Buf (Elt Ideal) ((c : Thread nD τ).loc b)) (c : Dev nD)
    (x : SX.Idx → EReal) (Wq Wk Wv : SW.Idx → EReal)
    (hq : (V c main_v3_0 : S4x2048x1024.Idx → EReal) = fun i => proj x Wq (i 0) (i 1) (i 2))
    (hk : (V c main_v3_1 : S4x2048x1024.Idx → EReal) = fun i => proj x Wk (i 0) (i 1) (i 2))
    (hv : (V c main_v3_2 : S4x2048x1024.Idx → EReal) = fun i => proj x Wv (i 0) (i 1) (i 2))
    (hx : ∀ i, ∃ r : ℝ, x i = (r : EReal)) (hWq : ∀ i, ∃ r : ℝ, Wq i = (r : EReal))
    (hWk : ∀ i, ∃ r : ℝ, Wk i = (r : EReal)) (hWv : ∀ i, ∃ r : ℝ, Wv i = (r : EReal)) :
    (dat1 (F := Ideal) V c).arrAt 3 cfg1.N = fun i => attn x Wq Wk Wv (i 0) (i 1) (i 2) := by
  have H : BlocksAre V c x Wq Wk Wv :=
    ⟨fun t r e => (AttnB.iblk1_q V c t r e).trans (congrFun hq (ix3 (AttnB.bOf t) (AttnB.qrow t r) e)),
     fun t j e => (AttnB.iblk1_k V c t j e).trans (congrFun hk (ix3 (AttnB.bOf t) (AttnB.krow t j) e)),
     fun t j d => (AttnB.iblk1_v V c t j d).trans (congrFun hv (ix3 (AttnB.bOf t) (AttnB.krow t j) d))⟩
  exact AttnB.arrAt3_of_rows V c (fun i => attn x Wq Wk Wv (i 0) (i 1) (i 2))
    (fun t h3 r d => out_after H hx hWq hWk hWv t h3 r d)

end Cert.KernelIdeal.AttnV

end
-- ==== Proof.KernelValue.lean ====
/-
  The value of the idealized kernel program's result array: the attention of the launch contents of the four
  arguments. The projection region leaves q, k and v at the three projections of x by the weight matrices (the host
  casts are the identity on the extended reals); the attention region, entered from those, leaves the result array at
  the softmax-weighted sums — given that every input entry is a real number, which is what the precondition says.
-/
import proofs.«173625_j60997125538304_2_alg».proof.Proof.FrameMainI
import proofs.«173625_j60997125538304_2_alg».proof.Proof.ProjValue
import proofs.«173625_j60997125538304_2_alg».proof.Proof.HostCasts
import proofs.«173625_j60997125538304_2_alg».proof.Proof.FiniteInputs
import proofs.«173625_j60997125538304_2_alg».proof.Proof.AttnValue
import proofs.«173625_j60997125538304_2_alg».proof.Proof.AttnSpec
import proofs.«173625_j60997125538304_2_alg».proof.Defs

noncomputable section

namespace Cert.KernelIdeal.KV

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

/-- The attention region finds the q, k and v arrays at the projections of the launch contents. -/
theorem q_entry : (VV2 (F := Ideal) m c main_v3_0 : S4x2048x1024.Idx → EReal)
    = fun i => Cert.Attn.proj (m ((c : Thread nD τ).loc main_arg0)) (m ((c : Thread nD τ).loc main_arg1)) (i 0) (i 1) (i 2) := by
  have h1 : (VV2 (F := Ideal) m c main_v3_0 : S4x2048x1024.Idx → EReal) = (dat0 (F := Ideal) (VV1 m) c).arrAt 4 cfg0.N := WW2_arr m c 4
  rw [h1, Cert.KernelIdeal.ProjV.q_array (VV1 m) c]
  have e0 : (VV1 (F := Ideal) m c main_arg0 : S4x2048x1024.Idx → EReal) = m ((c : Thread nD τ).loc main_arg0) := Cert.KernelIdeal.ProjV.cast_arg0 m c
  have e1 : (VV1 (F := Ideal) m c main_v0 : S1024x1024.Idx → EReal) = m ((c : Thread nD τ).loc main_arg1) := Cert.KernelIdeal.ProjV.cast_v0 m c
  rw [e0, e1]
  rfl

theorem k_entry : (VV2 (F := Ideal) m c main_v3_1 : S4x2048x1024.Idx → EReal)
    = fun i => Cert.Attn.proj (m ((c : Thread nD τ).loc main_arg0)) (m ((c : Thread nD τ).loc main_arg2)) (i 0) (i 1) (i 2) := by
  have h1 : (VV2 (F := Ideal) m c main_v3_1 : S4x2048x1024.Idx → EReal) = (dat0 (F := Ideal) (VV1 m) c).arrAt 5 cfg0.N := WW2_arr m c 5
  rw [h1, Cert.KernelIdeal.ProjV.k_array (VV1 m) c]
  have e0 : (VV1 (F := Ideal) m c main_arg0 : S4x2048x1024.Idx → EReal) = m ((c : Thread nD τ).loc main_arg0) := Cert.KernelIdeal.ProjV.cast_arg0 m c
  have e1 : (VV1 (F := Ideal) m c main_v1 : S1024x1024.Idx → EReal) = m ((c : Thread nD τ).loc main_arg2) := Cert.KernelIdeal.ProjV.cast_v1 m c
  rw [e0, e1]
  rfl

theorem v_entry : (VV2 (F := Ideal) m c main_v3_2 : S4x2048x1024.Idx → EReal)
    = fun i => Cert.Attn.proj (m ((c : Thread nD τ).loc main_arg0)) (m ((c : Thread nD τ).loc main_arg3)) (i 0) (i 1) (i 2) := by
  have h1 : (VV2 (F := Ideal) m c main_v3_2 : S4x2048x1024.Idx → EReal) = (dat0 (F := Ideal) (VV1 m) c).arrAt 6 cfg0.N := WW2_arr m c 6
  rw [h1, Cert.KernelIdeal.ProjV.v_array (VV1 m) c]
  have e0 : (VV1 (F := Ideal) m c main_arg0 : S4x2048x1024.Idx → EReal) = m ((c : Thread nD τ).loc main_arg0) := Cert.KernelIdeal.ProjV.cast_arg0 m c
  have e1 : (VV1 (F := Ideal) m c main_v2 : S1024x1024.Idx → EReal) = m ((c : Thread nD τ).loc main_arg3) := Cert.KernelIdeal.ProjV.cast_v2 m c
  rw [e0, e1]
  rfl

/-- Under the precondition the result array ends at the attention of the four arguments' launch contents. -/
theorem final_eq [hPre : Cert.Pre_finite_inputs.Facts] (hpre : Cert.Pre_KernelIdeal m) :
    (dat1 (F := Ideal) (VV2 m) c).arrAt 3 cfg1.N
      = fun i => Cert.Attn.attn (m ((c : Thread nD τ).loc main_arg0)) (m ((c : Thread nD τ).loc main_arg1))
          (m ((c : Thread nD τ).loc main_arg2)) (m ((c : Thread nD τ).loc main_arg3)) (i 0) (i 1) (i 2) := by
  obtain ⟨h0, h1, h2, h3⟩ := Cert.Finite.args_real m hpre c
  exact Cert.KernelIdeal.AttnV.attn_array (VV2 m) c _ _ _ _ (q_entry m c) (k_entry m c) (v_entry m c) h0 h1 h2 h3

end Cert.KernelIdeal.KV

end
-- ==== Proof.lean ====
/-
  The certificate of a causal flash-attention kernel against its jnp reference, on the extended reals.
  The kernel program is two regions: the projections q, k, v = x · Wᵀ (the weights cast to bf16 on the host), and an
  online-softmax attention that walks the key tiles of each query tile keeping a running maximum, denominator and
  numerator in scratch, skipping the tiles wholly after the query tile and dividing at the last tile; its -1e30 mask
  value is named -∞. The reference is the plain masked softmax attention. Both frames of the kernel program are the
  launch theorem over @main's segments with one record per region (each region's body run case by case); the
  reference's frame is its run; the two named constants are the ledger's statements; and at the ideal values both
  programs end with the result array at one function of the arguments, Cert.Attn.attn: the reference by reading its
  operations one at a time, the kernel because the running triple after the tiles seen is the softmax triple of those
  tiles (one induction over the grid points), which needs every input entry to be a real — the precondition.
-/
import proofs.«173625_j60997125538304_2_alg».proof.Defs
import proofs.«173625_j60997125538304_2_alg».proof.Proof.Gen.Kernel
import proofs.«173625_j60997125538304_2_alg».proof.Proof.Gen.Kernel.Skeleton
import proofs.«173625_j60997125538304_2_alg».proof.Proof.Gen.Kernel.Launch
import proofs.«173625_j60997125538304_2_alg».proof.Proof.Gen.Kernel.Regions
import proofs.«173625_j60997125538304_2_alg».proof.Proof.Gen.Kernel.Points
import proofs.«173625_j60997125538304_2_alg».proof.Proof.Gen.KernelIdeal
import proofs.«173625_j60997125538304_2_alg».proof.Proof.Gen.KernelIdeal.Skeleton
import proofs.«173625_j60997125538304_2_alg».proof.Proof.Gen.KernelIdeal.Launch
import proofs.«173625_j60997125538304_2_alg».proof.Proof.Gen.KernelIdeal.Regions
import proofs.«173625_j60997125538304_2_alg».proof.Proof.Gen.KernelIdeal.Points
import proofs.«173625_j60997125538304_2_alg».proof.Proof.Gen.ReferenceIdeal
import proofs.«173625_j60997125538304_2_alg».proof.Proof.Gen.ReferenceIdeal.Run
import proofs.«173625_j60997125538304_2_alg».proof.Proof.Gen.ReferenceIdeal.Read
import proofs.«173625_j60997125538304_2_alg».proof.Proof.Gen.Pre_finite_inputs
import proofs.«173625_j60997125538304_2_alg».proof.Proof.FrameMainK
import proofs.«173625_j60997125538304_2_alg».proof.Proof.FrameMainI
import proofs.«173625_j60997125538304_2_alg».proof.Proof.RefAttn
import proofs.«173625_j60997125538304_2_alg».proof.Proof.KernelValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: the mask value -1e30, at its two sites, is named -∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- At the ideal values both programs end with the result array at the attention of the arguments. -/
theorem algebraic : Cert.algebraic_KernelIdeal_ReferenceIdeal := by
  intro m ρ m' ρ' hpre hagree
  refine ⟨fun c => fun i => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2), ?_, ?_⟩
  · exact (θ_run Cert.KernelIdeal.defs _ _).mono
      (fun _ h c => ⟨(h c).1.trans (Cert.KernelIdeal.KV.final_eq m c hpre), (h c).2⟩)
      (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2]
    funext i
    rw [ValueIdx.eq_ix3 i]
    exact Cert.RefAttn.ref_is_attn _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
